-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩

abbrev nBuf : Space → Nat
  | .hbm => 85
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S100000, .f32⟩
  | .hbm, ⟨13, _⟩ => ⟨S800000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S800000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x1, .f32⟩
  | .hbm, ⟨35, _⟩ => ⟨S100000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S100000x128, .f32⟩
  | .hbm, ⟨47, _⟩ => ⟨S800000x1, .i32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S100000x128, .f32⟩
  | .hbm, ⟨63, _⟩ => ⟨S800000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S_, .f32⟩
  | .hbm, ⟨78, _⟩ => ⟨S100000x128, .f32⟩
  | .hbm, ⟨79, _⟩ => ⟨S800000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S1x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | .local _ .vmem, ⟨22, _⟩ => ⟨S2000x1, .f32⟩
  | .local _ .vmem, ⟨23, _⟩ => ⟨S2000x1, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x1, .f32⟩
  | .local _ .vmem, ⟨33, _⟩ => ⟨S2000x1, .f32⟩
  | .local _ .vmem, ⟨34, _⟩ => ⟨S2000x1, .f32⟩
  | .local _ .vmem, ⟨35, _⟩ => ⟨S2000x1, .f32⟩
  | .local _ .vmem, ⟨36, _⟩ => ⟨S128x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S1x128, .f32⟩
  | .local _ .vmem, ⟨45, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_c_9 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_10 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39_0 : Ref sig .tc := ⟨.hbm, 66, rfl⟩
abbrev main_v39_1 : Ref sig .tc := ⟨.hbm, 67, rfl⟩
abbrev main_c_11 : Ref sig .tc := ⟨.hbm, 68, rfl⟩
abbrev main_v40 : Ref sig .tc := ⟨.hbm, 69, rfl⟩
abbrev main_v41 : Ref sig .tc := ⟨.hbm, 70, rfl⟩
abbrev main_c_12 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_13 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51_0 : Ref sig .tc := ⟨.hbm, 82, rfl⟩
abbrev main_v51_1 : Ref sig .tc := ⟨.hbm, 83, rfl⟩
abbrev main_v52 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v12 : BitVec 1 := Scalar.cmpi .eq arg0 c49_i32
  let v13 : BitVec 32 := Scalar.extui v12
  let c0_i32_6 : BitVec 32 := 0#32
  let v14 : BitVec 1 := Scalar.cmpi .ne v13 c0_i32_6
  v14

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v39_1) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v49) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51_0) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v51_1) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v51_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S1x128.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev idle4 : Fin 2 → grid4.Coords → Bool := fun | 0 => fun _ => false | 1 => fun i => !(k4_cond2 i == 1#1) | ⟨_ + 2, h⟩ => absurd h (Nat.not_lt.2 (Nat.le_add_left _ _))

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S100000, .f32⟩
  | .hbm, ⟨13, _⟩ => ⟨S800000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S800000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S100000x128, .f32⟩
  | .hbm, ⟨47, _⟩ => ⟨S800000x1, .i32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .f32⟩
  | .hbm, ⟨72, _⟩ => ⟨S100000x128, .f32⟩
  | .hbm, ⟨73, _⟩ => ⟨S800000x1, .i32⟩
  | .hbm, ⟨74, _⟩ => ⟨S100000x128, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x128, .f32⟩
  | .hbm, ⟨97, _⟩ => ⟨S_, .f32⟩
  | .hbm, ⟨98, _⟩ => ⟨S100000x128, .f32⟩
  | .hbm, ⟨99, _⟩ => ⟨S800000x1, .i32⟩
  | .hbm, ⟨100, _⟩ => ⟨S100000x128, .f32⟩
  | .hbm, ⟨101, _⟩ => ⟨S100000x1, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S_, .f32⟩
  | .hbm, ⟨112, _⟩ => ⟨S128, .f32⟩
  | .hbm, ⟨113, _⟩ => ⟨S1x128, .f32⟩
  | .hbm, ⟨114, _⟩ => ⟨S_, .f32⟩
  | .hbm, ⟨115, _⟩ => ⟨S1x128, .f32⟩
  | .hbm, ⟨116, _⟩ => ⟨S1x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call3_cst : Ref sig .tc := ⟨.hbm, 82, rfl⟩
abbrev main_call3_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call4_cst : Ref sig .tc := ⟨.hbm, 108, rfl⟩
abbrev main_call4_v0 : Ref sig .tc := ⟨.hbm, 109, rfl⟩
abbrev main_v75 : Ref sig .tc := ⟨.hbm, 110, rfl⟩
abbrev main_cst_14 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S1x128 : S_.BroadcastsInDim S1x128 (![] : Fin 0 → Fin S1x128.rank)
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.Segs.lean ====
/-
  One segment record per kernel region, for ANY proof data of the region whose arrays are the contents the region is
  entered with, whose invariant is entered from and gives back the plain region invariant (the scoped buffers no window
  stages, each at some contents, and the generator register at some state), which holds full shares and owes nothing,
  and whose body obligation is proved. The region is entered holding every unscoped buffer of the core at the entry
  valuation and left holding them at the exit valuation: the windows' arrays are split out of the unscoped buffers
  at entry and put back at what the write-backs leave at exit; every other unscoped buffer bypasses the region.
-/
import proofs.«175313_j15590731285054_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No kernel of this program has a variant, no core owes another anything: no level is assigned. -/
abbrev 𝒱₀ : Variants := Variants.none
abbrev L : GSem nD τ sig → Finset Unit := fun _ => ∅
abbrev lv : GSem nD τ sig → Unit → ℕ := fun _ _ => 0
/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)

/-- A family of proof data, one per pipeline and core. -/
abbrev PD : Type _ := (p : Fin 5) → (c : Dev nD) → Dat τ (Elt F) Unit ℕ (UR sig nD τ) ℕ (cfgs p) c

-- a library lemma stated over the pinned configuration unifies with the printed one only when unification may unfold
-- definitions in a metavariable's type
set_option backward.isDefEq.respectTransparency.types false in
/-- Region 0: entered with the unscoped buffers at `Vin`, left with them at `Vout`, which has the region's arrays at
    what the write-backs leave (`hF`) and agrees with `Vin` elsewhere (`hrest`). -/
def reg0 (pdats : PD (F := F)) (Vin Vout : Dev nD → Valuation τ sig (Elt F))
    (hq : ∀ c w, (pdats 0 c).q w = fullShare) (howed : ∀ c t, (pdats 0 c).owed t = 0)
    (hrec : ∀ c t, (pdats 0 c).recorded t = Set.univ)
    (hA : ∀ c w, (pdats 0 c).A w = Vin c (Pipeline.arrRef spec0 w))
    (hbody : ∀ c, BodyObligation (pdats 0 c) (defs₀ (F := F)) 𝒱₀ () Set.univ)
    (hin : ∀ c, (Pipeline.ΦA spec0 c : sProp 𝕄) ⊢ (pdats 0 c).Φ 0)
    (hout : ∀ c, (pdats 0 c).Φ (Fin.last cfg0.N) ⊢ (Pipeline.ΦA spec0 c : sProp 𝕄))
    (hF : ∀ c w, (pdats 0 c).arrAt w cfg0.N = Vout c (Pipeline.arrRef spec0 w))
    (hrest : ∀ c (b : Ref sig .tc), b ∉ Finset.univ.image (Pipeline.arrRef spec0) → Vout c b = Vin c b) :
    Pipeline.RegionSeg (pcfgs (F := F)) adm pdats () defs₀ 𝒱₀ L lv 0 where
  win := launch0.win.to₀
  block_pos := launch0.block_pos
  stage_whole := launch0.stage_whole
  K := PEmpty
  osem k := k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec0 c (fun b => Vin c b)
  hentry c := by
    rw [Pipeline.ownSems0_none]
    have hsplit := Pipeline.arrays_of_unscopedBufs (p := 0) (pcfgs (F := F)) adm pdats launch0.win launch0.arr_whole c
      ((pdats 0 c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats ((pdats 0 c).share_full (hq c))
      (fun b => Vin c b) (fun b => Vout c b) ((pdats 0 c).arrAt · cfg0.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

-- a library lemma stated over the pinned configuration unifies with the printed one only when unification may unfold
-- definitions in a metavariable's type
set_option backward.isDefEq.respectTransparency.types false in
/-- Region 1: entered with the unscoped buffers at `Vin`, left with them at `Vout`, which has the region's arrays at
    what the write-backs leave (`hF`) and agrees with `Vin` elsewhere (`hrest`). -/
def reg1 (pdats : PD (F := F)) (Vin Vout : Dev nD → Valuation τ sig (Elt F))
    (hq : ∀ c w, (pdats 1 c).q w = fullShare) (howed : ∀ c t, (pdats 1 c).owed t = 0)
    (hrec : ∀ c t, (pdats 1 c).recorded t = Set.univ)
    (hA : ∀ c w, (pdats 1 c).A w = Vin c (Pipeline.arrRef spec1 w))
    (hbody : ∀ c, BodyObligation (pdats 1 c) (defs₀ (F := F)) 𝒱₀ () Set.univ)
    (hin : ∀ c, (Pipeline.ΦA spec1 c : sProp 𝕄) ⊢ (pdats 1 c).Φ 0)
    (hout : ∀ c, (pdats 1 c).Φ (Fin.last cfg1.N) ⊢ (Pipeline.ΦA spec1 c : sProp 𝕄))
    (hF : ∀ c w, (pdats 1 c).arrAt w cfg1.N = Vout c (Pipeline.arrRef spec1 w))
    (hrest : ∀ c (b : Ref sig .tc), b ∉ Finset.univ.image (Pipeline.arrRef spec1) → Vout c b = Vin c b) :
    Pipeline.RegionSeg (pcfgs (F := F)) adm pdats () defs₀ 𝒱₀ L lv 1 where
  win := launch1.win.to₀
  block_pos := launch1.block_pos
  stage_whole := launch1.stage_whole
  K := PEmpty
  osem k := k.elim
  ho := Pipeline.OwnSemFacts.none _
  hbody c := (hbody c).loose
  hwaits := Pipeline.hwaits_of_owed_zero _ _ _ _ L lv 1 howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec1 c (fun b => Vin c b)
  hentry c := by
    rw [Pipeline.ownSems0_none]
    have hsplit := Pipeline.arrays_of_unscopedBufs (p := 1) (pcfgs (F := F)) adm pdats launch1.win launch1.arr_whole c
      ((pdats 1 c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats ((pdats 1 c).share_full (hq c))
      (fun b => Vin c b) (fun b => Vout c b) ((pdats 1 c).arrAt · cfg1.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

-- a library lemma stated over the pinned configuration unifies with the printed one only when unification may unfold
-- definitions in a metavariable's type
set_option backward.isDefEq.respectTransparency.types false in
/-- Region 2: entered with the unscoped buffers at `Vin`, left with them at `Vout`, which has the region's arrays at
    what the write-backs leave (`hF`) and agrees with `Vin` elsewhere (`hrest`). -/
def reg2 (pdats : PD (F := F)) (Vin Vout : Dev nD → Valuation τ sig (Elt F))
    (hq : ∀ c w, (pdats 2 c).q w = fullShare) (howed : ∀ c t, (pdats 2 c).owed t = 0)
    (hrec : ∀ c t, (pdats 2 c).recorded t = Set.univ)
    (hA : ∀ c w, (pdats 2 c).A w = Vin c (Pipeline.arrRef spec2 w))
    (hbody : ∀ c, BodyObligation (pdats 2 c) (defs₀ (F := F)) 𝒱₀ () Set.univ)
    (hin : ∀ c, (Pipeline.ΦA spec2 c : sProp 𝕄) ⊢ (pdats 2 c).Φ 0)
    (hout : ∀ c, (pdats 2 c).Φ (Fin.last cfg2.N) ⊢ (Pipeline.ΦA spec2 c : sProp 𝕄))
    (hF : ∀ c w, (pdats 2 c).arrAt w cfg2.N = Vout c (Pipeline.arrRef spec2 w))
    (hrest : ∀ c (b : Ref sig .tc), b ∉ Finset.univ.image (Pipeline.arrRef spec2) → Vout c b = Vin c b) :
    Pipeline.RegionSeg (pcfgs (F := F)) adm pdats () defs₀ 𝒱₀ L lv 2 where
  win := launch2.win.to₀
  block_pos := launch2.block_pos
  stage_whole := launch2.stage_whole
  K := PEmpty
  osem k := k.elim
  ho := Pipeline.OwnSemFacts.none _
  hbody c := (hbody c).loose
  hwaits := Pipeline.hwaits_of_owed_zero _ _ _ _ L lv 2 howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec2 c (fun b => Vin c b)
  hentry c := by
    rw [Pipeline.ownSems0_none]
    have hsplit := Pipeline.arrays_of_unscopedBufs (p := 2) (pcfgs (F := F)) adm pdats launch2.win launch2.arr_whole c
      ((pdats 2 c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c pdats ((pdats 2 c).share_full (hq c))
      (fun b => Vin c b) (fun b => Vout c b) ((pdats 2 c).arrAt · cfg2.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

-- a library lemma stated over the pinned configuration unifies with the printed one only when unification may unfold
-- definitions in a metavariable's type
set_option backward.isDefEq.respectTransparency.types false in
/-- Region 3: entered with the unscoped buffers at `Vin`, left with them at `Vout`, which has the region's arrays at
    what the write-backs leave (`hF`) and agrees with `Vin` elsewhere (`hrest`). -/
def reg3 (pdats : PD (F := F)) (Vin Vout : Dev nD → Valuation τ sig (Elt F))
    (hq : ∀ c w, (pdats 3 c).q w = fullShare) (howed : ∀ c t, (pdats 3 c).owed t = 0)
    (hrec : ∀ c t, (pdats 3 c).recorded t = Set.univ)
    (hA : ∀ c w, (pdats 3 c).A w = Vin c (Pipeline.arrRef spec3 w))
    (hbody : ∀ c, BodyObligation (pdats 3 c) (defs₀ (F := F)) 𝒱₀ () Set.univ)
    (hin : ∀ c, (Pipeline.ΦA spec3 c : sProp 𝕄) ⊢ (pdats 3 c).Φ 0)
    (hout : ∀ c, (pdats 3 c).Φ (Fin.last cfg3.N) ⊢ (Pipeline.ΦA spec3 c : sProp 𝕄))
    (hF : ∀ c w, (pdats 3 c).arrAt w cfg3.N = Vout c (Pipeline.arrRef spec3 w))
    (hrest : ∀ c (b : Ref sig .tc), b ∉ Finset.univ.image (Pipeline.arrRef spec3) → Vout c b = Vin c b) :
    Pipeline.RegionSeg (pcfgs (F := F)) adm pdats () defs₀ 𝒱₀ L lv 3 where
  win := launch3.win.to₀
  block_pos := launch3.block_pos
  stage_whole := launch3.stage_whole
  K := PEmpty
  osem k := k.elim
  ho := Pipeline.OwnSemFacts.none _
  hbody c := (hbody c).loose
  hwaits := Pipeline.hwaits_of_owed_zero _ _ _ _ L lv 3 howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec3 c (fun b => Vin c b)
  hentry c := by
    rw [Pipeline.ownSems0_none]
    have hsplit := Pipeline.arrays_of_unscopedBufs (p := 3) (pcfgs (F := F)) adm pdats launch3.win launch3.arr_whole c
      ((pdats 3 c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c pdats ((pdats 3 c).share_full (hq c))
      (fun b => Vin c b) (fun b => Vout c b) ((pdats 3 c).arrAt · cfg3.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

-- a library lemma stated over the pinned configuration unifies with the printed one only when unification may unfold
-- definitions in a metavariable's type
set_option backward.isDefEq.respectTransparency.types false in
/-- Region 4: entered with the unscoped buffers at `Vin`, left with them at `Vout`, which has the region's arrays at
    what the write-backs leave (`hF`) and agrees with `Vin` elsewhere (`hrest`). -/
def reg4 (pdats : PD (F := F)) (Vin Vout : Dev nD → Valuation τ sig (Elt F))
    (hq : ∀ c w, (pdats 4 c).q w = fullShare) (howed : ∀ c t, (pdats 4 c).owed t = 0)
    (hrec : ∀ c t, (pdats 4 c).recorded t = Set.univ)
    (hA : ∀ c w, (pdats 4 c).A w = Vin c (Pipeline.arrRef spec4 w))
    (hbody : ∀ c, BodyObligation (pdats 4 c) (defs₀ (F := F)) 𝒱₀ () Set.univ)
    (hin : ∀ c, (Pipeline.ΦA spec4 c : sProp 𝕄) ⊢ (pdats 4 c).Φ 0)
    (hout : ∀ c, (pdats 4 c).Φ (Fin.last cfg4.N) ⊢ (Pipeline.ΦA spec4 c : sProp 𝕄))
    (hF : ∀ c w, (pdats 4 c).arrAt w cfg4.N = Vout c (Pipeline.arrRef spec4 w))
    (hrest : ∀ c (b : Ref sig .tc), b ∉ Finset.univ.image (Pipeline.arrRef spec4) → Vout c b = Vin c b) :
    Pipeline.RegionSeg (pcfgs (F := F)) adm pdats () defs₀ 𝒱₀ L lv 4 where
  win := launch4.win.to₀
  block_pos := launch4.block_pos
  stage_whole := launch4.stage_whole
  K := PEmpty
  osem k := k.elim
  ho := Pipeline.OwnSemFacts.none _
  hbody c := (hbody c).loose
  hwaits := Pipeline.hwaits_of_owed_zero _ _ _ _ L lv 4 howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec4 c (fun b => Vin c b)
  hentry c := by
    rw [Pipeline.ownSems0_none]
    have hsplit := Pipeline.arrays_of_unscopedBufs (p := 4) (pcfgs (F := F)) adm pdats launch4.win launch4.arr_whole c
      ((pdats 4 c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c pdats ((pdats 4 c).share_full (hq c))
      (fun b => Vin c b) (fun b => Vout c b) ((pdats 4 c).arrAt · cfg4.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Cert.Kernel.Hand

end
-- ==== Proof.K.Run.lean ====
/-
  The kernel program's run as a chain of buffer contents. Core `c` starts from the launch memory; each host stretch
  replaces the contents by the stretch's operations applied in order; each kernel region replaces its windows' arrays
  by what its write-backs leave (an input array is left as it was entered) and changes no other unscoped buffer. Given
  the five regions' halves, every weakly fair execution of @main terminates, and every unscoped buffer ends at the
  chain's last contents: the two results and the nine argument arrays are read off it.
-/
import proofs.«175313_j15590731285054_1_alg».proof.Proof.K.Segs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents read at its own references. -/
abbrev VT : Type := (c : Dev nD) → (b : Ref sig .tc) → Buf (Elt F) ((c : Thread nD τ).loc b)

/-- What region 0's half provides at every entry contents `V`: proof data whose arrays are `V`'s, at full shares, owing
    nothing, every cell recorded; the body obligation; the plain region invariant in and out. -/
structure Half0 where
  D : VT (F := F) → (c : Dev nD) → Dat τ (Elt F) Unit ℕ (UR sig nD τ) ℕ cfg0 c
  hq : ∀ V c w, (D V c).q w = fullShare
  howed : ∀ V c t, (D V c).owed t = 0
  hrec : ∀ V c t, (D V c).recorded t = Set.univ
  hA : ∀ V c w, (D V c).A w = V c (Pipeline.arrRef spec0 w)
  hbody : ∀ V c, BodyObligation (D V c) (defs₀ (F := F)) 𝒱₀ () Set.univ
  hin : ∀ V c, (Pipeline.ΦA spec0 c : sProp 𝕄) ⊢ (D V c).Φ 0
  hout : ∀ V c, (D V c).Φ (Fin.last cfg0.N) ⊢ (Pipeline.ΦA spec0 c : sProp 𝕄)

/-- What region 1's half provides at every entry contents `V`: proof data whose arrays are `V`'s, at full shares, owing
    nothing, every cell recorded; the body obligation; the plain region invariant in and out. -/
structure Half1 where
  D : VT (F := F) → (c : Dev nD) → Dat τ (Elt F) Unit ℕ (UR sig nD τ) ℕ cfg1 c
  hq : ∀ V c w, (D V c).q w = fullShare
  howed : ∀ V c t, (D V c).owed t = 0
  hrec : ∀ V c t, (D V c).recorded t = Set.univ
  hA : ∀ V c w, (D V c).A w = V c (Pipeline.arrRef spec1 w)
  hbody : ∀ V c, BodyObligation (D V c) (defs₀ (F := F)) 𝒱₀ () Set.univ
  hin : ∀ V c, (Pipeline.ΦA spec1 c : sProp 𝕄) ⊢ (D V c).Φ 0
  hout : ∀ V c, (D V c).Φ (Fin.last cfg1.N) ⊢ (Pipeline.ΦA spec1 c : sProp 𝕄)

/-- What region 2's half provides at every entry contents `V`: proof data whose arrays are `V`'s, at full shares, owing
    nothing, every cell recorded; the body obligation; the plain region invariant in and out. -/
structure Half2 where
  D : VT (F := F) → (c : Dev nD) → Dat τ (Elt F) Unit ℕ (UR sig nD τ) ℕ cfg2 c
  hq : ∀ V c w, (D V c).q w = fullShare
  howed : ∀ V c t, (D V c).owed t = 0
  hrec : ∀ V c t, (D V c).recorded t = Set.univ
  hA : ∀ V c w, (D V c).A w = V c (Pipeline.arrRef spec2 w)
  hbody : ∀ V c, BodyObligation (D V c) (defs₀ (F := F)) 𝒱₀ () Set.univ
  hin : ∀ V c, (Pipeline.ΦA spec2 c : sProp 𝕄) ⊢ (D V c).Φ 0
  hout : ∀ V c, (D V c).Φ (Fin.last cfg2.N) ⊢ (Pipeline.ΦA spec2 c : sProp 𝕄)

/-- What region 3's half provides at every entry contents `V`: proof data whose arrays are `V`'s, at full shares, owing
    nothing, every cell recorded; the body obligation; the plain region invariant in and out. -/
structure Half3 where
  D : VT (F := F) → (c : Dev nD) → Dat τ (Elt F) Unit ℕ (UR sig nD τ) ℕ cfg3 c
  hq : ∀ V c w, (D V c).q w = fullShare
  howed : ∀ V c t, (D V c).owed t = 0
  hrec : ∀ V c t, (D V c).recorded t = Set.univ
  hA : ∀ V c w, (D V c).A w = V c (Pipeline.arrRef spec3 w)
  hbody : ∀ V c, BodyObligation (D V c) (defs₀ (F := F)) 𝒱₀ () Set.univ
  hin : ∀ V c, (Pipeline.ΦA spec3 c : sProp 𝕄) ⊢ (D V c).Φ 0
  hout : ∀ V c, (D V c).Φ (Fin.last cfg3.N) ⊢ (Pipeline.ΦA spec3 c : sProp 𝕄)

/-- What region 4's half provides at every entry contents `V`: proof data whose arrays are `V`'s, at full shares, owing
    nothing, every cell recorded; the body obligation; the plain region invariant in and out. -/
structure Half4 where
  D : VT (F := F) → (c : Dev nD) → Dat τ (Elt F) Unit ℕ (UR sig nD τ) ℕ cfg4 c
  hq : ∀ V c w, (D V c).q w = fullShare
  howed : ∀ V c t, (D V c).owed t = 0
  hrec : ∀ V c t, (D V c).recorded t = Set.univ
  hA : ∀ V c w, (D V c).A w = V c (Pipeline.arrRef spec4 w)
  hbody : ∀ V c, BodyObligation (D V c) (defs₀ (F := F)) 𝒱₀ () Set.univ
  hin : ∀ V c, (Pipeline.ΦA spec4 c : sProp 𝕄) ⊢ (D V c).Φ 0
  hout : ∀ V c, (D V c).Φ (Fin.last cfg4.N) ⊢ (Pipeline.ΦA spec4 c : sProp 𝕄)

variable (m : (ℓ : Loc nD τ sig) → Buf (Elt F) ℓ)
variable (h0 : Half0 (F := F)) (h1 : Half1 (F := F)) (h2 : Half2 (F := F)) (h3 : Half3 (F := F)) (h4 : Half4 (F := F))

/-! ## The buffer contents at each boundary -/

/-- At launch. -/
def W0 (c : Dev nD) : Valuation τ sig (Elt F) := fun b => m (c, b)
/-- After the five host stretches before the first region: the degrees, their clamps and powers, the two norms as columns. -/
def W1 (c : Dev nD) : Valuation τ sig (Elt F) := StableHlo.after hostOps0 (W0 m c)
def W2 (c : Dev nD) : Valuation τ sig (Elt F) := StableHlo.after hostOps0_1 (W1 m c)
def W3 (c : Dev nD) : Valuation τ sig (Elt F) := StableHlo.after hostOps0_2 (W2 m c)
def W4 (c : Dev nD) : Valuation τ sig (Elt F) := StableHlo.after hostOps0_3 (W3 m c)
def W5 (c : Dev nD) : Valuation τ sig (Elt F) := StableHlo.after hostOps0_4 (W4 m c)
def Vr5 : VT (F := F) := fun c b => W5 m c b
/-- After the row-scale region. -/
def W6 (c : Dev nD) : Valuation τ sig (Elt F) := Pipeline.withArrays spec0 c (W5 m c) fun w => (h0.D (Vr5 m) c).arrAt w cfg0.N
/-- After the first gather / scatter-add stretch. -/
def W7 (c : Dev nD) : Valuation τ sig (Elt F) := StableHlo.after hostOps1 (W6 m h0 c)
def Vr7 : VT (F := F) := fun c b => W7 m h0 c b
/-- After the first layer region. -/
def W8 (c : Dev nD) : Valuation τ sig (Elt F) := Pipeline.withArrays spec1 c (W7 m h0 c) fun w => (h1.D (Vr7 m h0) c).arrAt w cfg1.N
def W9 (c : Dev nD) : Valuation τ sig (Elt F) := StableHlo.after hostOps2 (W8 m h0 h1 c)
def Vr9 : VT (F := F) := fun c b => W9 m h0 h1 c b
/-- After the second layer region. -/
def W10 (c : Dev nD) : Valuation τ sig (Elt F) := Pipeline.withArrays spec2 c (W9 m h0 h1 c) fun w => (h2.D (Vr9 m h0 h1) c).arrAt w cfg2.N
def W11 (c : Dev nD) : Valuation τ sig (Elt F) := StableHlo.after hostOps3 (W10 m h0 h1 h2 c)
def Vr11 : VT (F := F) := fun c b => W11 m h0 h1 h2 c b
/-- After the third layer region. -/
def W12 (c : Dev nD) : Valuation τ sig (Elt F) := Pipeline.withArrays spec3 c (W11 m h0 h1 h2 c) fun w => (h3.D (Vr11 m h0 h1 h2) c).arrAt w cfg3.N
def Vr12 : VT (F := F) := fun c b => W12 m h0 h1 h2 h3 c b
/-- After the mean region: the end. -/
def W13 (c : Dev nD) : Valuation τ sig (Elt F) := Pipeline.withArrays spec4 c (W12 m h0 h1 h2 h3 c) fun w => (h4.D (Vr12 m h0 h1 h2 h3) c).arrAt w cfg4.N

/-! ## The proof data family and the segments -/

/-- Every pipeline's proof data, each at its region's entry contents. -/
def pdats : PD (F := F)
  | ⟨0, _⟩ => fun c => h0.D (Vr5 m) c
  | ⟨1, _⟩ => fun c => h1.D (Vr7 m h0) c
  | ⟨2, _⟩ => fun c => h2.D (Vr9 m h0 h1) c
  | ⟨3, _⟩ => fun c => h3.D (Vr11 m h0 h1 h2) c
  | ⟨4, _⟩ => fun c => h4.D (Vr12 m h0 h1 h2 h3) c

/-- A host stretch as a segment over the unscoped references from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

theorem W6_arr (c : Dev nD) (w : Fin cfg0.W) :
    W6 m h0 c (Proc.devRef .tc (Pipeline.arrRef spec0 w)) = (h0.D (Vr5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m h0 c (Proc.devRef .tc b) = W5 m c (Proc.devRef .tc b) := by
  unfold W6; exact Pipeline.withArrays_of_ne spec0 c _ _ b hb

/-- Region 0 as a segment: entered at `W5`, left at `W6`. -/
def r0 : Pipeline.RegionSeg (pcfgs (F := F)) adm (pdats m h0 h1 h2 h3 h4) () defs₀ 𝒱₀ L lv 0 :=
  reg0 (pdats m h0 h1 h2 h3 h4) (W5 m) (W6 m h0)
    (fun c w => h0.hq _ c w) (fun c t => h0.howed _ c t) (fun c t => h0.hrec _ c t) (fun c w => h0.hA _ c w)
    (fun c => h0.hbody _ c) (fun c => h0.hin _ c) (fun c => h0.hout _ c)
    (fun c w => (W6_arr m h0 c w).symm)
    (fun c b hb => W6_of_ne m h0 c b fun w e => hb (Finset.mem_image.mpr ⟨w, Finset.mem_univ _, e⟩))

theorem W8_arr (c : Dev nD) (w : Fin cfg1.W) :
    W8 m h0 h1 c (Proc.devRef .tc (Pipeline.arrRef spec1 w)) = (h1.D (Vr7 m h0) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m h0 h1 c (Proc.devRef .tc b) = W7 m h0 c (Proc.devRef .tc b) := by
  unfold W8; exact Pipeline.withArrays_of_ne spec1 c _ _ b hb

/-- Region 1 as a segment: entered at `W7`, left at `W8`. -/
def r1 : Pipeline.RegionSeg (pcfgs (F := F)) adm (pdats m h0 h1 h2 h3 h4) () defs₀ 𝒱₀ L lv 1 :=
  reg1 (pdats m h0 h1 h2 h3 h4) (W7 m h0) (W8 m h0 h1)
    (fun c w => h1.hq _ c w) (fun c t => h1.howed _ c t) (fun c t => h1.hrec _ c t) (fun c w => h1.hA _ c w)
    (fun c => h1.hbody _ c) (fun c => h1.hin _ c) (fun c => h1.hout _ c)
    (fun c w => (W8_arr m h0 h1 c w).symm)
    (fun c b hb => W8_of_ne m h0 h1 c b fun w e => hb (Finset.mem_image.mpr ⟨w, Finset.mem_univ _, e⟩))

theorem W10_arr (c : Dev nD) (w : Fin cfg2.W) :
    W10 m h0 h1 h2 c (Proc.devRef .tc (Pipeline.arrRef spec2 w)) = (h2.D (Vr9 m h0 h1) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m h0 h1 h2 c (Proc.devRef .tc b) = W9 m h0 h1 c (Proc.devRef .tc b) := by
  unfold W10; exact Pipeline.withArrays_of_ne spec2 c _ _ b hb

/-- Region 2 as a segment: entered at `W9`, left at `W10`. -/
def r2 : Pipeline.RegionSeg (pcfgs (F := F)) adm (pdats m h0 h1 h2 h3 h4) () defs₀ 𝒱₀ L lv 2 :=
  reg2 (pdats m h0 h1 h2 h3 h4) (W9 m h0 h1) (W10 m h0 h1 h2)
    (fun c w => h2.hq _ c w) (fun c t => h2.howed _ c t) (fun c t => h2.hrec _ c t) (fun c w => h2.hA _ c w)
    (fun c => h2.hbody _ c) (fun c => h2.hin _ c) (fun c => h2.hout _ c)
    (fun c w => (W10_arr m h0 h1 h2 c w).symm)
    (fun c b hb => W10_of_ne m h0 h1 h2 c b fun w e => hb (Finset.mem_image.mpr ⟨w, Finset.mem_univ _, e⟩))

theorem W12_arr (c : Dev nD) (w : Fin cfg3.W) :
    W12 m h0 h1 h2 h3 c (Proc.devRef .tc (Pipeline.arrRef spec3 w)) = (h3.D (Vr11 m h0 h1 h2) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m h0 h1 h2 h3 c (Proc.devRef .tc b) = W11 m h0 h1 h2 c (Proc.devRef .tc b) := by
  unfold W12; exact Pipeline.withArrays_of_ne spec3 c _ _ b hb

/-- Region 3 as a segment: entered at `W11`, left at `W12`. -/
def r3 : Pipeline.RegionSeg (pcfgs (F := F)) adm (pdats m h0 h1 h2 h3 h4) () defs₀ 𝒱₀ L lv 3 :=
  reg3 (pdats m h0 h1 h2 h3 h4) (W11 m h0 h1 h2) (W12 m h0 h1 h2 h3)
    (fun c w => h3.hq _ c w) (fun c t => h3.howed _ c t) (fun c t => h3.hrec _ c t) (fun c w => h3.hA _ c w)
    (fun c => h3.hbody _ c) (fun c => h3.hin _ c) (fun c => h3.hout _ c)
    (fun c w => (W12_arr m h0 h1 h2 h3 c w).symm)
    (fun c b hb => W12_of_ne m h0 h1 h2 h3 c b fun w e => hb (Finset.mem_image.mpr ⟨w, Finset.mem_univ _, e⟩))

theorem W13_arr (c : Dev nD) (w : Fin cfg4.W) :
    W13 m h0 h1 h2 h3 h4 c (Proc.devRef .tc (Pipeline.arrRef spec4 w)) = (h4.D (Vr12 m h0 h1 h2 h3) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m h0 h1 h2 h3 h4 c (Proc.devRef .tc b) = W12 m h0 h1 h2 h3 c (Proc.devRef .tc b) := by
  unfold W13; exact Pipeline.withArrays_of_ne spec4 c _ _ b hb

/-- Region 4 as a segment: entered at `W12`, left at `W13`. -/
def r4 : Pipeline.RegionSeg (pcfgs (F := F)) adm (pdats m h0 h1 h2 h3 h4) () defs₀ 𝒱₀ L lv 4 :=
  reg4 (pdats m h0 h1 h2 h3 h4) (W12 m h0 h1 h2 h3) (W13 m h0 h1 h2 h3 h4)
    (fun c w => h4.hq _ c w) (fun c t => h4.howed _ c t) (fun c t => h4.hrec _ c t) (fun c w => h4.hA _ c w)
    (fun c => h4.hbody _ c) (fun c => h4.hin _ c) (fun c => h4.hout _ c)
    (fun c w => (W13_arr m h0 h1 h2 h3 h4 c w).symm)
    (fun c b hb => W13_of_ne m h0 h1 h2 h3 h4 c b fun w e => hb (Finset.mem_image.mpr ⟨w, Finset.mem_univ _, e⟩))

/-! ## @main as segments, and the launch -/

/-- @main's thirteen segments in order. -/
abbrev segs : List (Pipeline.Seg (pcfgs (F := F)) adm (pdats m h0 h1 h2 h3 h4) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (r0 m h0 h1 h2 h3 h4),
    .host (hseg hostOps1 hostOps1_sub hostOps1_fresh (W6 m h0)),
    .region (r1 m h0 h1 h2 h3 h4),
    .host (hseg hostOps2 hostOps2_sub hostOps2_fresh (W8 m h0 h1)),
    .region (r2 m h0 h1 h2 h3 h4),
    .host (hseg hostOps3 hostOps3_sub hostOps3_fresh (W10 m h0 h1 h2)),
    .region (r3 m h0 h1 h2 h3 h4),
    .region (r4 m h0 h1 h2 h3 h4) ]

-- the launch theorem's implicit arguments are found by unifying two spellings of one conclusion
set_option backward.isDefEq.respectTransparency.types false in
/-- THE RUN: from any memory with zero counters every weakly fair execution of @main terminates, nothing faulting, and
    every unscoped buffer of every core ends at the chain's last contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W13 m h0 h1 h2 h3 h4 c b) :=
  Pipeline.θ_run_regions_kit (pcfgs (F := F)) adm (pdats m h0 h1 h2 h3 h4) () cellOf_inj emb₁ defs₀ 𝒱₀ L lv m ρ main (segs m h0 h1 h2 h3 h4)
    (fun c Q => by
      rewrite [main_chain c, Pipeline.Seg.run_eq_chain,
        show (segs m h0 h1 h2 h3 h4).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W13 m h0 h1 h2 h3 h4 c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m h0 h1 h2 h3 h4 c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m h0 h1 h2 h3 h4 c b)
    (hfin := fun c s' => by
      iintro ⟨⟨Hh, -⟩, HSI⟩
      unfold StableHlo.held
      imodintro
      iapply (pointsTo_read_all (Pipeline.ucRefs τ sig) (fun b => (((c : Thread nD τ)).1, b)) (W13 m h0 h1 h2 h3 h4 c) s')
      isplitl [Hh] <;> iassumption)
    (hQ := fun s h c => h c)

end Cert.Kernel.Hand

end
-- ==== Proof.K.Keep.lean ====
/-
  What passes through the chain unchanged. A host stretch changes only the buffers its operations write; a region
  changes only its output windows' arrays (an input window's array is left as it was entered, any other buffer is not
  touched). So every argument array holds its launch contents at every boundary, and a buffer written once holds that
  value until the chain ends.
-/
import proofs.«175313_j15590731285054_1_alg».proof.Proof.K.Run

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)
variable (h0 : Half0 (F := F)) (h1 : Half1 (F := F)) (h2 : Half2 (F := F)) (h3 : Half3 (F := F)) (h4 : Half4 (F := F))

/-! ## One step -/

/-- A buffer `hostOps0` does not write is left as it was. -/
theorem W1_of (c : Dev nD) (r : Ref sig .tc) (h : r ∉ hostOps0_W) :
    W1 m c (Proc.devRef .tc r) = W0 m c (Proc.devRef .tc r) := by
  unfold W1; exact StableHlo.after_of_writes_sub hostOps0 _ hostOps0_writes h

/-- A buffer `hostOps0_1` does not write is left as it was. -/
theorem W2_of (c : Dev nD) (r : Ref sig .tc) (h : r ∉ hostOps0_1_W) :
    W2 m c (Proc.devRef .tc r) = W1 m c (Proc.devRef .tc r) := by
  unfold W2; exact StableHlo.after_of_writes_sub hostOps0_1 _ hostOps0_1_writes h

/-- A buffer `hostOps0_2` does not write is left as it was. -/
theorem W3_of (c : Dev nD) (r : Ref sig .tc) (h : r ∉ hostOps0_2_W) :
    W3 m c (Proc.devRef .tc r) = W2 m c (Proc.devRef .tc r) := by
  unfold W3; exact StableHlo.after_of_writes_sub hostOps0_2 _ hostOps0_2_writes h

/-- A buffer `hostOps0_3` does not write is left as it was. -/
theorem W4_of (c : Dev nD) (r : Ref sig .tc) (h : r ∉ hostOps0_3_W) :
    W4 m c (Proc.devRef .tc r) = W3 m c (Proc.devRef .tc r) := by
  unfold W4; exact StableHlo.after_of_writes_sub hostOps0_3 _ hostOps0_3_writes h

/-- A buffer `hostOps0_4` does not write is left as it was. -/
theorem W5_of (c : Dev nD) (r : Ref sig .tc) (h : r ∉ hostOps0_4_W) :
    W5 m c (Proc.devRef .tc r) = W4 m c (Proc.devRef .tc r) := by
  unfold W5; exact StableHlo.after_of_writes_sub hostOps0_4 _ hostOps0_4_writes h

/-- Region 0 leaves an input window's array as it was entered. -/
theorem W6_in (c : Dev nD) (w : Fin cfg0.W) (hw : (cfg0.win w).isOut = false) :
    W6 m h0 c (Proc.devRef .tc (Pipeline.arrRef spec0 w)) = W5 m c (Proc.devRef .tc (Pipeline.arrRef spec0 w)) := by
  rw [W6_arr, (h0.D (Vr5 m) c).arrAt_in w hw, h0.hA]; rfl

/-- A buffer `hostOps1` does not write is left as it was. -/
theorem W7_of (c : Dev nD) (r : Ref sig .tc) (h : r ∉ hostOps1_W) :
    W7 m h0 c (Proc.devRef .tc r) = W6 m h0 c (Proc.devRef .tc r) := by
  unfold W7; exact StableHlo.after_of_writes_sub hostOps1 _ hostOps1_writes h

/-- Region 1 leaves an input window's array as it was entered. -/
theorem W8_in (c : Dev nD) (w : Fin cfg1.W) (hw : (cfg1.win w).isOut = false) :
    W8 m h0 h1 c (Proc.devRef .tc (Pipeline.arrRef spec1 w)) = W7 m h0 c (Proc.devRef .tc (Pipeline.arrRef spec1 w)) := by
  rw [W8_arr, (h1.D (Vr7 m h0) c).arrAt_in w hw, h1.hA]; rfl

/-- A buffer `hostOps2` does not write is left as it was. -/
theorem W9_of (c : Dev nD) (r : Ref sig .tc) (h : r ∉ hostOps2_W) :
    W9 m h0 h1 c (Proc.devRef .tc r) = W8 m h0 h1 c (Proc.devRef .tc r) := by
  unfold W9; exact StableHlo.after_of_writes_sub hostOps2 _ hostOps2_writes h

/-- Region 2 leaves an input window's array as it was entered. -/
theorem W10_in (c : Dev nD) (w : Fin cfg2.W) (hw : (cfg2.win w).isOut = false) :
    W10 m h0 h1 h2 c (Proc.devRef .tc (Pipeline.arrRef spec2 w)) = W9 m h0 h1 c (Proc.devRef .tc (Pipeline.arrRef spec2 w)) := by
  rw [W10_arr, (h2.D (Vr9 m h0 h1) c).arrAt_in w hw, h2.hA]; rfl

/-- A buffer `hostOps3` does not write is left as it was. -/
theorem W11_of (c : Dev nD) (r : Ref sig .tc) (h : r ∉ hostOps3_W) :
    W11 m h0 h1 h2 c (Proc.devRef .tc r) = W10 m h0 h1 h2 c (Proc.devRef .tc r) := by
  unfold W11; exact StableHlo.after_of_writes_sub hostOps3 _ hostOps3_writes h

/-- Region 3 leaves an input window's array as it was entered. -/
theorem W12_in (c : Dev nD) (w : Fin cfg3.W) (hw : (cfg3.win w).isOut = false) :
    W12 m h0 h1 h2 h3 c (Proc.devRef .tc (Pipeline.arrRef spec3 w)) = W11 m h0 h1 h2 c (Proc.devRef .tc (Pipeline.arrRef spec3 w)) := by
  rw [W12_arr, (h3.D (Vr11 m h0 h1 h2) c).arrAt_in w hw, h3.hA]; rfl

/-- Region 4 leaves an input window's array as it was entered. -/
theorem W13_in (c : Dev nD) (w : Fin cfg4.W) (hw : (cfg4.win w).isOut = false) :
    W13 m h0 h1 h2 h3 h4 c (Proc.devRef .tc (Pipeline.arrRef spec4 w)) = W12 m h0 h1 h2 h3 c (Proc.devRef .tc (Pipeline.arrRef spec4 w)) := by
  rw [W13_arr, (h4.D (Vr12 m h0 h1 h2 h3) c).arrAt_in w hw, h4.hA]; rfl

/-! ## The argument arrays hold their launch contents at every boundary -/
theorem W1_arg0 (c : Dev nD) : W1 m c (Proc.devRef .tc main_arg0) = m ((c : Thread nD τ).loc main_arg0) :=
  (W1_of m c main_arg0 (by decide)).trans rfl
theorem W2_arg0 (c : Dev nD) : W2 m c (Proc.devRef .tc main_arg0) = m ((c : Thread nD τ).loc main_arg0) :=
  (W2_of m c main_arg0 (by decide)).trans (W1_arg0 m c)
theorem W3_arg0 (c : Dev nD) : W3 m c (Proc.devRef .tc main_arg0) = m ((c : Thread nD τ).loc main_arg0) :=
  (W3_of m c main_arg0 (by decide)).trans (W2_arg0 m c)
theorem W4_arg0 (c : Dev nD) : W4 m c (Proc.devRef .tc main_arg0) = m ((c : Thread nD τ).loc main_arg0) :=
  (W4_of m c main_arg0 (by decide)).trans (W3_arg0 m c)
theorem W5_arg0 (c : Dev nD) : W5 m c (Proc.devRef .tc main_arg0) = m ((c : Thread nD τ).loc main_arg0) :=
  (W5_of m c main_arg0 (by decide)).trans (W4_arg0 m c)
theorem W6_arg0 (c : Dev nD) : W6 m h0 c (Proc.devRef .tc main_arg0) = m ((c : Thread nD τ).loc main_arg0) :=
  (W6_in m h0 c 0 rfl).trans (W5_arg0 m c)
theorem W7_arg0 (c : Dev nD) : W7 m h0 c (Proc.devRef .tc main_arg0) = m ((c : Thread nD τ).loc main_arg0) :=
  (W7_of m h0 c main_arg0 (by decide)).trans (W6_arg0 m h0 c)
theorem W8_arg0 (c : Dev nD) : W8 m h0 h1 c (Proc.devRef .tc main_arg0) = m ((c : Thread nD τ).loc main_arg0) :=
  (W8_of_ne m h0 h1 c main_arg0 (by decide)).trans (W7_arg0 m h0 c)
theorem W9_arg0 (c : Dev nD) : W9 m h0 h1 c (Proc.devRef .tc main_arg0) = m ((c : Thread nD τ).loc main_arg0) :=
  (W9_of m h0 h1 c main_arg0 (by decide)).trans (W8_arg0 m h0 h1 c)
theorem W10_arg0 (c : Dev nD) : W10 m h0 h1 h2 c (Proc.devRef .tc main_arg0) = m ((c : Thread nD τ).loc main_arg0) :=
  (W10_of_ne m h0 h1 h2 c main_arg0 (by decide)).trans (W9_arg0 m h0 h1 c)
theorem W11_arg0 (c : Dev nD) : W11 m h0 h1 h2 c (Proc.devRef .tc main_arg0) = m ((c : Thread nD τ).loc main_arg0) :=
  (W11_of m h0 h1 h2 c main_arg0 (by decide)).trans (W10_arg0 m h0 h1 h2 c)
theorem W12_arg0 (c : Dev nD) : W12 m h0 h1 h2 h3 c (Proc.devRef .tc main_arg0) = m ((c : Thread nD τ).loc main_arg0) :=
  (W12_of_ne m h0 h1 h2 h3 c main_arg0 (by decide)).trans (W11_arg0 m h0 h1 h2 c)
theorem W13_arg0 (c : Dev nD) : W13 m h0 h1 h2 h3 h4 c (Proc.devRef .tc main_arg0) = m ((c : Thread nD τ).loc main_arg0) :=
  (W13_of_ne m h0 h1 h2 h3 h4 c main_arg0 (by decide)).trans (W12_arg0 m h0 h1 h2 h3 c)
theorem W1_arg1 (c : Dev nD) : W1 m c (Proc.devRef .tc main_arg1) = m ((c : Thread nD τ).loc main_arg1) :=
  (W1_of m c main_arg1 (by decide)).trans rfl
theorem W2_arg1 (c : Dev nD) : W2 m c (Proc.devRef .tc main_arg1) = m ((c : Thread nD τ).loc main_arg1) :=
  (W2_of m c main_arg1 (by decide)).trans (W1_arg1 m c)
theorem W3_arg1 (c : Dev nD) : W3 m c (Proc.devRef .tc main_arg1) = m ((c : Thread nD τ).loc main_arg1) :=
  (W3_of m c main_arg1 (by decide)).trans (W2_arg1 m c)
theorem W4_arg1 (c : Dev nD) : W4 m c (Proc.devRef .tc main_arg1) = m ((c : Thread nD τ).loc main_arg1) :=
  (W4_of m c main_arg1 (by decide)).trans (W3_arg1 m c)
theorem W5_arg1 (c : Dev nD) : W5 m c (Proc.devRef .tc main_arg1) = m ((c : Thread nD τ).loc main_arg1) :=
  (W5_of m c main_arg1 (by decide)).trans (W4_arg1 m c)
theorem W6_arg1 (c : Dev nD) : W6 m h0 c (Proc.devRef .tc main_arg1) = m ((c : Thread nD τ).loc main_arg1) :=
  (W6_of_ne m h0 c main_arg1 (by decide)).trans (W5_arg1 m c)
theorem W7_arg1 (c : Dev nD) : W7 m h0 c (Proc.devRef .tc main_arg1) = m ((c : Thread nD τ).loc main_arg1) :=
  (W7_of m h0 c main_arg1 (by decide)).trans (W6_arg1 m h0 c)
theorem W8_arg1 (c : Dev nD) : W8 m h0 h1 c (Proc.devRef .tc main_arg1) = m ((c : Thread nD τ).loc main_arg1) :=
  (W8_of_ne m h0 h1 c main_arg1 (by decide)).trans (W7_arg1 m h0 c)
theorem W9_arg1 (c : Dev nD) : W9 m h0 h1 c (Proc.devRef .tc main_arg1) = m ((c : Thread nD τ).loc main_arg1) :=
  (W9_of m h0 h1 c main_arg1 (by decide)).trans (W8_arg1 m h0 h1 c)
theorem W10_arg1 (c : Dev nD) : W10 m h0 h1 h2 c (Proc.devRef .tc main_arg1) = m ((c : Thread nD τ).loc main_arg1) :=
  (W10_of_ne m h0 h1 h2 c main_arg1 (by decide)).trans (W9_arg1 m h0 h1 c)
theorem W11_arg1 (c : Dev nD) : W11 m h0 h1 h2 c (Proc.devRef .tc main_arg1) = m ((c : Thread nD τ).loc main_arg1) :=
  (W11_of m h0 h1 h2 c main_arg1 (by decide)).trans (W10_arg1 m h0 h1 h2 c)
theorem W12_arg1 (c : Dev nD) : W12 m h0 h1 h2 h3 c (Proc.devRef .tc main_arg1) = m ((c : Thread nD τ).loc main_arg1) :=
  (W12_of_ne m h0 h1 h2 h3 c main_arg1 (by decide)).trans (W11_arg1 m h0 h1 h2 c)
theorem W13_arg1 (c : Dev nD) : W13 m h0 h1 h2 h3 h4 c (Proc.devRef .tc main_arg1) = m ((c : Thread nD τ).loc main_arg1) :=
  (W13_of_ne m h0 h1 h2 h3 h4 c main_arg1 (by decide)).trans (W12_arg1 m h0 h1 h2 h3 c)
theorem W1_arg2 (c : Dev nD) : W1 m c (Proc.devRef .tc main_arg2) = m ((c : Thread nD τ).loc main_arg2) :=
  (W1_of m c main_arg2 (by decide)).trans rfl
theorem W2_arg2 (c : Dev nD) : W2 m c (Proc.devRef .tc main_arg2) = m ((c : Thread nD τ).loc main_arg2) :=
  (W2_of m c main_arg2 (by decide)).trans (W1_arg2 m c)
theorem W3_arg2 (c : Dev nD) : W3 m c (Proc.devRef .tc main_arg2) = m ((c : Thread nD τ).loc main_arg2) :=
  (W3_of m c main_arg2 (by decide)).trans (W2_arg2 m c)
theorem W4_arg2 (c : Dev nD) : W4 m c (Proc.devRef .tc main_arg2) = m ((c : Thread nD τ).loc main_arg2) :=
  (W4_of m c main_arg2 (by decide)).trans (W3_arg2 m c)
theorem W5_arg2 (c : Dev nD) : W5 m c (Proc.devRef .tc main_arg2) = m ((c : Thread nD τ).loc main_arg2) :=
  (W5_of m c main_arg2 (by decide)).trans (W4_arg2 m c)
theorem W6_arg2 (c : Dev nD) : W6 m h0 c (Proc.devRef .tc main_arg2) = m ((c : Thread nD τ).loc main_arg2) :=
  (W6_of_ne m h0 c main_arg2 (by decide)).trans (W5_arg2 m c)
theorem W7_arg2 (c : Dev nD) : W7 m h0 c (Proc.devRef .tc main_arg2) = m ((c : Thread nD τ).loc main_arg2) :=
  (W7_of m h0 c main_arg2 (by decide)).trans (W6_arg2 m h0 c)
theorem W8_arg2 (c : Dev nD) : W8 m h0 h1 c (Proc.devRef .tc main_arg2) = m ((c : Thread nD τ).loc main_arg2) :=
  (W8_of_ne m h0 h1 c main_arg2 (by decide)).trans (W7_arg2 m h0 c)
theorem W9_arg2 (c : Dev nD) : W9 m h0 h1 c (Proc.devRef .tc main_arg2) = m ((c : Thread nD τ).loc main_arg2) :=
  (W9_of m h0 h1 c main_arg2 (by decide)).trans (W8_arg2 m h0 h1 c)
theorem W10_arg2 (c : Dev nD) : W10 m h0 h1 h2 c (Proc.devRef .tc main_arg2) = m ((c : Thread nD τ).loc main_arg2) :=
  (W10_of_ne m h0 h1 h2 c main_arg2 (by decide)).trans (W9_arg2 m h0 h1 c)
theorem W11_arg2 (c : Dev nD) : W11 m h0 h1 h2 c (Proc.devRef .tc main_arg2) = m ((c : Thread nD τ).loc main_arg2) :=
  (W11_of m h0 h1 h2 c main_arg2 (by decide)).trans (W10_arg2 m h0 h1 h2 c)
theorem W12_arg2 (c : Dev nD) : W12 m h0 h1 h2 h3 c (Proc.devRef .tc main_arg2) = m ((c : Thread nD τ).loc main_arg2) :=
  (W12_of_ne m h0 h1 h2 h3 c main_arg2 (by decide)).trans (W11_arg2 m h0 h1 h2 c)
theorem W13_arg2 (c : Dev nD) : W13 m h0 h1 h2 h3 h4 c (Proc.devRef .tc main_arg2) = m ((c : Thread nD τ).loc main_arg2) :=
  (W13_of_ne m h0 h1 h2 h3 h4 c main_arg2 (by decide)).trans (W12_arg2 m h0 h1 h2 h3 c)
theorem W1_arg3 (c : Dev nD) : W1 m c (Proc.devRef .tc main_arg3) = m ((c : Thread nD τ).loc main_arg3) :=
  (W1_of m c main_arg3 (by decide)).trans rfl
theorem W2_arg3 (c : Dev nD) : W2 m c (Proc.devRef .tc main_arg3) = m ((c : Thread nD τ).loc main_arg3) :=
  (W2_of m c main_arg3 (by decide)).trans (W1_arg3 m c)
theorem W3_arg3 (c : Dev nD) : W3 m c (Proc.devRef .tc main_arg3) = m ((c : Thread nD τ).loc main_arg3) :=
  (W3_of m c main_arg3 (by decide)).trans (W2_arg3 m c)
theorem W4_arg3 (c : Dev nD) : W4 m c (Proc.devRef .tc main_arg3) = m ((c : Thread nD τ).loc main_arg3) :=
  (W4_of m c main_arg3 (by decide)).trans (W3_arg3 m c)
theorem W5_arg3 (c : Dev nD) : W5 m c (Proc.devRef .tc main_arg3) = m ((c : Thread nD τ).loc main_arg3) :=
  (W5_of m c main_arg3 (by decide)).trans (W4_arg3 m c)
theorem W6_arg3 (c : Dev nD) : W6 m h0 c (Proc.devRef .tc main_arg3) = m ((c : Thread nD τ).loc main_arg3) :=
  (W6_of_ne m h0 c main_arg3 (by decide)).trans (W5_arg3 m c)
theorem W7_arg3 (c : Dev nD) : W7 m h0 c (Proc.devRef .tc main_arg3) = m ((c : Thread nD τ).loc main_arg3) :=
  (W7_of m h0 c main_arg3 (by decide)).trans (W6_arg3 m h0 c)
theorem W8_arg3 (c : Dev nD) : W8 m h0 h1 c (Proc.devRef .tc main_arg3) = m ((c : Thread nD τ).loc main_arg3) :=
  (W8_in m h0 h1 c 3 rfl).trans (W7_arg3 m h0 c)
theorem W9_arg3 (c : Dev nD) : W9 m h0 h1 c (Proc.devRef .tc main_arg3) = m ((c : Thread nD τ).loc main_arg3) :=
  (W9_of m h0 h1 c main_arg3 (by decide)).trans (W8_arg3 m h0 h1 c)
theorem W10_arg3 (c : Dev nD) : W10 m h0 h1 h2 c (Proc.devRef .tc main_arg3) = m ((c : Thread nD τ).loc main_arg3) :=
  (W10_of_ne m h0 h1 h2 c main_arg3 (by decide)).trans (W9_arg3 m h0 h1 c)
theorem W11_arg3 (c : Dev nD) : W11 m h0 h1 h2 c (Proc.devRef .tc main_arg3) = m ((c : Thread nD τ).loc main_arg3) :=
  (W11_of m h0 h1 h2 c main_arg3 (by decide)).trans (W10_arg3 m h0 h1 h2 c)
theorem W12_arg3 (c : Dev nD) : W12 m h0 h1 h2 h3 c (Proc.devRef .tc main_arg3) = m ((c : Thread nD τ).loc main_arg3) :=
  (W12_of_ne m h0 h1 h2 h3 c main_arg3 (by decide)).trans (W11_arg3 m h0 h1 h2 c)
theorem W13_arg3 (c : Dev nD) : W13 m h0 h1 h2 h3 h4 c (Proc.devRef .tc main_arg3) = m ((c : Thread nD τ).loc main_arg3) :=
  (W13_of_ne m h0 h1 h2 h3 h4 c main_arg3 (by decide)).trans (W12_arg3 m h0 h1 h2 h3 c)
theorem W1_arg4 (c : Dev nD) : W1 m c (Proc.devRef .tc main_arg4) = m ((c : Thread nD τ).loc main_arg4) :=
  (W1_of m c main_arg4 (by decide)).trans rfl
theorem W2_arg4 (c : Dev nD) : W2 m c (Proc.devRef .tc main_arg4) = m ((c : Thread nD τ).loc main_arg4) :=
  (W2_of m c main_arg4 (by decide)).trans (W1_arg4 m c)
theorem W3_arg4 (c : Dev nD) : W3 m c (Proc.devRef .tc main_arg4) = m ((c : Thread nD τ).loc main_arg4) :=
  (W3_of m c main_arg4 (by decide)).trans (W2_arg4 m c)
theorem W4_arg4 (c : Dev nD) : W4 m c (Proc.devRef .tc main_arg4) = m ((c : Thread nD τ).loc main_arg4) :=
  (W4_of m c main_arg4 (by decide)).trans (W3_arg4 m c)
theorem W5_arg4 (c : Dev nD) : W5 m c (Proc.devRef .tc main_arg4) = m ((c : Thread nD τ).loc main_arg4) :=
  (W5_of m c main_arg4 (by decide)).trans (W4_arg4 m c)
theorem W6_arg4 (c : Dev nD) : W6 m h0 c (Proc.devRef .tc main_arg4) = m ((c : Thread nD τ).loc main_arg4) :=
  (W6_of_ne m h0 c main_arg4 (by decide)).trans (W5_arg4 m c)
theorem W7_arg4 (c : Dev nD) : W7 m h0 c (Proc.devRef .tc main_arg4) = m ((c : Thread nD τ).loc main_arg4) :=
  (W7_of m h0 c main_arg4 (by decide)).trans (W6_arg4 m h0 c)
theorem W8_arg4 (c : Dev nD) : W8 m h0 h1 c (Proc.devRef .tc main_arg4) = m ((c : Thread nD τ).loc main_arg4) :=
  (W8_of_ne m h0 h1 c main_arg4 (by decide)).trans (W7_arg4 m h0 c)
theorem W9_arg4 (c : Dev nD) : W9 m h0 h1 c (Proc.devRef .tc main_arg4) = m ((c : Thread nD τ).loc main_arg4) :=
  (W9_of m h0 h1 c main_arg4 (by decide)).trans (W8_arg4 m h0 h1 c)
theorem W10_arg4 (c : Dev nD) : W10 m h0 h1 h2 c (Proc.devRef .tc main_arg4) = m ((c : Thread nD τ).loc main_arg4) :=
  (W10_of_ne m h0 h1 h2 c main_arg4 (by decide)).trans (W9_arg4 m h0 h1 c)
theorem W11_arg4 (c : Dev nD) : W11 m h0 h1 h2 c (Proc.devRef .tc main_arg4) = m ((c : Thread nD τ).loc main_arg4) :=
  (W11_of m h0 h1 h2 c main_arg4 (by decide)).trans (W10_arg4 m h0 h1 h2 c)
theorem W12_arg4 (c : Dev nD) : W12 m h0 h1 h2 h3 c (Proc.devRef .tc main_arg4) = m ((c : Thread nD τ).loc main_arg4) :=
  (W12_of_ne m h0 h1 h2 h3 c main_arg4 (by decide)).trans (W11_arg4 m h0 h1 h2 c)
theorem W13_arg4 (c : Dev nD) : W13 m h0 h1 h2 h3 h4 c (Proc.devRef .tc main_arg4) = m ((c : Thread nD τ).loc main_arg4) :=
  (W13_of_ne m h0 h1 h2 h3 h4 c main_arg4 (by decide)).trans (W12_arg4 m h0 h1 h2 h3 c)
theorem W1_arg5 (c : Dev nD) : W1 m c (Proc.devRef .tc main_arg5) = m ((c : Thread nD τ).loc main_arg5) :=
  (W1_of m c main_arg5 (by decide)).trans rfl
theorem W2_arg5 (c : Dev nD) : W2 m c (Proc.devRef .tc main_arg5) = m ((c : Thread nD τ).loc main_arg5) :=
  (W2_of m c main_arg5 (by decide)).trans (W1_arg5 m c)
theorem W3_arg5 (c : Dev nD) : W3 m c (Proc.devRef .tc main_arg5) = m ((c : Thread nD τ).loc main_arg5) :=
  (W3_of m c main_arg5 (by decide)).trans (W2_arg5 m c)
theorem W4_arg5 (c : Dev nD) : W4 m c (Proc.devRef .tc main_arg5) = m ((c : Thread nD τ).loc main_arg5) :=
  (W4_of m c main_arg5 (by decide)).trans (W3_arg5 m c)
theorem W5_arg5 (c : Dev nD) : W5 m c (Proc.devRef .tc main_arg5) = m ((c : Thread nD τ).loc main_arg5) :=
  (W5_of m c main_arg5 (by decide)).trans (W4_arg5 m c)
theorem W6_arg5 (c : Dev nD) : W6 m h0 c (Proc.devRef .tc main_arg5) = m ((c : Thread nD τ).loc main_arg5) :=
  (W6_of_ne m h0 c main_arg5 (by decide)).trans (W5_arg5 m c)
theorem W7_arg5 (c : Dev nD) : W7 m h0 c (Proc.devRef .tc main_arg5) = m ((c : Thread nD τ).loc main_arg5) :=
  (W7_of m h0 c main_arg5 (by decide)).trans (W6_arg5 m h0 c)
theorem W8_arg5 (c : Dev nD) : W8 m h0 h1 c (Proc.devRef .tc main_arg5) = m ((c : Thread nD τ).loc main_arg5) :=
  (W8_of_ne m h0 h1 c main_arg5 (by decide)).trans (W7_arg5 m h0 c)
theorem W9_arg5 (c : Dev nD) : W9 m h0 h1 c (Proc.devRef .tc main_arg5) = m ((c : Thread nD τ).loc main_arg5) :=
  (W9_of m h0 h1 c main_arg5 (by decide)).trans (W8_arg5 m h0 h1 c)
theorem W10_arg5 (c : Dev nD) : W10 m h0 h1 h2 c (Proc.devRef .tc main_arg5) = m ((c : Thread nD τ).loc main_arg5) :=
  (W10_in m h0 h1 h2 c 3 rfl).trans (W9_arg5 m h0 h1 c)
theorem W11_arg5 (c : Dev nD) : W11 m h0 h1 h2 c (Proc.devRef .tc main_arg5) = m ((c : Thread nD τ).loc main_arg5) :=
  (W11_of m h0 h1 h2 c main_arg5 (by decide)).trans (W10_arg5 m h0 h1 h2 c)
theorem W12_arg5 (c : Dev nD) : W12 m h0 h1 h2 h3 c (Proc.devRef .tc main_arg5) = m ((c : Thread nD τ).loc main_arg5) :=
  (W12_of_ne m h0 h1 h2 h3 c main_arg5 (by decide)).trans (W11_arg5 m h0 h1 h2 c)
theorem W13_arg5 (c : Dev nD) : W13 m h0 h1 h2 h3 h4 c (Proc.devRef .tc main_arg5) = m ((c : Thread nD τ).loc main_arg5) :=
  (W13_of_ne m h0 h1 h2 h3 h4 c main_arg5 (by decide)).trans (W12_arg5 m h0 h1 h2 h3 c)
theorem W1_arg6 (c : Dev nD) : W1 m c (Proc.devRef .tc main_arg6) = m ((c : Thread nD τ).loc main_arg6) :=
  (W1_of m c main_arg6 (by decide)).trans rfl
theorem W2_arg6 (c : Dev nD) : W2 m c (Proc.devRef .tc main_arg6) = m ((c : Thread nD τ).loc main_arg6) :=
  (W2_of m c main_arg6 (by decide)).trans (W1_arg6 m c)
theorem W3_arg6 (c : Dev nD) : W3 m c (Proc.devRef .tc main_arg6) = m ((c : Thread nD τ).loc main_arg6) :=
  (W3_of m c main_arg6 (by decide)).trans (W2_arg6 m c)
theorem W4_arg6 (c : Dev nD) : W4 m c (Proc.devRef .tc main_arg6) = m ((c : Thread nD τ).loc main_arg6) :=
  (W4_of m c main_arg6 (by decide)).trans (W3_arg6 m c)
theorem W5_arg6 (c : Dev nD) : W5 m c (Proc.devRef .tc main_arg6) = m ((c : Thread nD τ).loc main_arg6) :=
  (W5_of m c main_arg6 (by decide)).trans (W4_arg6 m c)
theorem W6_arg6 (c : Dev nD) : W6 m h0 c (Proc.devRef .tc main_arg6) = m ((c : Thread nD τ).loc main_arg6) :=
  (W6_of_ne m h0 c main_arg6 (by decide)).trans (W5_arg6 m c)
theorem W7_arg6 (c : Dev nD) : W7 m h0 c (Proc.devRef .tc main_arg6) = m ((c : Thread nD τ).loc main_arg6) :=
  (W7_of m h0 c main_arg6 (by decide)).trans (W6_arg6 m h0 c)
theorem W8_arg6 (c : Dev nD) : W8 m h0 h1 c (Proc.devRef .tc main_arg6) = m ((c : Thread nD τ).loc main_arg6) :=
  (W8_of_ne m h0 h1 c main_arg6 (by decide)).trans (W7_arg6 m h0 c)
theorem W9_arg6 (c : Dev nD) : W9 m h0 h1 c (Proc.devRef .tc main_arg6) = m ((c : Thread nD τ).loc main_arg6) :=
  (W9_of m h0 h1 c main_arg6 (by decide)).trans (W8_arg6 m h0 h1 c)
theorem W10_arg6 (c : Dev nD) : W10 m h0 h1 h2 c (Proc.devRef .tc main_arg6) = m ((c : Thread nD τ).loc main_arg6) :=
  (W10_of_ne m h0 h1 h2 c main_arg6 (by decide)).trans (W9_arg6 m h0 h1 c)
theorem W11_arg6 (c : Dev nD) : W11 m h0 h1 h2 c (Proc.devRef .tc main_arg6) = m ((c : Thread nD τ).loc main_arg6) :=
  (W11_of m h0 h1 h2 c main_arg6 (by decide)).trans (W10_arg6 m h0 h1 h2 c)
theorem W12_arg6 (c : Dev nD) : W12 m h0 h1 h2 h3 c (Proc.devRef .tc main_arg6) = m ((c : Thread nD τ).loc main_arg6) :=
  (W12_of_ne m h0 h1 h2 h3 c main_arg6 (by decide)).trans (W11_arg6 m h0 h1 h2 c)
theorem W13_arg6 (c : Dev nD) : W13 m h0 h1 h2 h3 h4 c (Proc.devRef .tc main_arg6) = m ((c : Thread nD τ).loc main_arg6) :=
  (W13_of_ne m h0 h1 h2 h3 h4 c main_arg6 (by decide)).trans (W12_arg6 m h0 h1 h2 h3 c)
theorem W1_arg7 (c : Dev nD) : W1 m c (Proc.devRef .tc main_arg7) = m ((c : Thread nD τ).loc main_arg7) :=
  (W1_of m c main_arg7 (by decide)).trans rfl
theorem W2_arg7 (c : Dev nD) : W2 m c (Proc.devRef .tc main_arg7) = m ((c : Thread nD τ).loc main_arg7) :=
  (W2_of m c main_arg7 (by decide)).trans (W1_arg7 m c)
theorem W3_arg7 (c : Dev nD) : W3 m c (Proc.devRef .tc main_arg7) = m ((c : Thread nD τ).loc main_arg7) :=
  (W3_of m c main_arg7 (by decide)).trans (W2_arg7 m c)
theorem W4_arg7 (c : Dev nD) : W4 m c (Proc.devRef .tc main_arg7) = m ((c : Thread nD τ).loc main_arg7) :=
  (W4_of m c main_arg7 (by decide)).trans (W3_arg7 m c)
theorem W5_arg7 (c : Dev nD) : W5 m c (Proc.devRef .tc main_arg7) = m ((c : Thread nD τ).loc main_arg7) :=
  (W5_of m c main_arg7 (by decide)).trans (W4_arg7 m c)
theorem W6_arg7 (c : Dev nD) : W6 m h0 c (Proc.devRef .tc main_arg7) = m ((c : Thread nD τ).loc main_arg7) :=
  (W6_of_ne m h0 c main_arg7 (by decide)).trans (W5_arg7 m c)
theorem W7_arg7 (c : Dev nD) : W7 m h0 c (Proc.devRef .tc main_arg7) = m ((c : Thread nD τ).loc main_arg7) :=
  (W7_of m h0 c main_arg7 (by decide)).trans (W6_arg7 m h0 c)
theorem W8_arg7 (c : Dev nD) : W8 m h0 h1 c (Proc.devRef .tc main_arg7) = m ((c : Thread nD τ).loc main_arg7) :=
  (W8_of_ne m h0 h1 c main_arg7 (by decide)).trans (W7_arg7 m h0 c)
theorem W9_arg7 (c : Dev nD) : W9 m h0 h1 c (Proc.devRef .tc main_arg7) = m ((c : Thread nD τ).loc main_arg7) :=
  (W9_of m h0 h1 c main_arg7 (by decide)).trans (W8_arg7 m h0 h1 c)
theorem W10_arg7 (c : Dev nD) : W10 m h0 h1 h2 c (Proc.devRef .tc main_arg7) = m ((c : Thread nD τ).loc main_arg7) :=
  (W10_of_ne m h0 h1 h2 c main_arg7 (by decide)).trans (W9_arg7 m h0 h1 c)
theorem W11_arg7 (c : Dev nD) : W11 m h0 h1 h2 c (Proc.devRef .tc main_arg7) = m ((c : Thread nD τ).loc main_arg7) :=
  (W11_of m h0 h1 h2 c main_arg7 (by decide)).trans (W10_arg7 m h0 h1 h2 c)
theorem W12_arg7 (c : Dev nD) : W12 m h0 h1 h2 h3 c (Proc.devRef .tc main_arg7) = m ((c : Thread nD τ).loc main_arg7) :=
  (W12_in m h0 h1 h2 h3 c 3 rfl).trans (W11_arg7 m h0 h1 h2 c)
theorem W13_arg7 (c : Dev nD) : W13 m h0 h1 h2 h3 h4 c (Proc.devRef .tc main_arg7) = m ((c : Thread nD τ).loc main_arg7) :=
  (W13_of_ne m h0 h1 h2 h3 h4 c main_arg7 (by decide)).trans (W12_arg7 m h0 h1 h2 h3 c)
theorem W1_arg8 (c : Dev nD) : W1 m c (Proc.devRef .tc main_arg8) = m ((c : Thread nD τ).loc main_arg8) :=
  (W1_of m c main_arg8 (by decide)).trans rfl
theorem W2_arg8 (c : Dev nD) : W2 m c (Proc.devRef .tc main_arg8) = m ((c : Thread nD τ).loc main_arg8) :=
  (W2_of m c main_arg8 (by decide)).trans (W1_arg8 m c)
theorem W3_arg8 (c : Dev nD) : W3 m c (Proc.devRef .tc main_arg8) = m ((c : Thread nD τ).loc main_arg8) :=
  (W3_of m c main_arg8 (by decide)).trans (W2_arg8 m c)
theorem W4_arg8 (c : Dev nD) : W4 m c (Proc.devRef .tc main_arg8) = m ((c : Thread nD τ).loc main_arg8) :=
  (W4_of m c main_arg8 (by decide)).trans (W3_arg8 m c)
theorem W5_arg8 (c : Dev nD) : W5 m c (Proc.devRef .tc main_arg8) = m ((c : Thread nD τ).loc main_arg8) :=
  (W5_of m c main_arg8 (by decide)).trans (W4_arg8 m c)
theorem W6_arg8 (c : Dev nD) : W6 m h0 c (Proc.devRef .tc main_arg8) = m ((c : Thread nD τ).loc main_arg8) :=
  (W6_of_ne m h0 c main_arg8 (by decide)).trans (W5_arg8 m c)
theorem W7_arg8 (c : Dev nD) : W7 m h0 c (Proc.devRef .tc main_arg8) = m ((c : Thread nD τ).loc main_arg8) :=
  (W7_of m h0 c main_arg8 (by decide)).trans (W6_arg8 m h0 c)
theorem W8_arg8 (c : Dev nD) : W8 m h0 h1 c (Proc.devRef .tc main_arg8) = m ((c : Thread nD τ).loc main_arg8) :=
  (W8_of_ne m h0 h1 c main_arg8 (by decide)).trans (W7_arg8 m h0 c)
theorem W9_arg8 (c : Dev nD) : W9 m h0 h1 c (Proc.devRef .tc main_arg8) = m ((c : Thread nD τ).loc main_arg8) :=
  (W9_of m h0 h1 c main_arg8 (by decide)).trans (W8_arg8 m h0 h1 c)
theorem W10_arg8 (c : Dev nD) : W10 m h0 h1 h2 c (Proc.devRef .tc main_arg8) = m ((c : Thread nD τ).loc main_arg8) :=
  (W10_of_ne m h0 h1 h2 c main_arg8 (by decide)).trans (W9_arg8 m h0 h1 c)
theorem W11_arg8 (c : Dev nD) : W11 m h0 h1 h2 c (Proc.devRef .tc main_arg8) = m ((c : Thread nD τ).loc main_arg8) :=
  (W11_of m h0 h1 h2 c main_arg8 (by decide)).trans (W10_arg8 m h0 h1 h2 c)
theorem W12_arg8 (c : Dev nD) : W12 m h0 h1 h2 h3 c (Proc.devRef .tc main_arg8) = m ((c : Thread nD τ).loc main_arg8) :=
  (W12_of_ne m h0 h1 h2 h3 c main_arg8 (by decide)).trans (W11_arg8 m h0 h1 h2 c)
theorem W13_arg8 (c : Dev nD) : W13 m h0 h1 h2 h3 h4 c (Proc.devRef .tc main_arg8) = m ((c : Thread nD τ).loc main_arg8) :=
  (W13_of_ne m h0 h1 h2 h3 h4 c main_arg8 (by decide)).trans (W12_arg8 m h0 h1 h2 h3 c)

/-! ## The two norm columns hold what the fifth stretch wrote -/
theorem W6_v13 (c : Dev nD) : W6 m h0 c (Proc.devRef .tc main_v13) = W5 m c (Proc.devRef .tc main_v13) :=
  (W6_in m h0 c 1 rfl).trans rfl
theorem W7_v13 (c : Dev nD) : W7 m h0 c (Proc.devRef .tc main_v13) = W5 m c (Proc.devRef .tc main_v13) :=
  (W7_of m h0 c main_v13 (by decide)).trans (W6_v13 m h0 c)
theorem W8_v13 (c : Dev nD) : W8 m h0 h1 c (Proc.devRef .tc main_v13) = W5 m c (Proc.devRef .tc main_v13) :=
  (W8_in m h0 h1 c 2 rfl).trans (W7_v13 m h0 c)
theorem W9_v13 (c : Dev nD) : W9 m h0 h1 c (Proc.devRef .tc main_v13) = W5 m c (Proc.devRef .tc main_v13) :=
  (W9_of m h0 h1 c main_v13 (by decide)).trans (W8_v13 m h0 h1 c)
theorem W10_v13 (c : Dev nD) : W10 m h0 h1 h2 c (Proc.devRef .tc main_v13) = W5 m c (Proc.devRef .tc main_v13) :=
  (W10_in m h0 h1 h2 c 2 rfl).trans (W9_v13 m h0 h1 c)
theorem W11_v13 (c : Dev nD) : W11 m h0 h1 h2 c (Proc.devRef .tc main_v13) = W5 m c (Proc.devRef .tc main_v13) :=
  (W11_of m h0 h1 h2 c main_v13 (by decide)).trans (W10_v13 m h0 h1 h2 c)
theorem W12_v13 (c : Dev nD) : W12 m h0 h1 h2 h3 c (Proc.devRef .tc main_v13) = W5 m c (Proc.devRef .tc main_v13) :=
  (W12_in m h0 h1 h2 h3 c 2 rfl).trans (W11_v13 m h0 h1 h2 c)
theorem W6_v14 (c : Dev nD) : W6 m h0 c (Proc.devRef .tc main_v14) = W5 m c (Proc.devRef .tc main_v14) :=
  (W6_of_ne m h0 c main_v14 (by decide)).trans rfl
theorem W7_v14 (c : Dev nD) : W7 m h0 c (Proc.devRef .tc main_v14) = W5 m c (Proc.devRef .tc main_v14) :=
  (W7_of m h0 c main_v14 (by decide)).trans (W6_v14 m h0 c)
theorem W8_v14 (c : Dev nD) : W8 m h0 h1 c (Proc.devRef .tc main_v14) = W5 m c (Proc.devRef .tc main_v14) :=
  (W8_in m h0 h1 c 1 rfl).trans (W7_v14 m h0 c)
theorem W9_v14 (c : Dev nD) : W9 m h0 h1 c (Proc.devRef .tc main_v14) = W5 m c (Proc.devRef .tc main_v14) :=
  (W9_of m h0 h1 c main_v14 (by decide)).trans (W8_v14 m h0 h1 c)
theorem W10_v14 (c : Dev nD) : W10 m h0 h1 h2 c (Proc.devRef .tc main_v14) = W5 m c (Proc.devRef .tc main_v14) :=
  (W10_in m h0 h1 h2 c 1 rfl).trans (W9_v14 m h0 h1 c)
theorem W11_v14 (c : Dev nD) : W11 m h0 h1 h2 c (Proc.devRef .tc main_v14) = W5 m c (Proc.devRef .tc main_v14) :=
  (W11_of m h0 h1 h2 c main_v14 (by decide)).trans (W10_v14 m h0 h1 h2 c)
theorem W12_v14 (c : Dev nD) : W12 m h0 h1 h2 h3 c (Proc.devRef .tc main_v14) = W5 m c (Proc.devRef .tc main_v14) :=
  (W12_in m h0 h1 h2 h3 c 1 rfl).trans (W11_v14 m h0 h1 h2 c)

end Cert.Kernel.Hand

end
-- ==== Proof.K.Reg0.lean ====
import proofs.«175313_j15590731285054_1_alg».proof.Proof.Gen.Kernel.Launch
import proofs.«175313_j15590731285054_1_alg».proof.Proof.Gen.Kernel.Skeleton
import proofs.«175313_j15590731285054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with a 2000-long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at this parameter
variable (V : (c : Dev nD) → (b : Ref sig .tc) → Buf (Elt F) ((c : Thread nD τ).loc b))

/-! # Region 0: the row-scaling kernel, at the entry contents `V`

Per grid point the kernel multiplies a 2000×128 block of rows by a 2000×1 column of per-row factors (the column
broadcast along the lanes) and writes the product block. -/

/-- Window `w`'s block at grid point `t`: the part of its array, as the region finds it, that the window's block
    index selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every grid point its current staging buffer reads the window's block there, whether or not a
    transfer brought it in at that point (when none did, the block index is the one of the point before, so the
    buffer already holds this very block). Holds for any proof data whose array is `V`'s and whose body leaves the
    block as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: at every grid point its current staging buffer reads the window's block there, whether or not a
    transfer brought it in at that point (when none did, the block index is the one of the point before, so the
    buffer already holds this very block). Holds for any proof data whose array is `V`'s and whose body leaves the
    block as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

abbrev r0_0 : Rect S2000x128 := Rect.unit (s := S2000x128) ![0, 0] S2000x128.size inb_S2000x128_S2000x128_0_0
abbrev r0_1 : Rect S2000x1 := Rect.unit (s := S2000x1) ![0, 0] S2000x1.size inb_S2000x1_S2000x1_0_0

/-- What the body leaves in the output window's buffer, as a function of the two input blocks: its single store,
    whose payload is the product of the rows block `x0` with the broadcast factor column `x1`. -/
def out0_2 (x0 : Vec F S2000x128 .f32) (x1 : Vec F S2000x1 .f32) : Vec F S2000x128 .f32 :=
  View.canon [⟨r0_0, k0_pay1 (View.ld x1 r0_1) (View.ld x0 r0_0)⟩]

/-- The single store writes the whole 2000×128 buffer, so every index is covered. -/
theorem cover0_2 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

set_option maxHeartbeats 1000000 in
/-- The body's triple. Given the two input buffers whole at read contents `x0`, `x1` and the output buffer whole at
    anything, the body runs to a state where the inputs are unchanged and the output reads `out0_2 x0 x1`. The
    value the body loads from the output buffer before storing is never used, so its prior contents do not matter. -/
theorem sound_kernel0 (c : Dev nD) (E : Set ℕ) (i : grid0.Coords) (arg1 : Memref sig .tc .vmem S2000x128 .f32) (harg1 : arg1.IsWhole) (arg2 : Memref sig .tc .vmem S2000x1 .f32) (harg2 : arg2.IsWhole) (arg3 : Memref sig .tc .vmem S2000x128 .f32) (harg3 : arg3.IsWhole)
    (x0 : Vec F S2000x128 .f32) (x1 : Vec F S2000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the region's pipeline -/

/-- On core `c`: the arrays are what the region finds (`V`); after the body at point `t` each input buffer still
    holds its block and the output buffer holds `out0_2` of the two input blocks; the invariant is the untouched
    rest of the core's state; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer reads its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

/-- What the body is entered with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers read their blocks, so the body's triple applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«175313_j15590731285054_1_alg».proof.Proof.Gen.Kernel.Launch
import proofs.«175313_j15590731285054_1_alg».proof.Proof.Gen.Kernel.Skeleton
import proofs.«175313_j15590731285054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with a 2000-long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at this parameter
variable (V : (c : Dev nD) → (b : Ref sig .tc) → Buf (Elt F) ((c : Thread nD τ).loc b))

/-! # Region 1: a layer kernel, at the entry contents `V`

Per grid point the kernel takes a 2000×128 block of rows, two 2000×1 columns of per-row factors, a 128×128 weight
matrix and a 1×128 bias row (the last two the same at every point). It scales the rows by the first column, rounds to
bfloat16, multiplies by the rounded weights, adds the bias and clamps below at zero: that block is the first output.
The second output is the first scaled by the second column. -/

/-- Window `w`'s block at grid point `t`: the part of its array, as the region finds it, that the window's block
    index selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every grid point its current staging buffer reads the window's block there, whether or not a
    transfer brought it in at that point (when none did, the block index is the one of the point before, so the
    buffer already holds this very block). Holds for any proof data whose array is `V`'s and whose body leaves the
    block as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: at every grid point its current staging buffer reads the window's block there, whether or not a
    transfer brought it in at that point (when none did, the block index is the one of the point before, so the
    buffer already holds this very block). Holds for any proof data whose array is `V`'s and whose body leaves the
    block as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: at every grid point its current staging buffer reads the window's block there, whether or not a
    transfer brought it in at that point (when none did, the block index is the one of the point before, so the
    buffer already holds this very block). Holds for any proof data whose array is `V`'s and whose body leaves the
    block as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: at every grid point its current staging buffer reads the window's block there, whether or not a
    transfer brought it in at that point (when none did, the block index is the one of the point before, so the
    buffer already holds this very block). Holds for any proof data whose array is `V`'s and whose body leaves the
    block as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: at every grid point its current staging buffer reads the window's block there, whether or not a
    transfer brought it in at that point (when none did, the block index is the one of the point before, so the
    buffer already holds this very block). Holds for any proof data whose array is `V`'s and whose body leaves the
    block as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole buffer -/

abbrev r1_0 : Rect S2000x128 := Rect.unit (s := S2000x128) ![0, 0] S2000x128.size inb_S2000x128_S2000x128_0_0
abbrev r1_1 : Rect S2000x1 := Rect.unit (s := S2000x1) ![0, 0] S2000x1.size inb_S2000x1_S2000x1_0_0
abbrev r1_3 : Rect S128x128 := Rect.unit (s := S128x128) ![0, 0] S128x128.size inb_S128x128_S128x128_0_0
abbrev r1_4 : Rect S1x128 := Rect.unit (s := S1x128) ![0, 0] S1x128.size inb_S1x128_S1x128_0_0

/-- What the body leaves in the first output window's buffer (window 5), as a function of the input blocks: its single
    store there, the clamped affine image of the scaled rows. -/
def out1_5 (x0 : Vec F S2000x128 .f32) (x1 : Vec F S2000x1 .f32) (x3 : Vec F S128x128 .f32) (x4 : Vec F S1x128 .f32) : Vec F S2000x128 .f32 :=
  View.canon [⟨r1_0, k1_pay1 (View.ld x1 r1_1) (View.ld x0 r1_0) (View.ld x3 r1_3) (View.ld x4 r1_4)⟩]

/-- What the body leaves in the second output window's buffer (window 6): its single store there, the first output's
    payload scaled row by row by the second factor column `x2`. -/
def out1_6 (x0 : Vec F S2000x128 .f32) (x1 x2 : Vec F S2000x1 .f32) (x3 : Vec F S128x128 .f32) (x4 : Vec F S1x128 .f32) : Vec F S2000x128 .f32 :=
  View.canon [⟨r1_0, k1_pay2 (View.ld x1 r1_1) (View.ld x0 r1_0) (View.ld x3 r1_3) (View.ld x4 r1_4) (View.ld x2 r1_1)⟩]

/-- A single store of the whole 2000×128 buffer covers every index (used for both outputs). -/
theorem cover1 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

set_option maxHeartbeats 1000000 in
/-- The body's triple. Given the five input buffers whole at read contents `x0 … x4` and the two output buffers whole
    at anything, the body runs to a state where the inputs are unchanged and the outputs read `out1_5`, `out1_6` of
    the inputs. The values the body loads from the output buffers before storing are never used, so their prior
    contents do not matter. -/
theorem sound_kernel1 (c : Dev nD) (E : Set ℕ) (i : grid1.Coords) (arg1 : Memref sig .tc .vmem S2000x128 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 x2 : Vec F S2000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x3 x4) ∗ owns (c : Thread nD τ) arg7 fullShare (out1_6 x0 x1 x2 x3 x4)) -∗ K ⟨⟩))
      ⊢ wp frame (wpE (defs₀ (F := F)) Variants.none c none) E (cc1__layer_kernel i arg1 harg1 arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1 _)
  iexists _; isplitr
  swap; · iexact H6
  ipureintro
  exact View.read_writes_eq_canon _ _ _ (cover1 _)

/-! ## The proof data of the region's pipeline -/

/-- On core `c`: the arrays are what the region finds (`V`); after the body at point `t` each input buffer still
    holds its block and the output buffers hold `out1_5`, `out1_6` of the input blocks; the invariant is the
    untouched rest of the core's state; nothing is owed; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current staging buffer reads its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the body is entered with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers read their blocks, so the body's triple applies; the invariant and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«175313_j15590731285054_1_alg».proof.Proof.Gen.Kernel.Launch
import proofs.«175313_j15590731285054_1_alg».proof.Proof.Gen.Kernel.Skeleton
import proofs.«175313_j15590731285054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with a 2000-long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at this parameter
variable (V : (c : Dev nD) → (b : Ref sig .tc) → Buf (Elt F) ((c : Thread nD τ).loc b))

/-! # Region 2: a layer kernel, at the entry contents `V`

Per grid point the kernel takes a 2000×128 block of rows, two 2000×1 columns of per-row factors, a 128×128 weight
matrix and a 1×128 bias row (the last two the same at every point). It scales the rows by the first column, rounds to
bfloat16, multiplies by the rounded weights, adds the bias and clamps below at zero: that block is the first output.
The second output is the first scaled by the second column. -/

/-- Window `w`'s block at grid point `t`: the part of its array, as the region finds it, that the window's block
    index selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every grid point its current staging buffer reads the window's block there, whether or not a
    transfer brought it in at that point (when none did, the block index is the one of the point before, so the
    buffer already holds this very block). Holds for any proof data whose array is `V`'s and whose body leaves the
    block as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every grid point its current staging buffer reads the window's block there, whether or not a
    transfer brought it in at that point (when none did, the block index is the one of the point before, so the
    buffer already holds this very block). Holds for any proof data whose array is `V`'s and whose body leaves the
    block as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every grid point its current staging buffer reads the window's block there, whether or not a
    transfer brought it in at that point (when none did, the block index is the one of the point before, so the
    buffer already holds this very block). Holds for any proof data whose array is `V`'s and whose body leaves the
    block as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: at every grid point its current staging buffer reads the window's block there, whether or not a
    transfer brought it in at that point (when none did, the block index is the one of the point before, so the
    buffer already holds this very block). Holds for any proof data whose array is `V`'s and whose body leaves the
    block as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: at every grid point its current staging buffer reads the window's block there, whether or not a
    transfer brought it in at that point (when none did, the block index is the one of the point before, so the
    buffer already holds this very block). Holds for any proof data whose array is `V`'s and whose body leaves the
    block as it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole buffer -/

abbrev r2_0 : Rect S2000x128 := Rect.unit (s := S2000x128) ![0, 0] S2000x128.size inb_S2000x128_S2000x128_0_0
abbrev r2_1 : Rect S2000x1 := Rect.unit (s := S2000x1) ![0, 0] S2000x1.size inb_S2000x1_S2000x1_0_0
abbrev r2_3 : Rect S128x128 := Rect.unit (s := S128x128) ![0, 0] S128x128.size inb_S128x128_S128x128_0_0
abbrev r2_4 : Rect S1x128 := Rect.unit (s := S1x128) ![0, 0] S1x128.size inb_S1x128_S1x128_0_0

/-- What the body leaves in the first output window's buffer (window 5), as a function of the input blocks: its single
    store there, the clamped affine image of the scaled rows. -/
def out2_5 (x0 : Vec F S2000x128 .f32) (x1 : Vec F S2000x1 .f32) (x3 : Vec F S128x128 .f32) (x4 : Vec F S1x128 .f32) : Vec F S2000x128 .f32 :=
  View.canon [⟨r2_0, k2_pay1 (View.ld x1 r2_1) (View.ld x0 r2_0) (View.ld x3 r2_3) (View.ld x4 r2_4)⟩]

/-- What the body leaves in the second output window's buffer (window 6): its single store there, the first output's
    payload scaled row by row by the second factor column `x2`. -/
def out2_6 (x0 : Vec F S2000x128 .f32) (x1 x2 : Vec F S2000x1 .f32) (x3 : Vec F S128x128 .f32) (x4 : Vec F S1x128 .f32) : Vec F S2000x128 .f32 :=
  View.canon [⟨r2_0, k2_pay2 (View.ld x1 r2_1) (View.ld x0 r2_0) (View.ld x3 r2_3) (View.ld x4 r2_4) (View.ld x2 r2_1)⟩]

/-- A single store of the whole 2000×128 buffer covers every index (used for both outputs). -/
theorem cover2 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in
/-- The body's triple. Given the five input buffers whole at read contents `x0 … x4` and the two output buffers whole
    at anything, the body runs to a state where the inputs are unchanged and the outputs read `out2_5`, `out2_6` of
    the inputs. The values the body loads from the output buffers before storing are never used, so their prior
    contents do not matter. -/
theorem sound_kernel2 (c : Dev nD) (E : Set ℕ) (i : grid2.Coords) (arg1 : Memref sig .tc .vmem S2000x128 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 x2 : Vec F S2000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x3 x4) ∗ owns (c : Thread nD τ) arg7 fullShare (out2_6 x0 x1 x2 x3 x4)) -∗ K ⟨⟩))
      ⊢ wp frame (wpE (defs₀ (F := F)) Variants.none c none) E (cc2__layer_kernel i arg1 harg1 arg2 harg2 arg3 harg3 arg4 harg4 arg5 harg5 arg6 harg6 arg7 harg7) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2 _)
  iexists _; isplitr
  swap; · iexact H6
  ipureintro
  exact View.read_writes_eq_canon _ _ _ (cover2 _)

/-! ## The proof data of the region's pipeline -/

/-- On core `c`: the arrays are what the region finds (`V`); after the body at point `t` each input buffer still
    holds its block and the output buffers hold `out2_5`, `out2_6` of the input blocks; the invariant is the
    untouched rest of the core's state; nothing is owed; every share is full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

/-- Each input's current staging buffer reads its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a generic point -/

/-- What the body is entered with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the input buffers read their blocks, so the body's triple applies; the invariant and what
    the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«175313_j15590731285054_1_alg».proof.Proof.Gen.Kernel.Launch
import proofs.«175313_j15590731285054_1_alg».proof.Proof.Gen.Kernel.Skeleton
import proofs.«175313_j15590731285054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with a 2000-long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at this parameter
variable (V : (c : Dev nD) → (b : Ref sig .tc) → Buf (Elt F) ((c : Thread nD τ).loc b))

/-! # Region 3: a layer kernel, at the entry contents `V`

Per grid point the kernel takes a 2000×128 block of rows, two 2000×1 columns of per-row factors, a 128×128 weight
matrix and a 1×128 bias row (the last two the same at every point). It scales the rows by the first column, rounds to
bfloat16, multiplies by the rounded weights, adds the bias and clamps below at zero: that block is the first output.
The second output is the first scaled by the second column. -/

/-- Window `w`'s block at grid point `t`: the part of its array, as the region finds it, that the window's block
    index selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: at every grid point its current staging buffer reads the window's block there, whether or not a
    transfer brought it in at that point (when none did, the block index is the one of the point before, so the
    buffer already holds this very block). Holds for any proof data whose array is `V`'s and whose body leaves the
    block as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: at every grid point its current staging buffer reads the window's block there, whether or not a
    transfer brought it in at that point (when none did, the block index is the one of the point before, so the
    buffer already holds this very block). Holds for any proof data whose array is `V`'s and whose body leaves the
    block as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: at every grid point its current staging buffer reads the window's block there, whether or not a
    transfer brought it in at that point (when none did, the block index is the one of the point before, so the
    buffer already holds this very block). Holds for any proof data whose array is `V`'s and whose body leaves the
    block as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: at every grid point its current staging buffer reads the window's block there, whether or not a
    transfer brought it in at that point (when none did, the block index is the one of the point before, so the
    buffer already holds this very block). Holds for any proof data whose array is `V`'s and whose body leaves the
    block as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: at every grid point its current staging buffer reads the window's block there, whether or not a
    transfer brought it in at that point (when none did, the block index is the one of the point before, so the
    buffer already holds this very block). Holds for any proof data whose array is `V`'s and whose body leaves the
    block as it found it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is a whole buffer -/

abbrev r3_0 : Rect S2000x128 := Rect.unit (s := S2000x128) ![0, 0] S2000x128.size inb_S2000x128_S2000x128_0_0
abbrev r3_1 : Rect S2000x1 := Rect.unit (s := S2000x1) ![0, 0] S2000x1.size inb_S2000x1_S2000x1_0_0
abbrev r3_3 : Rect S128x128 := Rect.unit (s := S128x128) ![0, 0] S128x128.size inb_S128x128_S128x128_0_0
abbrev r3_4 : Rect S1x128 := Rect.unit (s := S1x128) ![0, 0] S1x128.size inb_S1x128_S1x128_0_0

/-- What the body leaves in the first output window's buffer (window 5), as a function of the input blocks: its single
    store there, the clamped affine image of the scaled rows. -/
def out3_5 (x0 : Vec F S2000x128 .f32) (x1 : Vec F S2000x1 .f32) (x3 : Vec F S128x128 .f32) (x4 : Vec F S1x128 .f32) : Vec F S2000x128 .f32 :=
  View.canon [⟨r3_0, k3_pay1 (View.ld x1 r3_1) (View.ld x0 r3_0) (View.ld x3 r3_3) (View.ld x4 r3_4)⟩]

/-- What the body leaves in the second output window's buffer (window 6): its single store there, the first output's
    payload scaled row by row by the second factor column `x2`. -/
def out3_6 (x0 : Vec F S2000x128 .f32) (x1 x2 : Vec F S2000x1 .f32) (x3 : Vec F S128x128 .f32) (x4 : Vec F S1x128 .f32) : Vec F S2000x128 .f32 :=
  View.canon [⟨r3_0, k3_pay2 (View.ld x1 r3_1) (View.ld x0 r3_0) (View.ld x3 r3_3) (View.ld x4 r3_4) (View.ld x2 r3_1)⟩]

/-- A single store of the whole 2000×128 buffer covers every index (used for both outputs). -/
theorem cover3 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 1000000 in
/-- The body's triple. Given the five input buffers whole at read contents `x0 … x4` and the two output buffers whole
    at anything, the body runs to a state where the inputs are unchanged and the outputs read `out3_5`, `out3_6` of
    the inputs. The values the body loads from the output buffers before storing are never used, so their prior
    contents do not matter. -/
theorem sound_kernel3 (c : Dev nD) (E : Set ℕ) (i : grid3.Coords) (arg1 : Memref sig .tc .vmem S2000x128 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 x2 : Vec F S2000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x3 x4) ∗ owns (c : Thread nD τ) arg7 fullShare (out3_6 x0 x1 x2 x3 x4)) -∗ K ⟨⟩))
      ⊢ wp frame (wpE (defs₀ (F := F)) Variants.none c none) E (cc3__layer_kernel i arg1 harg1 arg2 harg2 arg3 harg3 arg4 harg4 arg5 harg5 arg6 harg6 arg7 harg7) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3 _)
  iexists _; isplitr
  swap; · iexact H6
  ipureintro
  exact View.read_writes_eq_canon _ _ _ (cover3 _)

/-! ## The proof data of the region's pipeline -/

/-- On core `c`: the arrays are what the region finds (`V`); after the body at point `t` each input buffer still
    holds its block and the output buffers hold `out3_5`, `out3_6` of the input blocks; the invariant is the
    untouched rest of the core's state; nothing is owed; every share is full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

/-- Each input's current staging buffer reads its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a generic point -/

/-- What the body is entered with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers read their blocks, so the body's triple applies; the invariant and what
    the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4Runs.lean ====
/- Region 4 (the mean kernel), what its three cases share: the block each window shows at a grid point, the two
   branch conditions of the body in closed form over the 50 grid points, where the output window is idle, the
   memrefs the body is called on, and the class invariant with the accumulator scratch split off. -/
import proofs.«175313_j15590731285054_1_alg».proof.Proof.Gen.Kernel.Launch
import proofs.«175313_j15590731285054_1_alg».proof.Proof.Gen.Kernel.Skeleton
import proofs.«175313_j15590731285054_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a store's rectangle is decided structurally, one step per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block window `w` shows at point `t`: the window's rectangle at that point read out of the window's array as
    the region finds it (`V`). For window 0 this is rows 2000·t … 2000·t+1999 of the 100000×128 input. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds the window's block at every point, for any proof data whose
    array is `V`'s (`hA`) and whose body leaves the block in place (`hafter`): the window is fetched at every
    point, never cut and never idle, so what the body finds is what was fetched. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional: the grid coordinate is 0 (the comparison chain of the kernel text,
    over the coordinate as a 32-bit word). -/
abbrev cond4_0 (i : grid4.Coords) : Prop := (Scalar.cmpi .ne (Scalar.extui (Scalar.cmpi .eq (BitVec.ofNat 32 (i 0).val) 0#32)) 0#32) = 1#1
/-- It holds exactly at the first of the 50 points. -/
theorem hcond4_0 : ∀ t : Fin cfg4.N, cond4_0 (grid4.coords t) ↔ t.val % 50 = 0 :=
  (by decide +kernel : ∀ t : Fin grid4.N, cond4_0 (grid4.coords t) ↔ t.val % 50 = 0)

/-- The condition of the body's second conditional: the grid coordinate is 49. -/
abbrev cond4_1 (i : grid4.Coords) : Prop := k4_cond2 i = 1#1
/-- It holds exactly at the last of the 50 points. -/
theorem hcond4_1 : ∀ t : Fin cfg4.N, cond4_1 (grid4.coords t) ↔ t.val % 50 = 49 :=
  (by decide +kernel : ∀ t : Fin grid4.N, cond4_1 (grid4.coords t) ↔ t.val % 50 = 49)

/-! ## Where the windows are idle -/

/-- The input window is live at every point. -/
theorem liveAt4_0 : ∀ t : Fin cfg4.N, cfg4.idle 0 (grid4.coords t) = false := by decide +kernel
/-- At the first point (case A) the output window is idle: nothing is stored into it. -/
theorem idleAt4_1_A : ∀ t : Fin cfg4.N, cond4_0 (grid4.coords t) → ¬cond4_1 (grid4.coords t) → cfg4.idle 1 (grid4.coords t) = true := by decide +kernel
/-- and its block is not written back there. -/
theorem noFlush4_1_A : ∀ t : Fin cfg4.N, cond4_0 (grid4.coords t) → ¬cond4_1 (grid4.coords t) → (cfg4.win 1).flush t = false := by decide +kernel
/-- At the points 1 … 48 (case B) the output window is idle as well, -/
theorem idleAt4_1_B : ∀ t : Fin cfg4.N, ¬cond4_0 (grid4.coords t) → ¬cond4_1 (grid4.coords t) → cfg4.idle 1 (grid4.coords t) = true := by decide +kernel
/-- and not written back. -/
theorem noFlush4_1_B : ∀ t : Fin cfg4.N, ¬cond4_0 (grid4.coords t) → ¬cond4_1 (grid4.coords t) → (cfg4.win 1).flush t = false := by decide +kernel
/-- At the last point (case C) the output window is live: the mean is stored into it. -/
theorem liveAt4_1_C : ∀ t : Fin cfg4.N, ¬cond4_0 (grid4.coords t) → cond4_1 (grid4.coords t) → cfg4.idle 1 (grid4.coords t) = false := by decide +kernel

/-! ## The memrefs the body is called on -/

/-- The output window's staging buffer as a view: what the window holds is stated by reading through it. -/
abbrev VO4_1 : View sig .tc .vmem S1x128 .f32 := (Memref.whole cc4_stg1_0 : Memref sig .tc .vmem S1x128 .f32).view
/-- Each window's current staging memref at point `t`, spelled as the pipeline passes it, with its wholeness. -/
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
/-- The accumulator: a whole scoped 1×128 buffer of the kernel's own, passed beside the windows. -/
abbrev scM4_0 : Memref sig .tc .vmem S1x128 .f32 := Memref.whole cc4_scratch0
/-- The accumulator as a view: the running column sums are stated by reading through it. -/
abbrev VS4_0 : View sig .tc .vmem S1x128 .f32 := scM4_0.view

/-- The class invariant with the accumulator split off: the accumulator owned at some contents, every other scoped
    buffer that is no staging buffer of this call (unopened), and the generator register at some state. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.K.Reg4A.lean ====
/- Region 4, case A — the first grid point: the accumulator is reset to zeros, the block's column sums are added,
   nothing is stored into the output window. The body's triple on any whole memrefs, with the pieces the stores
   leave in the accumulator as witness. -/
import proofs.«175313_j15590731285054_1_alg».proof.Proof.K.Reg4Runs

-- membership of an index in a store's rectangle is decided structurally, one step per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE A (first conditional taken, second not). On whole memrefs — the input's at its block `x0`, the output's at
    any contents `xi1`, handed back untouched, the accumulator at anything — the body runs to a continuation that
    holds the input's and the output's as they were and the accumulator with the pieces `LS0` written (last store
    first). The output gets no piece. The pieces are found by running the body's memory operations one by one,
    each conditional decided by `hc0`, `hc1`. -/
noncomputable def kernelRun4_A (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : cond4_0 i) (hc1 : ¬cond4_1 i)
    (x0 : Vec F S2000x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc4__mean_kernel i arg1 harg1 arg2 harg2 arg3 harg3) K } := by
  refine ⟨[], ?_, fun xi1 E K => ?run⟩
  case run =>
    simp only [cc4__mean_kernel_eq_skeleton]; unfold cc4__mean_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.K.Reg4B.lean ====
/- Region 4, case B — the grid points 1 … 48: the block's column sums are added to the accumulator as the point
   before left it; nothing is stored into the output window. -/
import proofs.«175313_j15590731285054_1_alg».proof.Proof.K.Reg4A

-- membership of an index in a store's rectangle is decided structurally, one step per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE B (neither conditional taken). On whole memrefs — the input's at its block `x0`, the output's at any
    contents `xi1`, handed back untouched, the accumulator at `xs0`, what the point before left — the body runs to
    a continuation that holds the input's and the output's as they were and the accumulator with the pieces `LS0`
    written. The output gets no piece. -/
noncomputable def kernelRun4_B (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : ¬cond4_1 i)
    (x0 : Vec F S2000x128 .f32) (xs0 : Vec F S1x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc4__mean_kernel i arg1 harg1 arg2 harg2 arg3 harg3) K } := by
  refine ⟨[], ?_, fun xi1 E K => ?run⟩
  case run =>
    simp only [cc4__mean_kernel_eq_skeleton]; unfold cc4__mean_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.K.Reg4C.lean ====
/- Region 4, case C — the last grid point: the block's column sums are added to the accumulator, then the
   accumulator, scaled, is stored into the output window. -/
import proofs.«175313_j15590731285054_1_alg».proof.Proof.K.Reg4B

-- membership of an index in a store's rectangle is decided structurally, one step per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE C (first conditional not taken, second taken). On whole memrefs — the input's at its block `x0`, the
    output's at anything, the accumulator at `xs0`, what the point before left — the body runs to a continuation
    that holds the input's as it was, the output's with the pieces `L1` written and the accumulator with the pieces
    `LS0` written. -/
noncomputable def kernelRun4_C (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : cond4_1 i)
    (x0 : Vec F S2000x128 .f32) (xs0 : Vec F S1x128 .f32) :
    Σ' (L1 : List (View.Piece (Elt F) S1x128 .f32)), { LS0 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc4__mean_kernel i arg1 harg1 arg2 harg2 arg3 harg3) K } := by
  refine ⟨?_, ?_, fun E K => ?run⟩
  case run =>
    simp only [cc4__mean_kernel_eq_skeleton]; unfold cc4__mean_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Hand

end
-- ==== Proof.K.Reg4.lean ====
/- Region 4 (the mean kernel): what the accumulator and the output window hold after each of the 50 grid points,
   the pipeline's proof data at a parameter `V` (the buffer contents when the region is entered), the body
   obligation at every point, and the two entailments between the class invariant and the proof data's. -/
import proofs.«175313_j15590731285054_1_alg».proof.Proof.K.Reg4C

-- membership of an index in a store's rectangle is decided structurally, one step per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output window: no pieces. The value is a placeholder nothing consults — at the
    first point the window is neither written back nor read at the next point. -/
def out4_A_1 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : cond4_0 i) (hc1 : ¬cond4_1 i)
    (x0 : Vec F S2000x128 .f32) : Vec F S1x128 .f32 :=
  VO4_1.read (Elt F) (VO4_1.writes (Elt F) VO4_1.junk (kernelRun4_A c i arg1 harg1 arg2 harg2 arg3 harg3 hc0 hc1 x0).1)

/-- Case A's pieces for the accumulator (the reset, then the sum) cover all of its 1×128 cells. -/
theorem scover4_A_0 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : cond4_0 i) (hc1 : ¬cond4_1 i)
    (x0 : Vec F S2000x128 .f32) (y : S1x128.Idx) :
    ∃ pc ∈ (kernelRun4_A c i arg1 harg1 arg2 harg2 arg3 harg3 hc0 hc1 x0).2.1, y ∈ pc.1.set :=
  View.cover_of_tiledL (kernelRun4_A c i arg1 harg1 arg2 harg2 arg3 harg3 hc0 hc1 x0).2.1 S1x128.size (by sl_kernel_rfl) y

/-- What case A leaves in the accumulator: its pieces read back. -/
def sout4_A_0 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : cond4_0 i) (hc1 : ¬cond4_1 i)
    (x0 : Vec F S2000x128 .f32) : Vec F S1x128 .f32 :=
  VS4_0.read (Elt F) (VS4_0.writes (Elt F) VS4_0.junk (kernelRun4_A c i arg1 harg1 arg2 harg2 arg3 harg3 hc0 hc1 x0).2.1)

/-- Case B stores nothing into the output window either: a placeholder, as in case A. -/
def out4_B_1 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : ¬cond4_1 i)
    (x0 : Vec F S2000x128 .f32) (xs0 : Vec F S1x128 .f32) : Vec F S1x128 .f32 :=
  VO4_1.read (Elt F) (VO4_1.writes (Elt F) VO4_1.junk (kernelRun4_B c i arg1 harg1 arg2 harg2 arg3 harg3 hc0 hc1 x0 xs0).1)

/-- Case B's one piece for the accumulator covers all of its cells. -/
theorem scover4_B_0 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : ¬cond4_1 i)
    (x0 : Vec F S2000x128 .f32) (xs0 : Vec F S1x128 .f32) (y : S1x128.Idx) :
    ∃ pc ∈ (kernelRun4_B c i arg1 harg1 arg2 harg2 arg3 harg3 hc0 hc1 x0 xs0).2.1, y ∈ pc.1.set :=
  View.cover_of_tiledL (kernelRun4_B c i arg1 harg1 arg2 harg2 arg3 harg3 hc0 hc1 x0 xs0).2.1 S1x128.size (by sl_kernel_rfl) y

/-- What case B leaves in the accumulator: its piece read back. -/
def sout4_B_0 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : ¬cond4_1 i)
    (x0 : Vec F S2000x128 .f32) (xs0 : Vec F S1x128 .f32) : Vec F S1x128 .f32 :=
  VS4_0.read (Elt F) (VS4_0.writes (Elt F) VS4_0.junk (kernelRun4_B c i arg1 harg1 arg2 harg2 arg3 harg3 hc0 hc1 x0 xs0).2.1)

/-- Case C's one piece for the output window covers all of its 1×128 cells. -/
theorem cover4_C_1 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : cond4_1 i)
    (x0 : Vec F S2000x128 .f32) (xs0 : Vec F S1x128 .f32) (y : S1x128.Idx) :
    ∃ pc ∈ (kernelRun4_C c i arg1 harg1 arg2 harg2 arg3 harg3 hc0 hc1 x0 xs0).1, y ∈ pc.1.set :=
  View.cover_of_tiledL (kernelRun4_C c i arg1 harg1 arg2 harg2 arg3 harg3 hc0 hc1 x0 xs0).1 S1x128.size (by sl_kernel_rfl) y

/-- What case C leaves in the output window's staging buffer: its piece read back. -/
def out4_C_1 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : cond4_1 i)
    (x0 : Vec F S2000x128 .f32) (xs0 : Vec F S1x128 .f32) : Vec F S1x128 .f32 :=
  VO4_1.read (Elt F) (VO4_1.writes (Elt F) VO4_1.junk (kernelRun4_C c i arg1 harg1 arg2 harg2 arg3 harg3 hc0 hc1 x0 xs0).1)

/-- Case C's one piece for the accumulator covers all of its cells. -/
theorem scover4_C_0 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : cond4_1 i)
    (x0 : Vec F S2000x128 .f32) (xs0 : Vec F S1x128 .f32) (y : S1x128.Idx) :
    ∃ pc ∈ (kernelRun4_C c i arg1 harg1 arg2 harg2 arg3 harg3 hc0 hc1 x0 xs0).2.1, y ∈ pc.1.set :=
  View.cover_of_tiledL (kernelRun4_C c i arg1 harg1 arg2 harg2 arg3 harg3 hc0 hc1 x0 xs0).2.1 S1x128.size (by sl_kernel_rfl) y

/-- What case C leaves in the accumulator: its piece read back. -/
def sout4_C_0 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : cond4_1 i)
    (x0 : Vec F S2000x128 .f32) (xs0 : Vec F S1x128 .f32) : Vec F S1x128 .f32 :=
  VS4_0.read (Elt F) (VS4_0.writes (Elt F) VS4_0.junk (kernelRun4_C c i arg1 harg1 arg2 harg2 arg3 harg3 hc0 hc1 x0 xs0).2.1)

/-! ## What the output window and the accumulator hold after each point -/

/-- THE ACCUMULATION. After the body at position `n`: (the output window's staging buffer, the accumulator). Position
    0 is case A on the first block; a later position is the case its residue selects — 49 is case C, anything else
    case B — run on that point's block and on the accumulator as position `n - 1` left it. (The branch for a later
    position of residue 0 is type-correct but met by no point; residues 0 and 49 at once is no case.) -/
def outsAt4 (c : Dev nD) : (n : ℕ) → n < cfg4.N → Vec F S1x128 .f32 × Vec F S1x128 .f32
  | 0, hn => (out4_A_1 c (grid4.coords ⟨0, hn⟩) (ms4_0 ⟨0, hn⟩) (hs4_0 ⟨0, hn⟩) (ms4_1 ⟨0, hn⟩) (hs4_1 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩), sout4_A_0 c (grid4.coords ⟨0, hn⟩) (ms4_0 ⟨0, hn⟩) (hs4_0 ⟨0, hn⟩) (ms4_1 ⟨0, hn⟩) (hs4_1 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩))
  | n + 1, hn =>
    if h0 : (n + 1) % 50 = 0 then
      if h1 : (n + 1) % 50 = 49 then
        False.elim (by omega)
      else
        (out4_A_1 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩))
    else
      if h1 : (n + 1) % 50 = 49 then
        (out4_C_1 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (outsAt4 c n (Nat.lt_of_succ_lt hn)).2)
      else
        (out4_B_1 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (outsAt4 c n (Nat.lt_of_succ_lt hn)).2)

/-- `outsAt4` at a point of case A. -/
theorem outsAt4_A (c : Dev nD) (t : Fin cfg4.N) (h0 : t.val % 50 = 0) (h1 : ¬t.val % 50 = 49) :
    outsAt4 V c t.val t.isLt = (out4_A_1 c (grid4.coords t) (ms4_0 t) (hs4_0 t) (ms4_1 t) (hs4_1 t) scM4_0 (Memref.isWhole_whole _) ((hcond4_0 t).mpr h0) (fun h => h1 ((hcond4_1 t).mp h)) (iblk4 V c 0 t), sout4_A_0 c (grid4.coords t) (ms4_0 t) (hs4_0 t) (ms4_1 t) (hs4_1 t) scM4_0 (Memref.isWhole_whole _) ((hcond4_0 t).mpr h0) (fun h => h1 ((hcond4_1 t).mp h)) (iblk4 V c 0 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 50 = 0) (h1 : ¬t.val % 50 = 49) :
    outsAt4 V c t.val t.isLt = (out4_B_1 c (grid4.coords t) (ms4_0 t) (hs4_0 t) (ms4_1 t) (hs4_1 t) scM4_0 (Memref.isWhole_whole _) (fun h => h0 ((hcond4_0 t).mp h)) (fun h => h1 ((hcond4_1 t).mp h)) (iblk4 V c 0 t) (outsAt4 V c (t.val - 1) (Nat.lt_of_le_of_lt (Nat.sub_le _ _) t.isLt)).2, sout4_B_0 c (grid4.coords t) (ms4_0 t) (hs4_0 t) (ms4_1 t) (hs4_1 t) scM4_0 (Memref.isWhole_whole _) (fun h => h0 ((hcond4_0 t).mp h)) (fun h => h1 ((hcond4_1 t).mp h)) (iblk4 V c 0 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 50 = 0) (h1 : t.val % 50 = 49) :
    outsAt4 V c t.val t.isLt = (out4_C_1 c (grid4.coords t) (ms4_0 t) (hs4_0 t) (ms4_1 t) (hs4_1 t) scM4_0 (Memref.isWhole_whole _) (fun h => h0 ((hcond4_0 t).mp h)) ((hcond4_1 t).mpr h1) (iblk4 V c 0 t) (outsAt4 V c (t.val - 1) (Nat.lt_of_le_of_lt (Nat.sub_le _ _) t.isLt)).2, sout4_C_0 c (grid4.coords t) (ms4_0 t) (hs4_0 t) (ms4_1 t) (hs4_1 t) scM4_0 (Memref.isWhole_whole _) (fun h => h0 ((hcond4_0 t).mp h)) ((hcond4_1 t).mpr h1) (iblk4 V c 0 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`. Before the first point it is the class invariant (every scoped buffer that is
    no staging buffer at anything, the generator register at some state). Afterwards the accumulator is owned at
    exactly what position `n - 1` left in it, beside the other scoped buffers (unopened) and the generator register. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of region 4 on core `c`: the arrays as the region finds them (`V`); after the body at point `t`
    the input's buffer still at its block and the output's at `outsAt4`'s first component; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1 := by dsimp only [dat4]

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 4800000 in
/-- The body at any point. The input's memref holds its block; the residue of the position says which case the point
    is in, so that case's run applies. The invariant hands the body the accumulator — at anything at the first
    point, at what the point before left afterwards — and takes it back at this point's contents, which the case's
    pieces determine because they cover the buffer; the other scoped buffers and the generator register pass through
    untouched; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 50 := lt_of_lt_of_eq t.isLt (show cfg4.N = 50 from N_4)
  by_cases h0 : t.val % 50 = 0
  · by_cases h1 : t.val % 50 = 49
    · exfalso; omega
    · rw [show (dat4 V c).leavesExact 0 t = owns (c : Thread nD τ) (ms4_0 t) fullShare ((dat4 V c).after 0 t) from by
      unfold Dat.leavesExact; rw [liveAt4_0 t], after4_0]
      rw [Dat.leavesExact_idle (dat4 V c) 1 t (idleAt4_1_A t ((hcond4_0 t).mpr h0) (fun h => h1 ((hcond4_1 t).mp h))) (noFlush4_1_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩⟩
        iapply ((kernelRun4_A c (grid4.coords t) _ _ _ _ _ _ ((hcond4_0 t).mpr h0) (fun h => h1 ((hcond4_1 t).mp h)) (iblk4 V c 0 t)).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _)
            iexact HR
          iexact Hg
        isplitl [Ho]; · iexact Ho
        isplitl [H0]; · iexact H0
        iexists _; iexact H1
      · exfalso; omega
  · by_cases h1 : t.val % 50 = 49
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1_C t (fun h => h0 ((hcond4_0 t).mp h)) ((hcond4_1 t).mpr h1)], after4_1]
      rw [outsAt4_C V c t h0 h1]
      unfold out4_C_1 sout4_C_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩⟩
        iapply ((kernelRun4_C c (grid4.coords t) _ _ _ _ _ _ (fun h => h0 ((hcond4_0 t).mp h)) ((hcond4_1 t).mpr h1) (iblk4 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _)
            iexact HR
          iexact Hg
        isplitl [Ho]; · iexact Ho
        isplitl [H0]; · iexact H0
        unfold owns; iexists _; isplitr
        swap; · iexact H1
        ipureintro; exact View.read_writes_of_cover _ _ _ _ _ (cover4_C_1 c _ _ _ _ _ _ _ _ _ _ _)
    · rw [show (dat4 V c).leavesExact 0 t = owns (c : Thread nD τ) (ms4_0 t) fullShare ((dat4 V c).after 0 t) from by
      unfold Dat.leavesExact; rw [liveAt4_0 t], after4_0]
      rw [Dat.leavesExact_idle (dat4 V c) 1 t (idleAt4_1_B t (fun h => h0 ((hcond4_0 t).mp h)) (fun h => h1 ((hcond4_1 t).mp h))) (noFlush4_1_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩⟩
        iapply ((kernelRun4_B c (grid4.coords t) _ _ _ _ _ _ (fun h => h0 ((hcond4_0 t).mp h)) (fun h => h1 ((hcond4_1 t).mp h)) (iblk4 V c 0 t) _).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _)
            iexact HR
          iexact Hg
        isplitl [Ho]; · iexact Ho
        isplitl [H0]; · iexact H0
        iexists _; iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region (the class invariant) is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class invariant back: what the accumulator holds is
    forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 50 := N_4; omega)

end Cert.Kernel.Hand

end
-- ==== Proof.K.Halves.lean ====
/-
  The five regions' halves as proved region by region: the row-scale kernel, the three layer kernels (each point's
  body stores whole blocks computed from the input blocks, so the plain region invariant is the invariant throughout)
  and the mean kernel (its accumulator scratch is carried from point to point, entered from and given back as the plain
  region invariant).
-/
import proofs.«175313_j15590731285054_1_alg».proof.Proof.K.Run
import proofs.«175313_j15590731285054_1_alg».proof.Proof.K.Reg0
import proofs.«175313_j15590731285054_1_alg».proof.Proof.K.Reg1
import proofs.«175313_j15590731285054_1_alg».proof.Proof.K.Reg2
import proofs.«175313_j15590731285054_1_alg».proof.Proof.K.Reg3
import proofs.«175313_j15590731285054_1_alg».proof.Proof.K.Reg4

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

/-- Region 0's half. -/
def half0 : Half0 (F := F) where
  D := fun V c => dat0 V c
  hq := fun _ _ _ => rfl
  howed := fun _ _ _ => rfl
  hrec := fun _ _ _ => rfl
  hA := fun V c w => A_eq0 V c w
  hbody := fun V c => body_obligation0 V c
  hin := fun _ _ => .rfl
  hout := fun _ _ => .rfl

/-- Region 1's half. -/
def half1 : Half1 (F := F) where
  D := fun V c => dat1 V c
  hq := fun _ _ _ => rfl
  howed := fun _ _ _ => rfl
  hrec := fun _ _ _ => rfl
  hA := fun V c w => A_eq1 V c w
  hbody := fun V c => body_obligation1 V c
  hin := fun _ _ => .rfl
  hout := fun _ _ => .rfl

/-- Region 2's half. -/
def half2 : Half2 (F := F) where
  D := fun V c => dat2 V c
  hq := fun _ _ _ => rfl
  howed := fun _ _ _ => rfl
  hrec := fun _ _ _ => rfl
  hA := fun V c w => A_eq2 V c w
  hbody := fun V c => body_obligation2 V c
  hin := fun _ _ => .rfl
  hout := fun _ _ => .rfl

/-- Region 3's half. -/
def half3 : Half3 (F := F) where
  D := fun V c => dat3 V c
  hq := fun _ _ _ => rfl
  howed := fun _ _ _ => rfl
  hrec := fun _ _ _ => rfl
  hA := fun V c w => A_eq3 V c w
  hbody := fun V c => body_obligation3 V c
  hin := fun _ _ => .rfl
  hout := fun _ _ => .rfl

/-- The mean region's half. -/
def half4 : Half4 (F := F) where
  D := fun V c => dat4 V c
  hq := fun _ _ _ => rfl
  howed := fun _ _ _ => rfl
  hrec := fun _ _ _ => rfl
  hA := fun V c w => A_eq4 V c w
  hbody := fun V c => body_obligation4 V c
  hin := fun V c => hin4 V c
  hout := fun V c => hout4 V c

end Cert.Kernel.Hand

end
-- ==== Proof.K.Frame.lean ====
/-
  The frame: every weakly fair execution of @main terminates, nothing faulting, and each of the nine argument arrays
  ends holding its launch contents — read off the run's last contents, through which every argument passes unchanged.
-/
import proofs.«175313_j15590731285054_1_alg».proof.Proof.K.Keep
import proofs.«175313_j15590731285054_1_alg».proof.Proof.K.Halves

noncomputable section

namespace Cert.Kernel.Hand

open Cert.Kernel Cert.Kernel.Gen
open Idealize.ShloMosaic Idealize.ShloMosaic.TcCoe
open Idealize.SL Idealize.SL.Sem

variable {F : FTy → Type} [FloatOps F]

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the halves proved region by region. -/
theorem run' (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W13 m half0 half1 half2 half3 half4 c b) :=
  run m half0 half1 half2 half3 half4 ρ

/-- THE FRAME, at any instance. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (W13_arg0 m half0 half1 half2 half3 half4 c),
    (h c _ (mem_uc main_arg1 (by decide))).trans (W13_arg1 m half0 half1 half2 half3 half4 c),
    (h c _ (mem_uc main_arg2 (by decide))).trans (W13_arg2 m half0 half1 half2 half3 half4 c),
    (h c _ (mem_uc main_arg3 (by decide))).trans (W13_arg3 m half0 half1 half2 half3 half4 c),
    (h c _ (mem_uc main_arg4 (by decide))).trans (W13_arg4 m half0 half1 half2 half3 half4 c),
    (h c _ (mem_uc main_arg5 (by decide))).trans (W13_arg5 m half0 half1 half2 half3 half4 c),
    (h c _ (mem_uc main_arg6 (by decide))).trans (W13_arg6 m half0 half1 half2 half3 half4 c),
    (h c _ (mem_uc main_arg7 (by decide))).trans (W13_arg7 m half0 half1 half2 half3 half4 c),
    (h c _ (mem_uc main_arg8 (by decide))).trans (W13_arg8 m half0 half1 half2 half3 half4 c)⟩)
    (run' m ρ)

end Cert.Kernel.Hand

end
-- ==== Proof.KI.Segs.lean ====
/-
  One segment record per kernel region, for ANY proof data of the region whose arrays are the contents the region is
  entered with, whose invariant is entered from and gives back the plain region invariant (the scoped buffers no window
  stages, each at some contents, and the generator register at some state), which holds full shares and owes nothing,
  and whose body obligation is proved. The region is entered holding every unscoped buffer of the core at the entry
  valuation and left holding them at the exit valuation: the windows' arrays are split out of the unscoped buffers
  at entry and put back at what the write-backs leave at exit; every other unscoped buffer bypasses the region.
-/
import proofs.«175313_j15590731285054_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- No kernel of this program has a variant, no core owes another anything: no level is assigned. -/
abbrev 𝒱₀ : Variants := Variants.none
abbrev L : GSem nD τ sig → Finset Unit := fun _ => ∅
abbrev lv : GSem nD τ sig → Unit → ℕ := fun _ _ => 0
/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)

/-- A family of proof data, one per pipeline and core. -/
abbrev PD : Type _ := (p : Fin 5) → (c : Dev nD) → Dat τ (Elt F) Unit ℕ (UR sig nD τ) ℕ (cfgs p) c

-- a library lemma stated over the pinned configuration unifies with the printed one only when unification may unfold
-- definitions in a metavariable's type
set_option backward.isDefEq.respectTransparency.types false in
/-- Region 0: entered with the unscoped buffers at `Vin`, left with them at `Vout`, which has the region's arrays at
    what the write-backs leave (`hF`) and agrees with `Vin` elsewhere (`hrest`). -/
def reg0 (pdats : PD (F := F)) (Vin Vout : Dev nD → Valuation τ sig (Elt F))
    (hq : ∀ c w, (pdats 0 c).q w = fullShare) (howed : ∀ c t, (pdats 0 c).owed t = 0)
    (hrec : ∀ c t, (pdats 0 c).recorded t = Set.univ)
    (hA : ∀ c w, (pdats 0 c).A w = Vin c (Pipeline.arrRef spec0 w))
    (hbody : ∀ c, BodyObligation (pdats 0 c) (defs₀ (F := F)) 𝒱₀ () Set.univ)
    (hin : ∀ c, (Pipeline.ΦA spec0 c : sProp 𝕄) ⊢ (pdats 0 c).Φ 0)
    (hout : ∀ c, (pdats 0 c).Φ (Fin.last cfg0.N) ⊢ (Pipeline.ΦA spec0 c : sProp 𝕄))
    (hF : ∀ c w, (pdats 0 c).arrAt w cfg0.N = Vout c (Pipeline.arrRef spec0 w))
    (hrest : ∀ c (b : Ref sig .tc), b ∉ Finset.univ.image (Pipeline.arrRef spec0) → Vout c b = Vin c b) :
    Pipeline.RegionSeg (pcfgs (F := F)) adm pdats () defs₀ 𝒱₀ L lv 0 where
  win := launch0.win.to₀
  block_pos := launch0.block_pos
  stage_whole := launch0.stage_whole
  K := PEmpty
  osem k := k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec0 c (fun b => Vin c b)
  hentry c := by
    rw [Pipeline.ownSems0_none]
    have hsplit := Pipeline.arrays_of_unscopedBufs (p := 0) (pcfgs (F := F)) adm pdats launch0.win launch0.arr_whole c
      ((pdats 0 c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats ((pdats 0 c).share_full (hq c))
      (fun b => Vin c b) (fun b => Vout c b) ((pdats 0 c).arrAt · cfg0.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

-- a library lemma stated over the pinned configuration unifies with the printed one only when unification may unfold
-- definitions in a metavariable's type
set_option backward.isDefEq.respectTransparency.types false in
/-- Region 1: entered with the unscoped buffers at `Vin`, left with them at `Vout`, which has the region's arrays at
    what the write-backs leave (`hF`) and agrees with `Vin` elsewhere (`hrest`). -/
def reg1 (pdats : PD (F := F)) (Vin Vout : Dev nD → Valuation τ sig (Elt F))
    (hq : ∀ c w, (pdats 1 c).q w = fullShare) (howed : ∀ c t, (pdats 1 c).owed t = 0)
    (hrec : ∀ c t, (pdats 1 c).recorded t = Set.univ)
    (hA : ∀ c w, (pdats 1 c).A w = Vin c (Pipeline.arrRef spec1 w))
    (hbody : ∀ c, BodyObligation (pdats 1 c) (defs₀ (F := F)) 𝒱₀ () Set.univ)
    (hin : ∀ c, (Pipeline.ΦA spec1 c : sProp 𝕄) ⊢ (pdats 1 c).Φ 0)
    (hout : ∀ c, (pdats 1 c).Φ (Fin.last cfg1.N) ⊢ (Pipeline.ΦA spec1 c : sProp 𝕄))
    (hF : ∀ c w, (pdats 1 c).arrAt w cfg1.N = Vout c (Pipeline.arrRef spec1 w))
    (hrest : ∀ c (b : Ref sig .tc), b ∉ Finset.univ.image (Pipeline.arrRef spec1) → Vout c b = Vin c b) :
    Pipeline.RegionSeg (pcfgs (F := F)) adm pdats () defs₀ 𝒱₀ L lv 1 where
  win := launch1.win.to₀
  block_pos := launch1.block_pos
  stage_whole := launch1.stage_whole
  K := PEmpty
  osem k := k.elim
  ho := Pipeline.OwnSemFacts.none _
  hbody c := (hbody c).loose
  hwaits := Pipeline.hwaits_of_owed_zero _ _ _ _ L lv 1 howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec1 c (fun b => Vin c b)
  hentry c := by
    rw [Pipeline.ownSems0_none]
    have hsplit := Pipeline.arrays_of_unscopedBufs (p := 1) (pcfgs (F := F)) adm pdats launch1.win launch1.arr_whole c
      ((pdats 1 c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats ((pdats 1 c).share_full (hq c))
      (fun b => Vin c b) (fun b => Vout c b) ((pdats 1 c).arrAt · cfg1.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

-- a library lemma stated over the pinned configuration unifies with the printed one only when unification may unfold
-- definitions in a metavariable's type
set_option backward.isDefEq.respectTransparency.types false in
/-- Region 2: entered with the unscoped buffers at `Vin`, left with them at `Vout`, which has the region's arrays at
    what the write-backs leave (`hF`) and agrees with `Vin` elsewhere (`hrest`). -/
def reg2 (pdats : PD (F := F)) (Vin Vout : Dev nD → Valuation τ sig (Elt F))
    (hq : ∀ c w, (pdats 2 c).q w = fullShare) (howed : ∀ c t, (pdats 2 c).owed t = 0)
    (hrec : ∀ c t, (pdats 2 c).recorded t = Set.univ)
    (hA : ∀ c w, (pdats 2 c).A w = Vin c (Pipeline.arrRef spec2 w))
    (hbody : ∀ c, BodyObligation (pdats 2 c) (defs₀ (F := F)) 𝒱₀ () Set.univ)
    (hin : ∀ c, (Pipeline.ΦA spec2 c : sProp 𝕄) ⊢ (pdats 2 c).Φ 0)
    (hout : ∀ c, (pdats 2 c).Φ (Fin.last cfg2.N) ⊢ (Pipeline.ΦA spec2 c : sProp 𝕄))
    (hF : ∀ c w, (pdats 2 c).arrAt w cfg2.N = Vout c (Pipeline.arrRef spec2 w))
    (hrest : ∀ c (b : Ref sig .tc), b ∉ Finset.univ.image (Pipeline.arrRef spec2) → Vout c b = Vin c b) :
    Pipeline.RegionSeg (pcfgs (F := F)) adm pdats () defs₀ 𝒱₀ L lv 2 where
  win := launch2.win.to₀
  block_pos := launch2.block_pos
  stage_whole := launch2.stage_whole
  K := PEmpty
  osem k := k.elim
  ho := Pipeline.OwnSemFacts.none _
  hbody c := (hbody c).loose
  hwaits := Pipeline.hwaits_of_owed_zero _ _ _ _ L lv 2 howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec2 c (fun b => Vin c b)
  hentry c := by
    rw [Pipeline.ownSems0_none]
    have hsplit := Pipeline.arrays_of_unscopedBufs (p := 2) (pcfgs (F := F)) adm pdats launch2.win launch2.arr_whole c
      ((pdats 2 c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c pdats ((pdats 2 c).share_full (hq c))
      (fun b => Vin c b) (fun b => Vout c b) ((pdats 2 c).arrAt · cfg2.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

-- a library lemma stated over the pinned configuration unifies with the printed one only when unification may unfold
-- definitions in a metavariable's type
set_option backward.isDefEq.respectTransparency.types false in
/-- Region 3: entered with the unscoped buffers at `Vin`, left with them at `Vout`, which has the region's arrays at
    what the write-backs leave (`hF`) and agrees with `Vin` elsewhere (`hrest`). -/
def reg3 (pdats : PD (F := F)) (Vin Vout : Dev nD → Valuation τ sig (Elt F))
    (hq : ∀ c w, (pdats 3 c).q w = fullShare) (howed : ∀ c t, (pdats 3 c).owed t = 0)
    (hrec : ∀ c t, (pdats 3 c).recorded t = Set.univ)
    (hA : ∀ c w, (pdats 3 c).A w = Vin c (Pipeline.arrRef spec3 w))
    (hbody : ∀ c, BodyObligation (pdats 3 c) (defs₀ (F := F)) 𝒱₀ () Set.univ)
    (hin : ∀ c, (Pipeline.ΦA spec3 c : sProp 𝕄) ⊢ (pdats 3 c).Φ 0)
    (hout : ∀ c, (pdats 3 c).Φ (Fin.last cfg3.N) ⊢ (Pipeline.ΦA spec3 c : sProp 𝕄))
    (hF : ∀ c w, (pdats 3 c).arrAt w cfg3.N = Vout c (Pipeline.arrRef spec3 w))
    (hrest : ∀ c (b : Ref sig .tc), b ∉ Finset.univ.image (Pipeline.arrRef spec3) → Vout c b = Vin c b) :
    Pipeline.RegionSeg (pcfgs (F := F)) adm pdats () defs₀ 𝒱₀ L lv 3 where
  win := launch3.win.to₀
  block_pos := launch3.block_pos
  stage_whole := launch3.stage_whole
  K := PEmpty
  osem k := k.elim
  ho := Pipeline.OwnSemFacts.none _
  hbody c := (hbody c).loose
  hwaits := Pipeline.hwaits_of_owed_zero _ _ _ _ L lv 3 howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec3 c (fun b => Vin c b)
  hentry c := by
    rw [Pipeline.ownSems0_none]
    have hsplit := Pipeline.arrays_of_unscopedBufs (p := 3) (pcfgs (F := F)) adm pdats launch3.win launch3.arr_whole c
      ((pdats 3 c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c pdats ((pdats 3 c).share_full (hq c))
      (fun b => Vin c b) (fun b => Vout c b) ((pdats 3 c).arrAt · cfg3.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

-- a library lemma stated over the pinned configuration unifies with the printed one only when unification may unfold
-- definitions in a metavariable's type
set_option backward.isDefEq.respectTransparency.types false in
/-- Region 4: entered with the unscoped buffers at `Vin`, left with them at `Vout`, which has the region's arrays at
    what the write-backs leave (`hF`) and agrees with `Vin` elsewhere (`hrest`). -/
def reg4 (pdats : PD (F := F)) (Vin Vout : Dev nD → Valuation τ sig (Elt F))
    (hq : ∀ c w, (pdats 4 c).q w = fullShare) (howed : ∀ c t, (pdats 4 c).owed t = 0)
    (hrec : ∀ c t, (pdats 4 c).recorded t = Set.univ)
    (hA : ∀ c w, (pdats 4 c).A w = Vin c (Pipeline.arrRef spec4 w))
    (hbody : ∀ c, BodyObligation (pdats 4 c) (defs₀ (F := F)) 𝒱₀ () Set.univ)
    (hin : ∀ c, (Pipeline.ΦA spec4 c : sProp 𝕄) ⊢ (pdats 4 c).Φ 0)
    (hout : ∀ c, (pdats 4 c).Φ (Fin.last cfg4.N) ⊢ (Pipeline.ΦA spec4 c : sProp 𝕄))
    (hF : ∀ c w, (pdats 4 c).arrAt w cfg4.N = Vout c (Pipeline.arrRef spec4 w))
    (hrest : ∀ c (b : Ref sig .tc), b ∉ Finset.univ.image (Pipeline.arrRef spec4) → Vout c b = Vin c b) :
    Pipeline.RegionSeg (pcfgs (F := F)) adm pdats () defs₀ 𝒱₀ L lv 4 where
  win := launch4.win.to₀
  block_pos := launch4.block_pos
  stage_whole := launch4.stage_whole
  K := PEmpty
  osem k := k.elim
  ho := Pipeline.OwnSemFacts.none _
  hbody c := (hbody c).loose
  hwaits := Pipeline.hwaits_of_owed_zero _ _ _ _ L lv 4 howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec4 c (fun b => Vin c b)
  hentry c := by
    rw [Pipeline.ownSems0_none]
    have hsplit := Pipeline.arrays_of_unscopedBufs (p := 4) (pcfgs (F := F)) adm pdats launch4.win launch4.arr_whole c
      ((pdats 4 c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c pdats ((pdats 4 c).share_full (hq c))
      (fun b => Vin c b) (fun b => Vout c b) ((pdats 4 c).arrAt · cfg4.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Cert.KernelIdeal.Hand

end
-- ==== Proof.KI.Run.lean ====
/-
  The kernel program's run as a chain of buffer contents. Core `c` starts from the launch memory; each host stretch
  replaces the contents by the stretch's operations applied in order; each kernel region replaces its windows' arrays
  by what its write-backs leave (an input array is left as it was entered) and changes no other unscoped buffer. Given
  the five regions' halves, every weakly fair execution of @main terminates, and every unscoped buffer ends at the
  chain's last contents: the two results and the nine argument arrays are read off it.
-/
import proofs.«175313_j15590731285054_1_alg».proof.Proof.KI.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The TensorCore's buffer contents read at its own references. -/
abbrev VT : Type := (c : Dev nD) → (b : Ref sig .tc) → Buf (Elt F) ((c : Thread nD τ).loc b)

/-- What region 0's half provides at every entry contents `V`: proof data whose arrays are `V`'s, at full shares, owing
    nothing, every cell recorded; the body obligation; the plain region invariant in and out. -/
structure Half0 where
  D : VT (F := F) → (c : Dev nD) → Dat τ (Elt F) Unit ℕ (UR sig nD τ) ℕ cfg0 c
  hq : ∀ V c w, (D V c).q w = fullShare
  howed : ∀ V c t, (D V c).owed t = 0
  hrec : ∀ V c t, (D V c).recorded t = Set.univ
  hA : ∀ V c w, (D V c).A w = V c (Pipeline.arrRef spec0 w)
  hbody : ∀ V c, BodyObligation (D V c) (defs₀ (F := F)) 𝒱₀ () Set.univ
  hin : ∀ V c, (Pipeline.ΦA spec0 c : sProp 𝕄) ⊢ (D V c).Φ 0
  hout : ∀ V c, (D V c).Φ (Fin.last cfg0.N) ⊢ (Pipeline.ΦA spec0 c : sProp 𝕄)

/-- What region 1's half provides at every entry contents `V`: proof data whose arrays are `V`'s, at full shares, owing
    nothing, every cell recorded; the body obligation; the plain region invariant in and out. -/
structure Half1 where
  D : VT (F := F) → (c : Dev nD) → Dat τ (Elt F) Unit ℕ (UR sig nD τ) ℕ cfg1 c
  hq : ∀ V c w, (D V c).q w = fullShare
  howed : ∀ V c t, (D V c).owed t = 0
  hrec : ∀ V c t, (D V c).recorded t = Set.univ
  hA : ∀ V c w, (D V c).A w = V c (Pipeline.arrRef spec1 w)
  hbody : ∀ V c, BodyObligation (D V c) (defs₀ (F := F)) 𝒱₀ () Set.univ
  hin : ∀ V c, (Pipeline.ΦA spec1 c : sProp 𝕄) ⊢ (D V c).Φ 0
  hout : ∀ V c, (D V c).Φ (Fin.last cfg1.N) ⊢ (Pipeline.ΦA spec1 c : sProp 𝕄)

/-- What region 2's half provides at every entry contents `V`: proof data whose arrays are `V`'s, at full shares, owing
    nothing, every cell recorded; the body obligation; the plain region invariant in and out. -/
structure Half2 where
  D : VT (F := F) → (c : Dev nD) → Dat τ (Elt F) Unit ℕ (UR sig nD τ) ℕ cfg2 c
  hq : ∀ V c w, (D V c).q w = fullShare
  howed : ∀ V c t, (D V c).owed t = 0
  hrec : ∀ V c t, (D V c).recorded t = Set.univ
  hA : ∀ V c w, (D V c).A w = V c (Pipeline.arrRef spec2 w)
  hbody : ∀ V c, BodyObligation (D V c) (defs₀ (F := F)) 𝒱₀ () Set.univ
  hin : ∀ V c, (Pipeline.ΦA spec2 c : sProp 𝕄) ⊢ (D V c).Φ 0
  hout : ∀ V c, (D V c).Φ (Fin.last cfg2.N) ⊢ (Pipeline.ΦA spec2 c : sProp 𝕄)

/-- What region 3's half provides at every entry contents `V`: proof data whose arrays are `V`'s, at full shares, owing
    nothing, every cell recorded; the body obligation; the plain region invariant in and out. -/
structure Half3 where
  D : VT (F := F) → (c : Dev nD) → Dat τ (Elt F) Unit ℕ (UR sig nD τ) ℕ cfg3 c
  hq : ∀ V c w, (D V c).q w = fullShare
  howed : ∀ V c t, (D V c).owed t = 0
  hrec : ∀ V c t, (D V c).recorded t = Set.univ
  hA : ∀ V c w, (D V c).A w = V c (Pipeline.arrRef spec3 w)
  hbody : ∀ V c, BodyObligation (D V c) (defs₀ (F := F)) 𝒱₀ () Set.univ
  hin : ∀ V c, (Pipeline.ΦA spec3 c : sProp 𝕄) ⊢ (D V c).Φ 0
  hout : ∀ V c, (D V c).Φ (Fin.last cfg3.N) ⊢ (Pipeline.ΦA spec3 c : sProp 𝕄)

/-- What region 4's half provides at every entry contents `V`: proof data whose arrays are `V`'s, at full shares, owing
    nothing, every cell recorded; the body obligation; the plain region invariant in and out. -/
structure Half4 where
  D : VT (F := F) → (c : Dev nD) → Dat τ (Elt F) Unit ℕ (UR sig nD τ) ℕ cfg4 c
  hq : ∀ V c w, (D V c).q w = fullShare
  howed : ∀ V c t, (D V c).owed t = 0
  hrec : ∀ V c t, (D V c).recorded t = Set.univ
  hA : ∀ V c w, (D V c).A w = V c (Pipeline.arrRef spec4 w)
  hbody : ∀ V c, BodyObligation (D V c) (defs₀ (F := F)) 𝒱₀ () Set.univ
  hin : ∀ V c, (Pipeline.ΦA spec4 c : sProp 𝕄) ⊢ (D V c).Φ 0
  hout : ∀ V c, (D V c).Φ (Fin.last cfg4.N) ⊢ (Pipeline.ΦA spec4 c : sProp 𝕄)

variable (m : (ℓ : Loc nD τ sig) → Buf (Elt F) ℓ)
variable (h0 : Half0 (F := F)) (h1 : Half1 (F := F)) (h2 : Half2 (F := F)) (h3 : Half3 (F := F)) (h4 : Half4 (F := F))

/-! ## The buffer contents at each boundary -/

/-- At launch. -/
def W0 (c : Dev nD) : Valuation τ sig (Elt F) := fun b => m (c, b)
/-- After the five host stretches before the first region: the degrees, their clamps and powers, the two norms as columns. -/
def W1 (c : Dev nD) : Valuation τ sig (Elt F) := StableHlo.after hostOps0 (W0 m c)
def W2 (c : Dev nD) : Valuation τ sig (Elt F) := StableHlo.after hostOps0_1 (W1 m c)
def W3 (c : Dev nD) : Valuation τ sig (Elt F) := StableHlo.after hostOps0_2 (W2 m c)
def W4 (c : Dev nD) : Valuation τ sig (Elt F) := StableHlo.after hostOps0_3 (W3 m c)
def W5 (c : Dev nD) : Valuation τ sig (Elt F) := StableHlo.after hostOps0_4 (W4 m c)
def Vr5 : VT (F := F) := fun c b => W5 m c b
/-- After the row-scale region. -/
def W6 (c : Dev nD) : Valuation τ sig (Elt F) := Pipeline.withArrays spec0 c (W5 m c) fun w => (h0.D (Vr5 m) c).arrAt w cfg0.N
/-- After the first gather / scatter-add stretch. -/
def W7 (c : Dev nD) : Valuation τ sig (Elt F) := StableHlo.after hostOps1 (W6 m h0 c)
def Vr7 : VT (F := F) := fun c b => W7 m h0 c b
/-- After the first layer region. -/
def W8 (c : Dev nD) : Valuation τ sig (Elt F) := Pipeline.withArrays spec1 c (W7 m h0 c) fun w => (h1.D (Vr7 m h0) c).arrAt w cfg1.N
def W9 (c : Dev nD) : Valuation τ sig (Elt F) := StableHlo.after hostOps2 (W8 m h0 h1 c)
def Vr9 : VT (F := F) := fun c b => W9 m h0 h1 c b
/-- After the second layer region. -/
def W10 (c : Dev nD) : Valuation τ sig (Elt F) := Pipeline.withArrays spec2 c (W9 m h0 h1 c) fun w => (h2.D (Vr9 m h0 h1) c).arrAt w cfg2.N
def W11 (c : Dev nD) : Valuation τ sig (Elt F) := StableHlo.after hostOps3 (W10 m h0 h1 h2 c)
def Vr11 : VT (F := F) := fun c b => W11 m h0 h1 h2 c b
/-- After the third layer region. -/
def W12 (c : Dev nD) : Valuation τ sig (Elt F) := Pipeline.withArrays spec3 c (W11 m h0 h1 h2 c) fun w => (h3.D (Vr11 m h0 h1 h2) c).arrAt w cfg3.N
def Vr12 : VT (F := F) := fun c b => W12 m h0 h1 h2 h3 c b
/-- After the mean region: the end. -/
def W13 (c : Dev nD) : Valuation τ sig (Elt F) := Pipeline.withArrays spec4 c (W12 m h0 h1 h2 h3 c) fun w => (h4.D (Vr12 m h0 h1 h2 h3) c).arrAt w cfg4.N

/-! ## The proof data family and the segments -/

/-- Every pipeline's proof data, each at its region's entry contents. -/
def pdats : PD (F := F)
  | ⟨0, _⟩ => fun c => h0.D (Vr5 m) c
  | ⟨1, _⟩ => fun c => h1.D (Vr7 m h0) c
  | ⟨2, _⟩ => fun c => h2.D (Vr9 m h0 h1) c
  | ⟨3, _⟩ => fun c => h3.D (Vr11 m h0 h1 h2) c
  | ⟨4, _⟩ => fun c => h4.D (Vr12 m h0 h1 h2 h3) c

/-- A host stretch as a segment over the unscoped references from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

theorem W6_arr (c : Dev nD) (w : Fin cfg0.W) :
    W6 m h0 c (Proc.devRef .tc (Pipeline.arrRef spec0 w)) = (h0.D (Vr5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m h0 c (Proc.devRef .tc b) = W5 m c (Proc.devRef .tc b) := by
  unfold W6; exact Pipeline.withArrays_of_ne spec0 c _ _ b hb

/-- Region 0 as a segment: entered at `W5`, left at `W6`. -/
def r0 : Pipeline.RegionSeg (pcfgs (F := F)) adm (pdats m h0 h1 h2 h3 h4) () defs₀ 𝒱₀ L lv 0 :=
  reg0 (pdats m h0 h1 h2 h3 h4) (W5 m) (W6 m h0)
    (fun c w => h0.hq _ c w) (fun c t => h0.howed _ c t) (fun c t => h0.hrec _ c t) (fun c w => h0.hA _ c w)
    (fun c => h0.hbody _ c) (fun c => h0.hin _ c) (fun c => h0.hout _ c)
    (fun c w => (W6_arr m h0 c w).symm)
    (fun c b hb => W6_of_ne m h0 c b fun w e => hb (Finset.mem_image.mpr ⟨w, Finset.mem_univ _, e⟩))

theorem W8_arr (c : Dev nD) (w : Fin cfg1.W) :
    W8 m h0 h1 c (Proc.devRef .tc (Pipeline.arrRef spec1 w)) = (h1.D (Vr7 m h0) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m h0 h1 c (Proc.devRef .tc b) = W7 m h0 c (Proc.devRef .tc b) := by
  unfold W8; exact Pipeline.withArrays_of_ne spec1 c _ _ b hb

/-- Region 1 as a segment: entered at `W7`, left at `W8`. -/
def r1 : Pipeline.RegionSeg (pcfgs (F := F)) adm (pdats m h0 h1 h2 h3 h4) () defs₀ 𝒱₀ L lv 1 :=
  reg1 (pdats m h0 h1 h2 h3 h4) (W7 m h0) (W8 m h0 h1)
    (fun c w => h1.hq _ c w) (fun c t => h1.howed _ c t) (fun c t => h1.hrec _ c t) (fun c w => h1.hA _ c w)
    (fun c => h1.hbody _ c) (fun c => h1.hin _ c) (fun c => h1.hout _ c)
    (fun c w => (W8_arr m h0 h1 c w).symm)
    (fun c b hb => W8_of_ne m h0 h1 c b fun w e => hb (Finset.mem_image.mpr ⟨w, Finset.mem_univ _, e⟩))

theorem W10_arr (c : Dev nD) (w : Fin cfg2.W) :
    W10 m h0 h1 h2 c (Proc.devRef .tc (Pipeline.arrRef spec2 w)) = (h2.D (Vr9 m h0 h1) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m h0 h1 h2 c (Proc.devRef .tc b) = W9 m h0 h1 c (Proc.devRef .tc b) := by
  unfold W10; exact Pipeline.withArrays_of_ne spec2 c _ _ b hb

/-- Region 2 as a segment: entered at `W9`, left at `W10`. -/
def r2 : Pipeline.RegionSeg (pcfgs (F := F)) adm (pdats m h0 h1 h2 h3 h4) () defs₀ 𝒱₀ L lv 2 :=
  reg2 (pdats m h0 h1 h2 h3 h4) (W9 m h0 h1) (W10 m h0 h1 h2)
    (fun c w => h2.hq _ c w) (fun c t => h2.howed _ c t) (fun c t => h2.hrec _ c t) (fun c w => h2.hA _ c w)
    (fun c => h2.hbody _ c) (fun c => h2.hin _ c) (fun c => h2.hout _ c)
    (fun c w => (W10_arr m h0 h1 h2 c w).symm)
    (fun c b hb => W10_of_ne m h0 h1 h2 c b fun w e => hb (Finset.mem_image.mpr ⟨w, Finset.mem_univ _, e⟩))

theorem W12_arr (c : Dev nD) (w : Fin cfg3.W) :
    W12 m h0 h1 h2 h3 c (Proc.devRef .tc (Pipeline.arrRef spec3 w)) = (h3.D (Vr11 m h0 h1 h2) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m h0 h1 h2 h3 c (Proc.devRef .tc b) = W11 m h0 h1 h2 c (Proc.devRef .tc b) := by
  unfold W12; exact Pipeline.withArrays_of_ne spec3 c _ _ b hb

/-- Region 3 as a segment: entered at `W11`, left at `W12`. -/
def r3 : Pipeline.RegionSeg (pcfgs (F := F)) adm (pdats m h0 h1 h2 h3 h4) () defs₀ 𝒱₀ L lv 3 :=
  reg3 (pdats m h0 h1 h2 h3 h4) (W11 m h0 h1 h2) (W12 m h0 h1 h2 h3)
    (fun c w => h3.hq _ c w) (fun c t => h3.howed _ c t) (fun c t => h3.hrec _ c t) (fun c w => h3.hA _ c w)
    (fun c => h3.hbody _ c) (fun c => h3.hin _ c) (fun c => h3.hout _ c)
    (fun c w => (W12_arr m h0 h1 h2 h3 c w).symm)
    (fun c b hb => W12_of_ne m h0 h1 h2 h3 c b fun w e => hb (Finset.mem_image.mpr ⟨w, Finset.mem_univ _, e⟩))

theorem W13_arr (c : Dev nD) (w : Fin cfg4.W) :
    W13 m h0 h1 h2 h3 h4 c (Proc.devRef .tc (Pipeline.arrRef spec4 w)) = (h4.D (Vr12 m h0 h1 h2 h3) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m h0 h1 h2 h3 h4 c (Proc.devRef .tc b) = W12 m h0 h1 h2 h3 c (Proc.devRef .tc b) := by
  unfold W13; exact Pipeline.withArrays_of_ne spec4 c _ _ b hb

/-- Region 4 as a segment: entered at `W12`, left at `W13`. -/
def r4 : Pipeline.RegionSeg (pcfgs (F := F)) adm (pdats m h0 h1 h2 h3 h4) () defs₀ 𝒱₀ L lv 4 :=
  reg4 (pdats m h0 h1 h2 h3 h4) (W12 m h0 h1 h2 h3) (W13 m h0 h1 h2 h3 h4)
    (fun c w => h4.hq _ c w) (fun c t => h4.howed _ c t) (fun c t => h4.hrec _ c t) (fun c w => h4.hA _ c w)
    (fun c => h4.hbody _ c) (fun c => h4.hin _ c) (fun c => h4.hout _ c)
    (fun c w => (W13_arr m h0 h1 h2 h3 h4 c w).symm)
    (fun c b hb => W13_of_ne m h0 h1 h2 h3 h4 c b fun w e => hb (Finset.mem_image.mpr ⟨w, Finset.mem_univ _, e⟩))

/-! ## @main as segments, and the launch -/

/-- @main's thirteen segments in order. -/
abbrev segs : List (Pipeline.Seg (pcfgs (F := F)) adm (pdats m h0 h1 h2 h3 h4) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (r0 m h0 h1 h2 h3 h4),
    .host (hseg hostOps1 hostOps1_sub hostOps1_fresh (W6 m h0)),
    .region (r1 m h0 h1 h2 h3 h4),
    .host (hseg hostOps2 hostOps2_sub hostOps2_fresh (W8 m h0 h1)),
    .region (r2 m h0 h1 h2 h3 h4),
    .host (hseg hostOps3 hostOps3_sub hostOps3_fresh (W10 m h0 h1 h2)),
    .region (r3 m h0 h1 h2 h3 h4),
    .region (r4 m h0 h1 h2 h3 h4) ]

-- the launch theorem's implicit arguments are found by unifying two spellings of one conclusion
set_option backward.isDefEq.respectTransparency.types false in
/-- THE RUN: from any memory with zero counters every weakly fair execution of @main terminates, nothing faulting, and
    every unscoped buffer of every core ends at the chain's last contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W13 m h0 h1 h2 h3 h4 c b) :=
  Pipeline.θ_run_regions_kit (pcfgs (F := F)) adm (pdats m h0 h1 h2 h3 h4) () cellOf_inj emb₁ defs₀ 𝒱₀ L lv m ρ main (segs m h0 h1 h2 h3 h4)
    (fun c Q => by
      rewrite [main_chain c, Pipeline.Seg.run_eq_chain,
        show (segs m h0 h1 h2 h3 h4).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W13 m h0 h1 h2 h3 h4 c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m h0 h1 h2 h3 h4 c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m h0 h1 h2 h3 h4 c b)
    (hfin := fun c s' => by
      iintro ⟨⟨Hh, -⟩, HSI⟩
      unfold StableHlo.held
      imodintro
      iapply (pointsTo_read_all (Pipeline.ucRefs τ sig) (fun b => (((c : Thread nD τ)).1, b)) (W13 m h0 h1 h2 h3 h4 c) s')
      isplitl [Hh] <;> iassumption)
    (hQ := fun s h c => h c)

end Cert.KernelIdeal.Hand

end
-- ==== Proof.KI.Keep.lean ====
/-
  What passes through the chain unchanged. A host stretch changes only the buffers its operations write; a region
  changes only its output windows' arrays (an input window's array is left as it was entered, any other buffer is not
  touched). So every argument array holds its launch contents at every boundary, and a buffer written once holds that
  value until the chain ends.
-/
import proofs.«175313_j15590731285054_1_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F] [Named F]
variable (m : (ℓ : Loc nD τ sig) → Buf (Elt F) ℓ)
variable (h0 : Half0 (F := F)) (h1 : Half1 (F := F)) (h2 : Half2 (F := F)) (h3 : Half3 (F := F)) (h4 : Half4 (F := F))

/-! ## One step -/

/-- A buffer `hostOps0` does not write is left as it was. -/
theorem W1_of (c : Dev nD) (r : Ref sig .tc) (h : r ∉ hostOps0_W) :
    W1 m c (Proc.devRef .tc r) = W0 m c (Proc.devRef .tc r) := by
  unfold W1; exact StableHlo.after_of_writes_sub hostOps0 _ hostOps0_writes h

/-- A buffer `hostOps0_1` does not write is left as it was. -/
theorem W2_of (c : Dev nD) (r : Ref sig .tc) (h : r ∉ hostOps0_1_W) :
    W2 m c (Proc.devRef .tc r) = W1 m c (Proc.devRef .tc r) := by
  unfold W2; exact StableHlo.after_of_writes_sub hostOps0_1 _ hostOps0_1_writes h

/-- A buffer `hostOps0_2` does not write is left as it was. -/
theorem W3_of (c : Dev nD) (r : Ref sig .tc) (h : r ∉ hostOps0_2_W) :
    W3 m c (Proc.devRef .tc r) = W2 m c (Proc.devRef .tc r) := by
  unfold W3; exact StableHlo.after_of_writes_sub hostOps0_2 _ hostOps0_2_writes h

/-- A buffer `hostOps0_3` does not write is left as it was. -/
theorem W4_of (c : Dev nD) (r : Ref sig .tc) (h : r ∉ hostOps0_3_W) :
    W4 m c (Proc.devRef .tc r) = W3 m c (Proc.devRef .tc r) := by
  unfold W4; exact StableHlo.after_of_writes_sub hostOps0_3 _ hostOps0_3_writes h

/-- A buffer `hostOps0_4` does not write is left as it was. -/
theorem W5_of (c : Dev nD) (r : Ref sig .tc) (h : r ∉ hostOps0_4_W) :
    W5 m c (Proc.devRef .tc r) = W4 m c (Proc.devRef .tc r) := by
  unfold W5; exact StableHlo.after_of_writes_sub hostOps0_4 _ hostOps0_4_writes h

/-- Region 0 leaves an input window's array as it was entered. -/
theorem W6_in (c : Dev nD) (w : Fin cfg0.W) (hw : (cfg0.win w).isOut = false) :
    W6 m h0 c (Proc.devRef .tc (Pipeline.arrRef spec0 w)) = W5 m c (Proc.devRef .tc (Pipeline.arrRef spec0 w)) := by
  rw [W6_arr, (h0.D (Vr5 m) c).arrAt_in w hw, h0.hA]; rfl

/-- A buffer `hostOps1` does not write is left as it was. -/
theorem W7_of (c : Dev nD) (r : Ref sig .tc) (h : r ∉ hostOps1_W) :
    W7 m h0 c (Proc.devRef .tc r) = W6 m h0 c (Proc.devRef .tc r) := by
  unfold W7; exact StableHlo.after_of_writes_sub hostOps1 _ hostOps1_writes h

/-- Region 1 leaves an input window's array as it was entered. -/
theorem W8_in (c : Dev nD) (w : Fin cfg1.W) (hw : (cfg1.win w).isOut = false) :
    W8 m h0 h1 c (Proc.devRef .tc (Pipeline.arrRef spec1 w)) = W7 m h0 c (Proc.devRef .tc (Pipeline.arrRef spec1 w)) := by
  rw [W8_arr, (h1.D (Vr7 m h0) c).arrAt_in w hw, h1.hA]; rfl

/-- A buffer `hostOps2` does not write is left as it was. -/
theorem W9_of (c : Dev nD) (r : Ref sig .tc) (h : r ∉ hostOps2_W) :
    W9 m h0 h1 c (Proc.devRef .tc r) = W8 m h0 h1 c (Proc.devRef .tc r) := by
  unfold W9; exact StableHlo.after_of_writes_sub hostOps2 _ hostOps2_writes h

/-- Region 2 leaves an input window's array as it was entered. -/
theorem W10_in (c : Dev nD) (w : Fin cfg2.W) (hw : (cfg2.win w).isOut = false) :
    W10 m h0 h1 h2 c (Proc.devRef .tc (Pipeline.arrRef spec2 w)) = W9 m h0 h1 c (Proc.devRef .tc (Pipeline.arrRef spec2 w)) := by
  rw [W10_arr, (h2.D (Vr9 m h0 h1) c).arrAt_in w hw, h2.hA]; rfl

/-- A buffer `hostOps3` does not write is left as it was. -/
theorem W11_of (c : Dev nD) (r : Ref sig .tc) (h : r ∉ hostOps3_W) :
    W11 m h0 h1 h2 c (Proc.devRef .tc r) = W10 m h0 h1 h2 c (Proc.devRef .tc r) := by
  unfold W11; exact StableHlo.after_of_writes_sub hostOps3 _ hostOps3_writes h

/-- Region 3 leaves an input window's array as it was entered. -/
theorem W12_in (c : Dev nD) (w : Fin cfg3.W) (hw : (cfg3.win w).isOut = false) :
    W12 m h0 h1 h2 h3 c (Proc.devRef .tc (Pipeline.arrRef spec3 w)) = W11 m h0 h1 h2 c (Proc.devRef .tc (Pipeline.arrRef spec3 w)) := by
  rw [W12_arr, (h3.D (Vr11 m h0 h1 h2) c).arrAt_in w hw, h3.hA]; rfl

/-- Region 4 leaves an input window's array as it was entered. -/
theorem W13_in (c : Dev nD) (w : Fin cfg4.W) (hw : (cfg4.win w).isOut = false) :
    W13 m h0 h1 h2 h3 h4 c (Proc.devRef .tc (Pipeline.arrRef spec4 w)) = W12 m h0 h1 h2 h3 c (Proc.devRef .tc (Pipeline.arrRef spec4 w)) := by
  rw [W13_arr, (h4.D (Vr12 m h0 h1 h2 h3) c).arrAt_in w hw, h4.hA]; rfl

/-! ## The argument arrays hold their launch contents at every boundary -/
theorem W1_arg0 (c : Dev nD) : W1 m c (Proc.devRef .tc main_arg0) = m ((c : Thread nD τ).loc main_arg0) :=
  (W1_of m c main_arg0 (by decide)).trans rfl
theorem W2_arg0 (c : Dev nD) : W2 m c (Proc.devRef .tc main_arg0) = m ((c : Thread nD τ).loc main_arg0) :=
  (W2_of m c main_arg0 (by decide)).trans (W1_arg0 m c)
theorem W3_arg0 (c : Dev nD) : W3 m c (Proc.devRef .tc main_arg0) = m ((c : Thread nD τ).loc main_arg0) :=
  (W3_of m c main_arg0 (by decide)).trans (W2_arg0 m c)
theorem W4_arg0 (c : Dev nD) : W4 m c (Proc.devRef .tc main_arg0) = m ((c : Thread nD τ).loc main_arg0) :=
  (W4_of m c main_arg0 (by decide)).trans (W3_arg0 m c)
theorem W5_arg0 (c : Dev nD) : W5 m c (Proc.devRef .tc main_arg0) = m ((c : Thread nD τ).loc main_arg0) :=
  (W5_of m c main_arg0 (by decide)).trans (W4_arg0 m c)
theorem W6_arg0 (c : Dev nD) : W6 m h0 c (Proc.devRef .tc main_arg0) = m ((c : Thread nD τ).loc main_arg0) :=
  (W6_in m h0 c 0 rfl).trans (W5_arg0 m c)
theorem W7_arg0 (c : Dev nD) : W7 m h0 c (Proc.devRef .tc main_arg0) = m ((c : Thread nD τ).loc main_arg0) :=
  (W7_of m h0 c main_arg0 (by decide)).trans (W6_arg0 m h0 c)
theorem W8_arg0 (c : Dev nD) : W8 m h0 h1 c (Proc.devRef .tc main_arg0) = m ((c : Thread nD τ).loc main_arg0) :=
  (W8_of_ne m h0 h1 c main_arg0 (by decide)).trans (W7_arg0 m h0 c)
theorem W9_arg0 (c : Dev nD) : W9 m h0 h1 c (Proc.devRef .tc main_arg0) = m ((c : Thread nD τ).loc main_arg0) :=
  (W9_of m h0 h1 c main_arg0 (by decide)).trans (W8_arg0 m h0 h1 c)
theorem W10_arg0 (c : Dev nD) : W10 m h0 h1 h2 c (Proc.devRef .tc main_arg0) = m ((c : Thread nD τ).loc main_arg0) :=
  (W10_of_ne m h0 h1 h2 c main_arg0 (by decide)).trans (W9_arg0 m h0 h1 c)
theorem W11_arg0 (c : Dev nD) : W11 m h0 h1 h2 c (Proc.devRef .tc main_arg0) = m ((c : Thread nD τ).loc main_arg0) :=
  (W11_of m h0 h1 h2 c main_arg0 (by decide)).trans (W10_arg0 m h0 h1 h2 c)
theorem W12_arg0 (c : Dev nD) : W12 m h0 h1 h2 h3 c (Proc.devRef .tc main_arg0) = m ((c : Thread nD τ).loc main_arg0) :=
  (W12_of_ne m h0 h1 h2 h3 c main_arg0 (by decide)).trans (W11_arg0 m h0 h1 h2 c)
theorem W13_arg0 (c : Dev nD) : W13 m h0 h1 h2 h3 h4 c (Proc.devRef .tc main_arg0) = m ((c : Thread nD τ).loc main_arg0) :=
  (W13_of_ne m h0 h1 h2 h3 h4 c main_arg0 (by decide)).trans (W12_arg0 m h0 h1 h2 h3 c)
theorem W1_arg1 (c : Dev nD) : W1 m c (Proc.devRef .tc main_arg1) = m ((c : Thread nD τ).loc main_arg1) :=
  (W1_of m c main_arg1 (by decide)).trans rfl
theorem W2_arg1 (c : Dev nD) : W2 m c (Proc.devRef .tc main_arg1) = m ((c : Thread nD τ).loc main_arg1) :=
  (W2_of m c main_arg1 (by decide)).trans (W1_arg1 m c)
theorem W3_arg1 (c : Dev nD) : W3 m c (Proc.devRef .tc main_arg1) = m ((c : Thread nD τ).loc main_arg1) :=
  (W3_of m c main_arg1 (by decide)).trans (W2_arg1 m c)
theorem W4_arg1 (c : Dev nD) : W4 m c (Proc.devRef .tc main_arg1) = m ((c : Thread nD τ).loc main_arg1) :=
  (W4_of m c main_arg1 (by decide)).trans (W3_arg1 m c)
theorem W5_arg1 (c : Dev nD) : W5 m c (Proc.devRef .tc main_arg1) = m ((c : Thread nD τ).loc main_arg1) :=
  (W5_of m c main_arg1 (by decide)).trans (W4_arg1 m c)
theorem W6_arg1 (c : Dev nD) : W6 m h0 c (Proc.devRef .tc main_arg1) = m ((c : Thread nD τ).loc main_arg1) :=
  (W6_of_ne m h0 c main_arg1 (by decide)).trans (W5_arg1 m c)
theorem W7_arg1 (c : Dev nD) : W7 m h0 c (Proc.devRef .tc main_arg1) = m ((c : Thread nD τ).loc main_arg1) :=
  (W7_of m h0 c main_arg1 (by decide)).trans (W6_arg1 m h0 c)
theorem W8_arg1 (c : Dev nD) : W8 m h0 h1 c (Proc.devRef .tc main_arg1) = m ((c : Thread nD τ).loc main_arg1) :=
  (W8_of_ne m h0 h1 c main_arg1 (by decide)).trans (W7_arg1 m h0 c)
theorem W9_arg1 (c : Dev nD) : W9 m h0 h1 c (Proc.devRef .tc main_arg1) = m ((c : Thread nD τ).loc main_arg1) :=
  (W9_of m h0 h1 c main_arg1 (by decide)).trans (W8_arg1 m h0 h1 c)
theorem W10_arg1 (c : Dev nD) : W10 m h0 h1 h2 c (Proc.devRef .tc main_arg1) = m ((c : Thread nD τ).loc main_arg1) :=
  (W10_of_ne m h0 h1 h2 c main_arg1 (by decide)).trans (W9_arg1 m h0 h1 c)
theorem W11_arg1 (c : Dev nD) : W11 m h0 h1 h2 c (Proc.devRef .tc main_arg1) = m ((c : Thread nD τ).loc main_arg1) :=
  (W11_of m h0 h1 h2 c main_arg1 (by decide)).trans (W10_arg1 m h0 h1 h2 c)
theorem W12_arg1 (c : Dev nD) : W12 m h0 h1 h2 h3 c (Proc.devRef .tc main_arg1) = m ((c : Thread nD τ).loc main_arg1) :=
  (W12_of_ne m h0 h1 h2 h3 c main_arg1 (by decide)).trans (W11_arg1 m h0 h1 h2 c)
theorem W13_arg1 (c : Dev nD) : W13 m h0 h1 h2 h3 h4 c (Proc.devRef .tc main_arg1) = m ((c : Thread nD τ).loc main_arg1) :=
  (W13_of_ne m h0 h1 h2 h3 h4 c main_arg1 (by decide)).trans (W12_arg1 m h0 h1 h2 h3 c)
theorem W1_arg2 (c : Dev nD) : W1 m c (Proc.devRef .tc main_arg2) = m ((c : Thread nD τ).loc main_arg2) :=
  (W1_of m c main_arg2 (by decide)).trans rfl
theorem W2_arg2 (c : Dev nD) : W2 m c (Proc.devRef .tc main_arg2) = m ((c : Thread nD τ).loc main_arg2) :=
  (W2_of m c main_arg2 (by decide)).trans (W1_arg2 m c)
theorem W3_arg2 (c : Dev nD) : W3 m c (Proc.devRef .tc main_arg2) = m ((c : Thread nD τ).loc main_arg2) :=
  (W3_of m c main_arg2 (by decide)).trans (W2_arg2 m c)
theorem W4_arg2 (c : Dev nD) : W4 m c (Proc.devRef .tc main_arg2) = m ((c : Thread nD τ).loc main_arg2) :=
  (W4_of m c main_arg2 (by decide)).trans (W3_arg2 m c)
theorem W5_arg2 (c : Dev nD) : W5 m c (Proc.devRef .tc main_arg2) = m ((c : Thread nD τ).loc main_arg2) :=
  (W5_of m c main_arg2 (by decide)).trans (W4_arg2 m c)
theorem W6_arg2 (c : Dev nD) : W6 m h0 c (Proc.devRef .tc main_arg2) = m ((c : Thread nD τ).loc main_arg2) :=
  (W6_of_ne m h0 c main_arg2 (by decide)).trans (W5_arg2 m c)
theorem W7_arg2 (c : Dev nD) : W7 m h0 c (Proc.devRef .tc main_arg2) = m ((c : Thread nD τ).loc main_arg2) :=
  (W7_of m h0 c main_arg2 (by decide)).trans (W6_arg2 m h0 c)
theorem W8_arg2 (c : Dev nD) : W8 m h0 h1 c (Proc.devRef .tc main_arg2) = m ((c : Thread nD τ).loc main_arg2) :=
  (W8_of_ne m h0 h1 c main_arg2 (by decide)).trans (W7_arg2 m h0 c)
theorem W9_arg2 (c : Dev nD) : W9 m h0 h1 c (Proc.devRef .tc main_arg2) = m ((c : Thread nD τ).loc main_arg2) :=
  (W9_of m h0 h1 c main_arg2 (by decide)).trans (W8_arg2 m h0 h1 c)
theorem W10_arg2 (c : Dev nD) : W10 m h0 h1 h2 c (Proc.devRef .tc main_arg2) = m ((c : Thread nD τ).loc main_arg2) :=
  (W10_of_ne m h0 h1 h2 c main_arg2 (by decide)).trans (W9_arg2 m h0 h1 c)
theorem W11_arg2 (c : Dev nD) : W11 m h0 h1 h2 c (Proc.devRef .tc main_arg2) = m ((c : Thread nD τ).loc main_arg2) :=
  (W11_of m h0 h1 h2 c main_arg2 (by decide)).trans (W10_arg2 m h0 h1 h2 c)
theorem W12_arg2 (c : Dev nD) : W12 m h0 h1 h2 h3 c (Proc.devRef .tc main_arg2) = m ((c : Thread nD τ).loc main_arg2) :=
  (W12_of_ne m h0 h1 h2 h3 c main_arg2 (by decide)).trans (W11_arg2 m h0 h1 h2 c)
theorem W13_arg2 (c : Dev nD) : W13 m h0 h1 h2 h3 h4 c (Proc.devRef .tc main_arg2) = m ((c : Thread nD τ).loc main_arg2) :=
  (W13_of_ne m h0 h1 h2 h3 h4 c main_arg2 (by decide)).trans (W12_arg2 m h0 h1 h2 h3 c)
theorem W1_arg3 (c : Dev nD) : W1 m c (Proc.devRef .tc main_arg3) = m ((c : Thread nD τ).loc main_arg3) :=
  (W1_of m c main_arg3 (by decide)).trans rfl
theorem W2_arg3 (c : Dev nD) : W2 m c (Proc.devRef .tc main_arg3) = m ((c : Thread nD τ).loc main_arg3) :=
  (W2_of m c main_arg3 (by decide)).trans (W1_arg3 m c)
theorem W3_arg3 (c : Dev nD) : W3 m c (Proc.devRef .tc main_arg3) = m ((c : Thread nD τ).loc main_arg3) :=
  (W3_of m c main_arg3 (by decide)).trans (W2_arg3 m c)
theorem W4_arg3 (c : Dev nD) : W4 m c (Proc.devRef .tc main_arg3) = m ((c : Thread nD τ).loc main_arg3) :=
  (W4_of m c main_arg3 (by decide)).trans (W3_arg3 m c)
theorem W5_arg3 (c : Dev nD) : W5 m c (Proc.devRef .tc main_arg3) = m ((c : Thread nD τ).loc main_arg3) :=
  (W5_of m c main_arg3 (by decide)).trans (W4_arg3 m c)
theorem W6_arg3 (c : Dev nD) : W6 m h0 c (Proc.devRef .tc main_arg3) = m ((c : Thread nD τ).loc main_arg3) :=
  (W6_of_ne m h0 c main_arg3 (by decide)).trans (W5_arg3 m c)
theorem W7_arg3 (c : Dev nD) : W7 m h0 c (Proc.devRef .tc main_arg3) = m ((c : Thread nD τ).loc main_arg3) :=
  (W7_of m h0 c main_arg3 (by decide)).trans (W6_arg3 m h0 c)
theorem W8_arg3 (c : Dev nD) : W8 m h0 h1 c (Proc.devRef .tc main_arg3) = m ((c : Thread nD τ).loc main_arg3) :=
  (W8_in m h0 h1 c 3 rfl).trans (W7_arg3 m h0 c)
theorem W9_arg3 (c : Dev nD) : W9 m h0 h1 c (Proc.devRef .tc main_arg3) = m ((c : Thread nD τ).loc main_arg3) :=
  (W9_of m h0 h1 c main_arg3 (by decide)).trans (W8_arg3 m h0 h1 c)
theorem W10_arg3 (c : Dev nD) : W10 m h0 h1 h2 c (Proc.devRef .tc main_arg3) = m ((c : Thread nD τ).loc main_arg3) :=
  (W10_of_ne m h0 h1 h2 c main_arg3 (by decide)).trans (W9_arg3 m h0 h1 c)
theorem W11_arg3 (c : Dev nD) : W11 m h0 h1 h2 c (Proc.devRef .tc main_arg3) = m ((c : Thread nD τ).loc main_arg3) :=
  (W11_of m h0 h1 h2 c main_arg3 (by decide)).trans (W10_arg3 m h0 h1 h2 c)
theorem W12_arg3 (c : Dev nD) : W12 m h0 h1 h2 h3 c (Proc.devRef .tc main_arg3) = m ((c : Thread nD τ).loc main_arg3) :=
  (W12_of_ne m h0 h1 h2 h3 c main_arg3 (by decide)).trans (W11_arg3 m h0 h1 h2 c)
theorem W13_arg3 (c : Dev nD) : W13 m h0 h1 h2 h3 h4 c (Proc.devRef .tc main_arg3) = m ((c : Thread nD τ).loc main_arg3) :=
  (W13_of_ne m h0 h1 h2 h3 h4 c main_arg3 (by decide)).trans (W12_arg3 m h0 h1 h2 h3 c)
theorem W1_arg4 (c : Dev nD) : W1 m c (Proc.devRef .tc main_arg4) = m ((c : Thread nD τ).loc main_arg4) :=
  (W1_of m c main_arg4 (by decide)).trans rfl
theorem W2_arg4 (c : Dev nD) : W2 m c (Proc.devRef .tc main_arg4) = m ((c : Thread nD τ).loc main_arg4) :=
  (W2_of m c main_arg4 (by decide)).trans (W1_arg4 m c)
theorem W3_arg4 (c : Dev nD) : W3 m c (Proc.devRef .tc main_arg4) = m ((c : Thread nD τ).loc main_arg4) :=
  (W3_of m c main_arg4 (by decide)).trans (W2_arg4 m c)
theorem W4_arg4 (c : Dev nD) : W4 m c (Proc.devRef .tc main_arg4) = m ((c : Thread nD τ).loc main_arg4) :=
  (W4_of m c main_arg4 (by decide)).trans (W3_arg4 m c)
theorem W5_arg4 (c : Dev nD) : W5 m c (Proc.devRef .tc main_arg4) = m ((c : Thread nD τ).loc main_arg4) :=
  (W5_of m c main_arg4 (by decide)).trans (W4_arg4 m c)
theorem W6_arg4 (c : Dev nD) : W6 m h0 c (Proc.devRef .tc main_arg4) = m ((c : Thread nD τ).loc main_arg4) :=
  (W6_of_ne m h0 c main_arg4 (by decide)).trans (W5_arg4 m c)
theorem W7_arg4 (c : Dev nD) : W7 m h0 c (Proc.devRef .tc main_arg4) = m ((c : Thread nD τ).loc main_arg4) :=
  (W7_of m h0 c main_arg4 (by decide)).trans (W6_arg4 m h0 c)
theorem W8_arg4 (c : Dev nD) : W8 m h0 h1 c (Proc.devRef .tc main_arg4) = m ((c : Thread nD τ).loc main_arg4) :=
  (W8_of_ne m h0 h1 c main_arg4 (by decide)).trans (W7_arg4 m h0 c)
theorem W9_arg4 (c : Dev nD) : W9 m h0 h1 c (Proc.devRef .tc main_arg4) = m ((c : Thread nD τ).loc main_arg4) :=
  (W9_of m h0 h1 c main_arg4 (by decide)).trans (W8_arg4 m h0 h1 c)
theorem W10_arg4 (c : Dev nD) : W10 m h0 h1 h2 c (Proc.devRef .tc main_arg4) = m ((c : Thread nD τ).loc main_arg4) :=
  (W10_of_ne m h0 h1 h2 c main_arg4 (by decide)).trans (W9_arg4 m h0 h1 c)
theorem W11_arg4 (c : Dev nD) : W11 m h0 h1 h2 c (Proc.devRef .tc main_arg4) = m ((c : Thread nD τ).loc main_arg4) :=
  (W11_of m h0 h1 h2 c main_arg4 (by decide)).trans (W10_arg4 m h0 h1 h2 c)
theorem W12_arg4 (c : Dev nD) : W12 m h0 h1 h2 h3 c (Proc.devRef .tc main_arg4) = m ((c : Thread nD τ).loc main_arg4) :=
  (W12_of_ne m h0 h1 h2 h3 c main_arg4 (by decide)).trans (W11_arg4 m h0 h1 h2 c)
theorem W13_arg4 (c : Dev nD) : W13 m h0 h1 h2 h3 h4 c (Proc.devRef .tc main_arg4) = m ((c : Thread nD τ).loc main_arg4) :=
  (W13_of_ne m h0 h1 h2 h3 h4 c main_arg4 (by decide)).trans (W12_arg4 m h0 h1 h2 h3 c)
theorem W1_arg5 (c : Dev nD) : W1 m c (Proc.devRef .tc main_arg5) = m ((c : Thread nD τ).loc main_arg5) :=
  (W1_of m c main_arg5 (by decide)).trans rfl
theorem W2_arg5 (c : Dev nD) : W2 m c (Proc.devRef .tc main_arg5) = m ((c : Thread nD τ).loc main_arg5) :=
  (W2_of m c main_arg5 (by decide)).trans (W1_arg5 m c)
theorem W3_arg5 (c : Dev nD) : W3 m c (Proc.devRef .tc main_arg5) = m ((c : Thread nD τ).loc main_arg5) :=
  (W3_of m c main_arg5 (by decide)).trans (W2_arg5 m c)
theorem W4_arg5 (c : Dev nD) : W4 m c (Proc.devRef .tc main_arg5) = m ((c : Thread nD τ).loc main_arg5) :=
  (W4_of m c main_arg5 (by decide)).trans (W3_arg5 m c)
theorem W5_arg5 (c : Dev nD) : W5 m c (Proc.devRef .tc main_arg5) = m ((c : Thread nD τ).loc main_arg5) :=
  (W5_of m c main_arg5 (by decide)).trans (W4_arg5 m c)
theorem W6_arg5 (c : Dev nD) : W6 m h0 c (Proc.devRef .tc main_arg5) = m ((c : Thread nD τ).loc main_arg5) :=
  (W6_of_ne m h0 c main_arg5 (by decide)).trans (W5_arg5 m c)
theorem W7_arg5 (c : Dev nD) : W7 m h0 c (Proc.devRef .tc main_arg5) = m ((c : Thread nD τ).loc main_arg5) :=
  (W7_of m h0 c main_arg5 (by decide)).trans (W6_arg5 m h0 c)
theorem W8_arg5 (c : Dev nD) : W8 m h0 h1 c (Proc.devRef .tc main_arg5) = m ((c : Thread nD τ).loc main_arg5) :=
  (W8_of_ne m h0 h1 c main_arg5 (by decide)).trans (W7_arg5 m h0 c)
theorem W9_arg5 (c : Dev nD) : W9 m h0 h1 c (Proc.devRef .tc main_arg5) = m ((c : Thread nD τ).loc main_arg5) :=
  (W9_of m h0 h1 c main_arg5 (by decide)).trans (W8_arg5 m h0 h1 c)
theorem W10_arg5 (c : Dev nD) : W10 m h0 h1 h2 c (Proc.devRef .tc main_arg5) = m ((c : Thread nD τ).loc main_arg5) :=
  (W10_in m h0 h1 h2 c 3 rfl).trans (W9_arg5 m h0 h1 c)
theorem W11_arg5 (c : Dev nD) : W11 m h0 h1 h2 c (Proc.devRef .tc main_arg5) = m ((c : Thread nD τ).loc main_arg5) :=
  (W11_of m h0 h1 h2 c main_arg5 (by decide)).trans (W10_arg5 m h0 h1 h2 c)
theorem W12_arg5 (c : Dev nD) : W12 m h0 h1 h2 h3 c (Proc.devRef .tc main_arg5) = m ((c : Thread nD τ).loc main_arg5) :=
  (W12_of_ne m h0 h1 h2 h3 c main_arg5 (by decide)).trans (W11_arg5 m h0 h1 h2 c)
theorem W13_arg5 (c : Dev nD) : W13 m h0 h1 h2 h3 h4 c (Proc.devRef .tc main_arg5) = m ((c : Thread nD τ).loc main_arg5) :=
  (W13_of_ne m h0 h1 h2 h3 h4 c main_arg5 (by decide)).trans (W12_arg5 m h0 h1 h2 h3 c)
theorem W1_arg6 (c : Dev nD) : W1 m c (Proc.devRef .tc main_arg6) = m ((c : Thread nD τ).loc main_arg6) :=
  (W1_of m c main_arg6 (by decide)).trans rfl
theorem W2_arg6 (c : Dev nD) : W2 m c (Proc.devRef .tc main_arg6) = m ((c : Thread nD τ).loc main_arg6) :=
  (W2_of m c main_arg6 (by decide)).trans (W1_arg6 m c)
theorem W3_arg6 (c : Dev nD) : W3 m c (Proc.devRef .tc main_arg6) = m ((c : Thread nD τ).loc main_arg6) :=
  (W3_of m c main_arg6 (by decide)).trans (W2_arg6 m c)
theorem W4_arg6 (c : Dev nD) : W4 m c (Proc.devRef .tc main_arg6) = m ((c : Thread nD τ).loc main_arg6) :=
  (W4_of m c main_arg6 (by decide)).trans (W3_arg6 m c)
theorem W5_arg6 (c : Dev nD) : W5 m c (Proc.devRef .tc main_arg6) = m ((c : Thread nD τ).loc main_arg6) :=
  (W5_of m c main_arg6 (by decide)).trans (W4_arg6 m c)
theorem W6_arg6 (c : Dev nD) : W6 m h0 c (Proc.devRef .tc main_arg6) = m ((c : Thread nD τ).loc main_arg6) :=
  (W6_of_ne m h0 c main_arg6 (by decide)).trans (W5_arg6 m c)
theorem W7_arg6 (c : Dev nD) : W7 m h0 c (Proc.devRef .tc main_arg6) = m ((c : Thread nD τ).loc main_arg6) :=
  (W7_of m h0 c main_arg6 (by decide)).trans (W6_arg6 m h0 c)
theorem W8_arg6 (c : Dev nD) : W8 m h0 h1 c (Proc.devRef .tc main_arg6) = m ((c : Thread nD τ).loc main_arg6) :=
  (W8_of_ne m h0 h1 c main_arg6 (by decide)).trans (W7_arg6 m h0 c)
theorem W9_arg6 (c : Dev nD) : W9 m h0 h1 c (Proc.devRef .tc main_arg6) = m ((c : Thread nD τ).loc main_arg6) :=
  (W9_of m h0 h1 c main_arg6 (by decide)).trans (W8_arg6 m h0 h1 c)
theorem W10_arg6 (c : Dev nD) : W10 m h0 h1 h2 c (Proc.devRef .tc main_arg6) = m ((c : Thread nD τ).loc main_arg6) :=
  (W10_of_ne m h0 h1 h2 c main_arg6 (by decide)).trans (W9_arg6 m h0 h1 c)
theorem W11_arg6 (c : Dev nD) : W11 m h0 h1 h2 c (Proc.devRef .tc main_arg6) = m ((c : Thread nD τ).loc main_arg6) :=
  (W11_of m h0 h1 h2 c main_arg6 (by decide)).trans (W10_arg6 m h0 h1 h2 c)
theorem W12_arg6 (c : Dev nD) : W12 m h0 h1 h2 h3 c (Proc.devRef .tc main_arg6) = m ((c : Thread nD τ).loc main_arg6) :=
  (W12_of_ne m h0 h1 h2 h3 c main_arg6 (by decide)).trans (W11_arg6 m h0 h1 h2 c)
theorem W13_arg6 (c : Dev nD) : W13 m h0 h1 h2 h3 h4 c (Proc.devRef .tc main_arg6) = m ((c : Thread nD τ).loc main_arg6) :=
  (W13_of_ne m h0 h1 h2 h3 h4 c main_arg6 (by decide)).trans (W12_arg6 m h0 h1 h2 h3 c)
theorem W1_arg7 (c : Dev nD) : W1 m c (Proc.devRef .tc main_arg7) = m ((c : Thread nD τ).loc main_arg7) :=
  (W1_of m c main_arg7 (by decide)).trans rfl
theorem W2_arg7 (c : Dev nD) : W2 m c (Proc.devRef .tc main_arg7) = m ((c : Thread nD τ).loc main_arg7) :=
  (W2_of m c main_arg7 (by decide)).trans (W1_arg7 m c)
theorem W3_arg7 (c : Dev nD) : W3 m c (Proc.devRef .tc main_arg7) = m ((c : Thread nD τ).loc main_arg7) :=
  (W3_of m c main_arg7 (by decide)).trans (W2_arg7 m c)
theorem W4_arg7 (c : Dev nD) : W4 m c (Proc.devRef .tc main_arg7) = m ((c : Thread nD τ).loc main_arg7) :=
  (W4_of m c main_arg7 (by decide)).trans (W3_arg7 m c)
theorem W5_arg7 (c : Dev nD) : W5 m c (Proc.devRef .tc main_arg7) = m ((c : Thread nD τ).loc main_arg7) :=
  (W5_of m c main_arg7 (by decide)).trans (W4_arg7 m c)
theorem W6_arg7 (c : Dev nD) : W6 m h0 c (Proc.devRef .tc main_arg7) = m ((c : Thread nD τ).loc main_arg7) :=
  (W6_of_ne m h0 c main_arg7 (by decide)).trans (W5_arg7 m c)
theorem W7_arg7 (c : Dev nD) : W7 m h0 c (Proc.devRef .tc main_arg7) = m ((c : Thread nD τ).loc main_arg7) :=
  (W7_of m h0 c main_arg7 (by decide)).trans (W6_arg7 m h0 c)
theorem W8_arg7 (c : Dev nD) : W8 m h0 h1 c (Proc.devRef .tc main_arg7) = m ((c : Thread nD τ).loc main_arg7) :=
  (W8_of_ne m h0 h1 c main_arg7 (by decide)).trans (W7_arg7 m h0 c)
theorem W9_arg7 (c : Dev nD) : W9 m h0 h1 c (Proc.devRef .tc main_arg7) = m ((c : Thread nD τ).loc main_arg7) :=
  (W9_of m h0 h1 c main_arg7 (by decide)).trans (W8_arg7 m h0 h1 c)
theorem W10_arg7 (c : Dev nD) : W10 m h0 h1 h2 c (Proc.devRef .tc main_arg7) = m ((c : Thread nD τ).loc main_arg7) :=
  (W10_of_ne m h0 h1 h2 c main_arg7 (by decide)).trans (W9_arg7 m h0 h1 c)
theorem W11_arg7 (c : Dev nD) : W11 m h0 h1 h2 c (Proc.devRef .tc main_arg7) = m ((c : Thread nD τ).loc main_arg7) :=
  (W11_of m h0 h1 h2 c main_arg7 (by decide)).trans (W10_arg7 m h0 h1 h2 c)
theorem W12_arg7 (c : Dev nD) : W12 m h0 h1 h2 h3 c (Proc.devRef .tc main_arg7) = m ((c : Thread nD τ).loc main_arg7) :=
  (W12_in m h0 h1 h2 h3 c 3 rfl).trans (W11_arg7 m h0 h1 h2 c)
theorem W13_arg7 (c : Dev nD) : W13 m h0 h1 h2 h3 h4 c (Proc.devRef .tc main_arg7) = m ((c : Thread nD τ).loc main_arg7) :=
  (W13_of_ne m h0 h1 h2 h3 h4 c main_arg7 (by decide)).trans (W12_arg7 m h0 h1 h2 h3 c)
theorem W1_arg8 (c : Dev nD) : W1 m c (Proc.devRef .tc main_arg8) = m ((c : Thread nD τ).loc main_arg8) :=
  (W1_of m c main_arg8 (by decide)).trans rfl
theorem W2_arg8 (c : Dev nD) : W2 m c (Proc.devRef .tc main_arg8) = m ((c : Thread nD τ).loc main_arg8) :=
  (W2_of m c main_arg8 (by decide)).trans (W1_arg8 m c)
theorem W3_arg8 (c : Dev nD) : W3 m c (Proc.devRef .tc main_arg8) = m ((c : Thread nD τ).loc main_arg8) :=
  (W3_of m c main_arg8 (by decide)).trans (W2_arg8 m c)
theorem W4_arg8 (c : Dev nD) : W4 m c (Proc.devRef .tc main_arg8) = m ((c : Thread nD τ).loc main_arg8) :=
  (W4_of m c main_arg8 (by decide)).trans (W3_arg8 m c)
theorem W5_arg8 (c : Dev nD) : W5 m c (Proc.devRef .tc main_arg8) = m ((c : Thread nD τ).loc main_arg8) :=
  (W5_of m c main_arg8 (by decide)).trans (W4_arg8 m c)
theorem W6_arg8 (c : Dev nD) : W6 m h0 c (Proc.devRef .tc main_arg8) = m ((c : Thread nD τ).loc main_arg8) :=
  (W6_of_ne m h0 c main_arg8 (by decide)).trans (W5_arg8 m c)
theorem W7_arg8 (c : Dev nD) : W7 m h0 c (Proc.devRef .tc main_arg8) = m ((c : Thread nD τ).loc main_arg8) :=
  (W7_of m h0 c main_arg8 (by decide)).trans (W6_arg8 m h0 c)
theorem W8_arg8 (c : Dev nD) : W8 m h0 h1 c (Proc.devRef .tc main_arg8) = m ((c : Thread nD τ).loc main_arg8) :=
  (W8_of_ne m h0 h1 c main_arg8 (by decide)).trans (W7_arg8 m h0 c)
theorem W9_arg8 (c : Dev nD) : W9 m h0 h1 c (Proc.devRef .tc main_arg8) = m ((c : Thread nD τ).loc main_arg8) :=
  (W9_of m h0 h1 c main_arg8 (by decide)).trans (W8_arg8 m h0 h1 c)
theorem W10_arg8 (c : Dev nD) : W10 m h0 h1 h2 c (Proc.devRef .tc main_arg8) = m ((c : Thread nD τ).loc main_arg8) :=
  (W10_of_ne m h0 h1 h2 c main_arg8 (by decide)).trans (W9_arg8 m h0 h1 c)
theorem W11_arg8 (c : Dev nD) : W11 m h0 h1 h2 c (Proc.devRef .tc main_arg8) = m ((c : Thread nD τ).loc main_arg8) :=
  (W11_of m h0 h1 h2 c main_arg8 (by decide)).trans (W10_arg8 m h0 h1 h2 c)
theorem W12_arg8 (c : Dev nD) : W12 m h0 h1 h2 h3 c (Proc.devRef .tc main_arg8) = m ((c : Thread nD τ).loc main_arg8) :=
  (W12_of_ne m h0 h1 h2 h3 c main_arg8 (by decide)).trans (W11_arg8 m h0 h1 h2 c)
theorem W13_arg8 (c : Dev nD) : W13 m h0 h1 h2 h3 h4 c (Proc.devRef .tc main_arg8) = m ((c : Thread nD τ).loc main_arg8) :=
  (W13_of_ne m h0 h1 h2 h3 h4 c main_arg8 (by decide)).trans (W12_arg8 m h0 h1 h2 h3 c)

/-! ## The two norm columns hold what the fifth stretch wrote -/
theorem W6_v13 (c : Dev nD) : W6 m h0 c (Proc.devRef .tc main_v13) = W5 m c (Proc.devRef .tc main_v13) :=
  (W6_in m h0 c 1 rfl).trans rfl
theorem W7_v13 (c : Dev nD) : W7 m h0 c (Proc.devRef .tc main_v13) = W5 m c (Proc.devRef .tc main_v13) :=
  (W7_of m h0 c main_v13 (by decide)).trans (W6_v13 m h0 c)
theorem W8_v13 (c : Dev nD) : W8 m h0 h1 c (Proc.devRef .tc main_v13) = W5 m c (Proc.devRef .tc main_v13) :=
  (W8_in m h0 h1 c 2 rfl).trans (W7_v13 m h0 c)
theorem W9_v13 (c : Dev nD) : W9 m h0 h1 c (Proc.devRef .tc main_v13) = W5 m c (Proc.devRef .tc main_v13) :=
  (W9_of m h0 h1 c main_v13 (by decide)).trans (W8_v13 m h0 h1 c)
theorem W10_v13 (c : Dev nD) : W10 m h0 h1 h2 c (Proc.devRef .tc main_v13) = W5 m c (Proc.devRef .tc main_v13) :=
  (W10_in m h0 h1 h2 c 2 rfl).trans (W9_v13 m h0 h1 c)
theorem W11_v13 (c : Dev nD) : W11 m h0 h1 h2 c (Proc.devRef .tc main_v13) = W5 m c (Proc.devRef .tc main_v13) :=
  (W11_of m h0 h1 h2 c main_v13 (by decide)).trans (W10_v13 m h0 h1 h2 c)
theorem W12_v13 (c : Dev nD) : W12 m h0 h1 h2 h3 c (Proc.devRef .tc main_v13) = W5 m c (Proc.devRef .tc main_v13) :=
  (W12_in m h0 h1 h2 h3 c 2 rfl).trans (W11_v13 m h0 h1 h2 c)
theorem W6_v14 (c : Dev nD) : W6 m h0 c (Proc.devRef .tc main_v14) = W5 m c (Proc.devRef .tc main_v14) :=
  (W6_of_ne m h0 c main_v14 (by decide)).trans rfl
theorem W7_v14 (c : Dev nD) : W7 m h0 c (Proc.devRef .tc main_v14) = W5 m c (Proc.devRef .tc main_v14) :=
  (W7_of m h0 c main_v14 (by decide)).trans (W6_v14 m h0 c)
theorem W8_v14 (c : Dev nD) : W8 m h0 h1 c (Proc.devRef .tc main_v14) = W5 m c (Proc.devRef .tc main_v14) :=
  (W8_in m h0 h1 c 1 rfl).trans (W7_v14 m h0 c)
theorem W9_v14 (c : Dev nD) : W9 m h0 h1 c (Proc.devRef .tc main_v14) = W5 m c (Proc.devRef .tc main_v14) :=
  (W9_of m h0 h1 c main_v14 (by decide)).trans (W8_v14 m h0 h1 c)
theorem W10_v14 (c : Dev nD) : W10 m h0 h1 h2 c (Proc.devRef .tc main_v14) = W5 m c (Proc.devRef .tc main_v14) :=
  (W10_in m h0 h1 h2 c 1 rfl).trans (W9_v14 m h0 h1 c)
theorem W11_v14 (c : Dev nD) : W11 m h0 h1 h2 c (Proc.devRef .tc main_v14) = W5 m c (Proc.devRef .tc main_v14) :=
  (W11_of m h0 h1 h2 c main_v14 (by decide)).trans (W10_v14 m h0 h1 h2 c)
theorem W12_v14 (c : Dev nD) : W12 m h0 h1 h2 h3 c (Proc.devRef .tc main_v14) = W5 m c (Proc.devRef .tc main_v14) :=
  (W12_in m h0 h1 h2 h3 c 1 rfl).trans (W11_v14 m h0 h1 h2 c)

end Cert.KernelIdeal.Hand

end
-- ==== Proof.KI.Reg0.lean ====
import proofs.«175313_j15590731285054_1_alg».proof.Proof.Gen.KernelIdeal.Launch
import proofs.«175313_j15590731285054_1_alg».proof.Proof.Gen.KernelIdeal.Skeleton
import proofs.«175313_j15590731285054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with a 2000-long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the TensorCore's buffers hold when the region is entered; everything below is stated at this parameter
variable (V : (c : Dev nD) → (b : Ref sig .tc) → Buf (Elt F) ((c : Thread nD τ).loc b))

/-! # Region 0: the row-scaling kernel, at the entry contents `V`

Per grid point the kernel multiplies a 2000×128 block of rows by a 2000×1 column of per-row factors (the column
broadcast along the lanes) and writes the product block. -/

/-- Window `w`'s block at grid point `t`: the part of its array, as the region finds it, that the window's block
    index selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every grid point its current staging buffer reads the window's block there, whether or not a
    transfer brought it in at that point (when none did, the block index is the one of the point before, so the
    buffer already holds this very block). Holds for any proof data whose array is `V`'s and whose body leaves the
    block as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: at every grid point its current staging buffer reads the window's block there, whether or not a
    transfer brought it in at that point (when none did, the block index is the one of the point before, so the
    buffer already holds this very block). Holds for any proof data whose array is `V`'s and whose body leaves the
    block as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

abbrev r0_0 : Rect S2000x128 := Rect.unit (s := S2000x128) ![0, 0] S2000x128.size inb_S2000x128_S2000x128_0_0
abbrev r0_1 : Rect S2000x1 := Rect.unit (s := S2000x1) ![0, 0] S2000x1.size inb_S2000x1_S2000x1_0_0

/-- What the body leaves in the output window's buffer, as a function of the two input blocks: its single store,
    whose payload is the product of the rows block `x0` with the broadcast factor column `x1`. -/
def out0_2 (x0 : Vec F S2000x128 .f32) (x1 : Vec F S2000x1 .f32) : Vec F S2000x128 .f32 :=
  View.canon [⟨r0_0, k0_pay1 (View.ld x1 r0_1) (View.ld x0 r0_0)⟩]

/-- The single store writes the whole 2000×128 buffer, so every index is covered. -/
theorem cover0_2 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

set_option maxHeartbeats 1000000 in
/-- The body's triple. Given the two input buffers whole at read contents `x0`, `x1` and the output buffer whole at
    anything, the body runs to a state where the inputs are unchanged and the output reads `out0_2 x0 x1`. The
    value the body loads from the output buffer before storing is never used, so its prior contents do not matter. -/
theorem sound_kernel0 (c : Dev nD) (E : Set ℕ) (i : grid0.Coords) (arg1 : Memref sig .tc .vmem S2000x128 .f32) (harg1 : arg1.IsWhole) (arg2 : Memref sig .tc .vmem S2000x1 .f32) (harg2 : arg2.IsWhole) (arg3 : Memref sig .tc .vmem S2000x128 .f32) (harg3 : arg3.IsWhole)
    (x0 : Vec F S2000x128 .f32) (x1 : Vec F S2000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the region's pipeline -/

/-- On core `c`: the arrays are what the region finds (`V`); after the body at point `t` each input buffer still
    holds its block and the output buffer holds `out0_2` of the two input blocks; the invariant is the untouched
    rest of the core's state; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer reads its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

/-- What the body is entered with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers read their blocks, so the body's triple applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«175313_j15590731285054_1_alg».proof.Proof.Gen.KernelIdeal.Launch
import proofs.«175313_j15590731285054_1_alg».proof.Proof.Gen.KernelIdeal.Skeleton
import proofs.«175313_j15590731285054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with a 2000-long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the TensorCore's buffers hold when the region is entered; everything below is stated at this parameter
variable (V : (c : Dev nD) → (b : Ref sig .tc) → Buf (Elt F) ((c : Thread nD τ).loc b))

/-! # Region 1: a layer kernel, at the entry contents `V`

Per grid point the kernel takes a 2000×128 block of rows, two 2000×1 columns of per-row factors, a 128×128 weight
matrix and a 1×128 bias row (the last two the same at every point). It scales the rows by the first column, rounds to
bfloat16, multiplies by the rounded weights, adds the bias and clamps below at zero: that block is the first output.
The second output is the first scaled by the second column. -/

/-- Window `w`'s block at grid point `t`: the part of its array, as the region finds it, that the window's block
    index selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every grid point its current staging buffer reads the window's block there, whether or not a
    transfer brought it in at that point (when none did, the block index is the one of the point before, so the
    buffer already holds this very block). Holds for any proof data whose array is `V`'s and whose body leaves the
    block as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: at every grid point its current staging buffer reads the window's block there, whether or not a
    transfer brought it in at that point (when none did, the block index is the one of the point before, so the
    buffer already holds this very block). Holds for any proof data whose array is `V`'s and whose body leaves the
    block as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: at every grid point its current staging buffer reads the window's block there, whether or not a
    transfer brought it in at that point (when none did, the block index is the one of the point before, so the
    buffer already holds this very block). Holds for any proof data whose array is `V`'s and whose body leaves the
    block as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: at every grid point its current staging buffer reads the window's block there, whether or not a
    transfer brought it in at that point (when none did, the block index is the one of the point before, so the
    buffer already holds this very block). Holds for any proof data whose array is `V`'s and whose body leaves the
    block as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: at every grid point its current staging buffer reads the window's block there, whether or not a
    transfer brought it in at that point (when none did, the block index is the one of the point before, so the
    buffer already holds this very block). Holds for any proof data whose array is `V`'s and whose body leaves the
    block as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole buffer -/

abbrev r1_0 : Rect S2000x128 := Rect.unit (s := S2000x128) ![0, 0] S2000x128.size inb_S2000x128_S2000x128_0_0
abbrev r1_1 : Rect S2000x1 := Rect.unit (s := S2000x1) ![0, 0] S2000x1.size inb_S2000x1_S2000x1_0_0
abbrev r1_3 : Rect S128x128 := Rect.unit (s := S128x128) ![0, 0] S128x128.size inb_S128x128_S128x128_0_0
abbrev r1_4 : Rect S1x128 := Rect.unit (s := S1x128) ![0, 0] S1x128.size inb_S1x128_S1x128_0_0

/-- What the body leaves in the first output window's buffer (window 5), as a function of the input blocks: its single
    store there, the clamped affine image of the scaled rows. -/
def out1_5 (x0 : Vec F S2000x128 .f32) (x1 : Vec F S2000x1 .f32) (x3 : Vec F S128x128 .f32) (x4 : Vec F S1x128 .f32) : Vec F S2000x128 .f32 :=
  View.canon [⟨r1_0, k1_pay1 (View.ld x1 r1_1) (View.ld x0 r1_0) (View.ld x3 r1_3) (View.ld x4 r1_4)⟩]

/-- What the body leaves in the second output window's buffer (window 6): its single store there, the first output's
    payload scaled row by row by the second factor column `x2`. -/
def out1_6 (x0 : Vec F S2000x128 .f32) (x1 x2 : Vec F S2000x1 .f32) (x3 : Vec F S128x128 .f32) (x4 : Vec F S1x128 .f32) : Vec F S2000x128 .f32 :=
  View.canon [⟨r1_0, k1_pay2 (View.ld x1 r1_1) (View.ld x0 r1_0) (View.ld x3 r1_3) (View.ld x4 r1_4) (View.ld x2 r1_1)⟩]

/-- A single store of the whole 2000×128 buffer covers every index (used for both outputs). -/
theorem cover1 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

set_option maxHeartbeats 1000000 in
/-- The body's triple. Given the five input buffers whole at read contents `x0 … x4` and the two output buffers whole
    at anything, the body runs to a state where the inputs are unchanged and the outputs read `out1_5`, `out1_6` of
    the inputs. The values the body loads from the output buffers before storing are never used, so their prior
    contents do not matter. -/
theorem sound_kernel1 (c : Dev nD) (E : Set ℕ) (i : grid1.Coords) (arg1 : Memref sig .tc .vmem S2000x128 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 x2 : Vec F S2000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x3 x4) ∗ owns (c : Thread nD τ) arg7 fullShare (out1_6 x0 x1 x2 x3 x4)) -∗ K ⟨⟩))
      ⊢ wp frame (wpE (defs₀ (F := F)) Variants.none c none) E (cc1__layer_kernel i arg1 harg1 arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1 _)
  iexists _; isplitr
  swap; · iexact H6
  ipureintro
  exact View.read_writes_eq_canon _ _ _ (cover1 _)

/-! ## The proof data of the region's pipeline -/

/-- On core `c`: the arrays are what the region finds (`V`); after the body at point `t` each input buffer still
    holds its block and the output buffers hold `out1_5`, `out1_6` of the input blocks; the invariant is the
    untouched rest of the core's state; nothing is owed; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current staging buffer reads its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the body is entered with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers read their blocks, so the body's triple applies; the invariant and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«175313_j15590731285054_1_alg».proof.Proof.Gen.KernelIdeal.Launch
import proofs.«175313_j15590731285054_1_alg».proof.Proof.Gen.KernelIdeal.Skeleton
import proofs.«175313_j15590731285054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with a 2000-long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the TensorCore's buffers hold when the region is entered; everything below is stated at this parameter
variable (V : (c : Dev nD) → (b : Ref sig .tc) → Buf (Elt F) ((c : Thread nD τ).loc b))

/-! # Region 2: a layer kernel, at the entry contents `V`

Per grid point the kernel takes a 2000×128 block of rows, two 2000×1 columns of per-row factors, a 128×128 weight
matrix and a 1×128 bias row (the last two the same at every point). It scales the rows by the first column, rounds to
bfloat16, multiplies by the rounded weights, adds the bias and clamps below at zero: that block is the first output.
The second output is the first scaled by the second column. -/

/-- Window `w`'s block at grid point `t`: the part of its array, as the region finds it, that the window's block
    index selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every grid point its current staging buffer reads the window's block there, whether or not a
    transfer brought it in at that point (when none did, the block index is the one of the point before, so the
    buffer already holds this very block). Holds for any proof data whose array is `V`'s and whose body leaves the
    block as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every grid point its current staging buffer reads the window's block there, whether or not a
    transfer brought it in at that point (when none did, the block index is the one of the point before, so the
    buffer already holds this very block). Holds for any proof data whose array is `V`'s and whose body leaves the
    block as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every grid point its current staging buffer reads the window's block there, whether or not a
    transfer brought it in at that point (when none did, the block index is the one of the point before, so the
    buffer already holds this very block). Holds for any proof data whose array is `V`'s and whose body leaves the
    block as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: at every grid point its current staging buffer reads the window's block there, whether or not a
    transfer brought it in at that point (when none did, the block index is the one of the point before, so the
    buffer already holds this very block). Holds for any proof data whose array is `V`'s and whose body leaves the
    block as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: at every grid point its current staging buffer reads the window's block there, whether or not a
    transfer brought it in at that point (when none did, the block index is the one of the point before, so the
    buffer already holds this very block). Holds for any proof data whose array is `V`'s and whose body leaves the
    block as it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole buffer -/

abbrev r2_0 : Rect S2000x128 := Rect.unit (s := S2000x128) ![0, 0] S2000x128.size inb_S2000x128_S2000x128_0_0
abbrev r2_1 : Rect S2000x1 := Rect.unit (s := S2000x1) ![0, 0] S2000x1.size inb_S2000x1_S2000x1_0_0
abbrev r2_3 : Rect S128x128 := Rect.unit (s := S128x128) ![0, 0] S128x128.size inb_S128x128_S128x128_0_0
abbrev r2_4 : Rect S1x128 := Rect.unit (s := S1x128) ![0, 0] S1x128.size inb_S1x128_S1x128_0_0

/-- What the body leaves in the first output window's buffer (window 5), as a function of the input blocks: its single
    store there, the clamped affine image of the scaled rows. -/
def out2_5 (x0 : Vec F S2000x128 .f32) (x1 : Vec F S2000x1 .f32) (x3 : Vec F S128x128 .f32) (x4 : Vec F S1x128 .f32) : Vec F S2000x128 .f32 :=
  View.canon [⟨r2_0, k2_pay1 (View.ld x1 r2_1) (View.ld x0 r2_0) (View.ld x3 r2_3) (View.ld x4 r2_4)⟩]

/-- What the body leaves in the second output window's buffer (window 6): its single store there, the first output's
    payload scaled row by row by the second factor column `x2`. -/
def out2_6 (x0 : Vec F S2000x128 .f32) (x1 x2 : Vec F S2000x1 .f32) (x3 : Vec F S128x128 .f32) (x4 : Vec F S1x128 .f32) : Vec F S2000x128 .f32 :=
  View.canon [⟨r2_0, k2_pay2 (View.ld x1 r2_1) (View.ld x0 r2_0) (View.ld x3 r2_3) (View.ld x4 r2_4) (View.ld x2 r2_1)⟩]

/-- A single store of the whole 2000×128 buffer covers every index (used for both outputs). -/
theorem cover2 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in
/-- The body's triple. Given the five input buffers whole at read contents `x0 … x4` and the two output buffers whole
    at anything, the body runs to a state where the inputs are unchanged and the outputs read `out2_5`, `out2_6` of
    the inputs. The values the body loads from the output buffers before storing are never used, so their prior
    contents do not matter. -/
theorem sound_kernel2 (c : Dev nD) (E : Set ℕ) (i : grid2.Coords) (arg1 : Memref sig .tc .vmem S2000x128 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 x2 : Vec F S2000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x3 x4) ∗ owns (c : Thread nD τ) arg7 fullShare (out2_6 x0 x1 x2 x3 x4)) -∗ K ⟨⟩))
      ⊢ wp frame (wpE (defs₀ (F := F)) Variants.none c none) E (cc2__layer_kernel i arg1 harg1 arg2 harg2 arg3 harg3 arg4 harg4 arg5 harg5 arg6 harg6 arg7 harg7) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2 _)
  iexists _; isplitr
  swap; · iexact H6
  ipureintro
  exact View.read_writes_eq_canon _ _ _ (cover2 _)

/-! ## The proof data of the region's pipeline -/

/-- On core `c`: the arrays are what the region finds (`V`); after the body at point `t` each input buffer still
    holds its block and the output buffers hold `out2_5`, `out2_6` of the input blocks; the invariant is the
    untouched rest of the core's state; nothing is owed; every share is full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

/-- Each input's current staging buffer reads its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a generic point -/

/-- What the body is entered with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the input buffers read their blocks, so the body's triple applies; the invariant and what
    the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«175313_j15590731285054_1_alg».proof.Proof.Gen.KernelIdeal.Launch
import proofs.«175313_j15590731285054_1_alg».proof.Proof.Gen.KernelIdeal.Skeleton
import proofs.«175313_j15590731285054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with a 2000-long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the TensorCore's buffers hold when the region is entered; everything below is stated at this parameter
variable (V : (c : Dev nD) → (b : Ref sig .tc) → Buf (Elt F) ((c : Thread nD τ).loc b))

/-! # Region 3: a layer kernel, at the entry contents `V`

Per grid point the kernel takes a 2000×128 block of rows, two 2000×1 columns of per-row factors, a 128×128 weight
matrix and a 1×128 bias row (the last two the same at every point). It scales the rows by the first column, rounds to
bfloat16, multiplies by the rounded weights, adds the bias and clamps below at zero: that block is the first output.
The second output is the first scaled by the second column. -/

/-- Window `w`'s block at grid point `t`: the part of its array, as the region finds it, that the window's block
    index selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: at every grid point its current staging buffer reads the window's block there, whether or not a
    transfer brought it in at that point (when none did, the block index is the one of the point before, so the
    buffer already holds this very block). Holds for any proof data whose array is `V`'s and whose body leaves the
    block as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: at every grid point its current staging buffer reads the window's block there, whether or not a
    transfer brought it in at that point (when none did, the block index is the one of the point before, so the
    buffer already holds this very block). Holds for any proof data whose array is `V`'s and whose body leaves the
    block as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: at every grid point its current staging buffer reads the window's block there, whether or not a
    transfer brought it in at that point (when none did, the block index is the one of the point before, so the
    buffer already holds this very block). Holds for any proof data whose array is `V`'s and whose body leaves the
    block as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: at every grid point its current staging buffer reads the window's block there, whether or not a
    transfer brought it in at that point (when none did, the block index is the one of the point before, so the
    buffer already holds this very block). Holds for any proof data whose array is `V`'s and whose body leaves the
    block as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: at every grid point its current staging buffer reads the window's block there, whether or not a
    transfer brought it in at that point (when none did, the block index is the one of the point before, so the
    buffer already holds this very block). Holds for any proof data whose array is `V`'s and whose body leaves the
    block as it found it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is a whole buffer -/

abbrev r3_0 : Rect S2000x128 := Rect.unit (s := S2000x128) ![0, 0] S2000x128.size inb_S2000x128_S2000x128_0_0
abbrev r3_1 : Rect S2000x1 := Rect.unit (s := S2000x1) ![0, 0] S2000x1.size inb_S2000x1_S2000x1_0_0
abbrev r3_3 : Rect S128x128 := Rect.unit (s := S128x128) ![0, 0] S128x128.size inb_S128x128_S128x128_0_0
abbrev r3_4 : Rect S1x128 := Rect.unit (s := S1x128) ![0, 0] S1x128.size inb_S1x128_S1x128_0_0

/-- What the body leaves in the first output window's buffer (window 5), as a function of the input blocks: its single
    store there, the clamped affine image of the scaled rows. -/
def out3_5 (x0 : Vec F S2000x128 .f32) (x1 : Vec F S2000x1 .f32) (x3 : Vec F S128x128 .f32) (x4 : Vec F S1x128 .f32) : Vec F S2000x128 .f32 :=
  View.canon [⟨r3_0, k3_pay1 (View.ld x1 r3_1) (View.ld x0 r3_0) (View.ld x3 r3_3) (View.ld x4 r3_4)⟩]

/-- What the body leaves in the second output window's buffer (window 6): its single store there, the first output's
    payload scaled row by row by the second factor column `x2`. -/
def out3_6 (x0 : Vec F S2000x128 .f32) (x1 x2 : Vec F S2000x1 .f32) (x3 : Vec F S128x128 .f32) (x4 : Vec F S1x128 .f32) : Vec F S2000x128 .f32 :=
  View.canon [⟨r3_0, k3_pay2 (View.ld x1 r3_1) (View.ld x0 r3_0) (View.ld x3 r3_3) (View.ld x4 r3_4) (View.ld x2 r3_1)⟩]

/-- A single store of the whole 2000×128 buffer covers every index (used for both outputs). -/
theorem cover3 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 1000000 in
/-- The body's triple. Given the five input buffers whole at read contents `x0 … x4` and the two output buffers whole
    at anything, the body runs to a state where the inputs are unchanged and the outputs read `out3_5`, `out3_6` of
    the inputs. The values the body loads from the output buffers before storing are never used, so their prior
    contents do not matter. -/
theorem sound_kernel3 (c : Dev nD) (E : Set ℕ) (i : grid3.Coords) (arg1 : Memref sig .tc .vmem S2000x128 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 x2 : Vec F S2000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x3 x4) ∗ owns (c : Thread nD τ) arg7 fullShare (out3_6 x0 x1 x2 x3 x4)) -∗ K ⟨⟩))
      ⊢ wp frame (wpE (defs₀ (F := F)) Variants.none c none) E (cc3__layer_kernel i arg1 harg1 arg2 harg2 arg3 harg3 arg4 harg4 arg5 harg5 arg6 harg6 arg7 harg7) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3 _)
  iexists _; isplitr
  swap; · iexact H6
  ipureintro
  exact View.read_writes_eq_canon _ _ _ (cover3 _)

/-! ## The proof data of the region's pipeline -/

/-- On core `c`: the arrays are what the region finds (`V`); after the body at point `t` each input buffer still
    holds its block and the output buffers hold `out3_5`, `out3_6` of the input blocks; the invariant is the
    untouched rest of the core's state; nothing is owed; every share is full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

/-- Each input's current staging buffer reads its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a generic point -/

/-- What the body is entered with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers read their blocks, so the body's triple applies; the invariant and what
    the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4Runs.lean ====
/- Region 4 (the mean kernel), what its three cases share: the block each window shows at a grid point, the two
   branch conditions of the body in closed form over the 50 grid points, where the output window is idle, the
   memrefs the body is called on, and the class invariant with the accumulator scratch split off. -/
import proofs.«175313_j15590731285054_1_alg».proof.Proof.Gen.KernelIdeal.Launch
import proofs.«175313_j15590731285054_1_alg».proof.Proof.Gen.KernelIdeal.Skeleton
import proofs.«175313_j15590731285054_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a store's rectangle is decided structurally, one step per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- The block window `w` shows at point `t`: the window's rectangle at that point read out of the window's array as
    the region finds it (`V`). For window 0 this is rows 2000·t … 2000·t+1999 of the 100000×128 input. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds the window's block at every point, for any proof data whose
    array is `V`'s (`hA`) and whose body leaves the block in place (`hafter`): the window is fetched at every
    point, never cut and never idle, so what the body finds is what was fetched. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional: the grid coordinate is 0 (the comparison chain of the kernel text,
    over the coordinate as a 32-bit word). -/
abbrev cond4_0 (i : grid4.Coords) : Prop := (Scalar.cmpi .ne (Scalar.extui (Scalar.cmpi .eq (BitVec.ofNat 32 (i 0).val) 0#32)) 0#32) = 1#1
/-- It holds exactly at the first of the 50 points. -/
theorem hcond4_0 : ∀ t : Fin cfg4.N, cond4_0 (grid4.coords t) ↔ t.val % 50 = 0 :=
  (by decide +kernel : ∀ t : Fin grid4.N, cond4_0 (grid4.coords t) ↔ t.val % 50 = 0)

/-- The condition of the body's second conditional: the grid coordinate is 49. -/
abbrev cond4_1 (i : grid4.Coords) : Prop := k4_cond2 i = 1#1
/-- It holds exactly at the last of the 50 points. -/
theorem hcond4_1 : ∀ t : Fin cfg4.N, cond4_1 (grid4.coords t) ↔ t.val % 50 = 49 :=
  (by decide +kernel : ∀ t : Fin grid4.N, cond4_1 (grid4.coords t) ↔ t.val % 50 = 49)

/-! ## Where the windows are idle -/

/-- The input window is live at every point. -/
theorem liveAt4_0 : ∀ t : Fin cfg4.N, cfg4.idle 0 (grid4.coords t) = false := by decide +kernel
/-- At the first point (case A) the output window is idle: nothing is stored into it. -/
theorem idleAt4_1_A : ∀ t : Fin cfg4.N, cond4_0 (grid4.coords t) → ¬cond4_1 (grid4.coords t) → cfg4.idle 1 (grid4.coords t) = true := by decide +kernel
/-- and its block is not written back there. -/
theorem noFlush4_1_A : ∀ t : Fin cfg4.N, cond4_0 (grid4.coords t) → ¬cond4_1 (grid4.coords t) → (cfg4.win 1).flush t = false := by decide +kernel
/-- At the points 1 … 48 (case B) the output window is idle as well, -/
theorem idleAt4_1_B : ∀ t : Fin cfg4.N, ¬cond4_0 (grid4.coords t) → ¬cond4_1 (grid4.coords t) → cfg4.idle 1 (grid4.coords t) = true := by decide +kernel
/-- and not written back. -/
theorem noFlush4_1_B : ∀ t : Fin cfg4.N, ¬cond4_0 (grid4.coords t) → ¬cond4_1 (grid4.coords t) → (cfg4.win 1).flush t = false := by decide +kernel
/-- At the last point (case C) the output window is live: the mean is stored into it. -/
theorem liveAt4_1_C : ∀ t : Fin cfg4.N, ¬cond4_0 (grid4.coords t) → cond4_1 (grid4.coords t) → cfg4.idle 1 (grid4.coords t) = false := by decide +kernel

/-! ## The memrefs the body is called on -/

/-- The output window's staging buffer as a view: what the window holds is stated by reading through it. -/
abbrev VO4_1 : View sig .tc .vmem S1x128 .f32 := (Memref.whole cc4_stg1_0 : Memref sig .tc .vmem S1x128 .f32).view
/-- Each window's current staging memref at point `t`, spelled as the pipeline passes it, with its wholeness. -/
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
/-- The accumulator: a whole scoped 1×128 buffer of the kernel's own, passed beside the windows. -/
abbrev scM4_0 : Memref sig .tc .vmem S1x128 .f32 := Memref.whole cc4_scratch0
/-- The accumulator as a view: the running column sums are stated by reading through it. -/
abbrev VS4_0 : View sig .tc .vmem S1x128 .f32 := scM4_0.view

/-- The class invariant with the accumulator split off: the accumulator owned at some contents, every other scoped
    buffer that is no staging buffer of this call (unopened), and the generator register at some state. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KI.Reg4A.lean ====
/- Region 4, case A — the first grid point: the accumulator is reset to zeros, the block's column sums are added,
   nothing is stored into the output window. The body's triple on any whole memrefs, with the pieces the stores
   leave in the accumulator as witness. -/
import proofs.«175313_j15590731285054_1_alg».proof.Proof.KI.Reg4Runs

-- membership of an index in a store's rectangle is decided structurally, one step per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE A (first conditional taken, second not). On whole memrefs — the input's at its block `x0`, the output's at
    any contents `xi1`, handed back untouched, the accumulator at anything — the body runs to a continuation that
    holds the input's and the output's as they were and the accumulator with the pieces `LS0` written (last store
    first). The output gets no piece. The pieces are found by running the body's memory operations one by one,
    each conditional decided by `hc0`, `hc1`. -/
noncomputable def kernelRun4_A (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : cond4_0 i) (hc1 : ¬cond4_1 i)
    (x0 : Vec F S2000x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc4__mean_kernel i arg1 harg1 arg2 harg2 arg3 harg3) K } := by
  refine ⟨[], ?_, fun xi1 E K => ?run⟩
  case run =>
    simp only [cc4__mean_kernel_eq_skeleton]; unfold cc4__mean_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KI.Reg4B.lean ====
/- Region 4, case B — the grid points 1 … 48: the block's column sums are added to the accumulator as the point
   before left it; nothing is stored into the output window. -/
import proofs.«175313_j15590731285054_1_alg».proof.Proof.KI.Reg4A

-- membership of an index in a store's rectangle is decided structurally, one step per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE B (neither conditional taken). On whole memrefs — the input's at its block `x0`, the output's at any
    contents `xi1`, handed back untouched, the accumulator at `xs0`, what the point before left — the body runs to
    a continuation that holds the input's and the output's as they were and the accumulator with the pieces `LS0`
    written. The output gets no piece. -/
noncomputable def kernelRun4_B (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : ¬cond4_1 i)
    (x0 : Vec F S2000x128 .f32) (xs0 : Vec F S1x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc4__mean_kernel i arg1 harg1 arg2 harg2 arg3 harg3) K } := by
  refine ⟨[], ?_, fun xi1 E K => ?run⟩
  case run =>
    simp only [cc4__mean_kernel_eq_skeleton]; unfold cc4__mean_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KI.Reg4C.lean ====
/- Region 4, case C — the last grid point: the block's column sums are added to the accumulator, then the
   accumulator, scaled, is stored into the output window. -/
import proofs.«175313_j15590731285054_1_alg».proof.Proof.KI.Reg4B

-- membership of an index in a store's rectangle is decided structurally, one step per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE C (first conditional not taken, second taken). On whole memrefs — the input's at its block `x0`, the
    output's at anything, the accumulator at `xs0`, what the point before left — the body runs to a continuation
    that holds the input's as it was, the output's with the pieces `L1` written and the accumulator with the pieces
    `LS0` written. -/
noncomputable def kernelRun4_C (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : cond4_1 i)
    (x0 : Vec F S2000x128 .f32) (xs0 : Vec F S1x128 .f32) :
    Σ' (L1 : List (View.Piece (Elt F) S1x128 .f32)), { LS0 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc4__mean_kernel i arg1 harg1 arg2 harg2 arg3 harg3) K } := by
  refine ⟨?_, ?_, fun E K => ?run⟩
  case run =>
    simp only [cc4__mean_kernel_eq_skeleton]; unfold cc4__mean_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Hand

end
-- ==== Proof.KI.Reg4.lean ====
/- Region 4 (the mean kernel): what the accumulator and the output window hold after each of the 50 grid points,
   the pipeline's proof data at a parameter `V` (the buffer contents when the region is entered), the body
   obligation at every point, and the two entailments between the class invariant and the proof data's. -/
import proofs.«175313_j15590731285054_1_alg».proof.Proof.KI.Reg4C

-- membership of an index in a store's rectangle is decided structurally, one step per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output window: no pieces. The value is a placeholder nothing consults — at the
    first point the window is neither written back nor read at the next point. -/
def out4_A_1 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : cond4_0 i) (hc1 : ¬cond4_1 i)
    (x0 : Vec F S2000x128 .f32) : Vec F S1x128 .f32 :=
  VO4_1.read (Elt F) (VO4_1.writes (Elt F) VO4_1.junk (kernelRun4_A c i arg1 harg1 arg2 harg2 arg3 harg3 hc0 hc1 x0).1)

/-- Case A's pieces for the accumulator (the reset, then the sum) cover all of its 1×128 cells. -/
theorem scover4_A_0 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : cond4_0 i) (hc1 : ¬cond4_1 i)
    (x0 : Vec F S2000x128 .f32) (y : S1x128.Idx) :
    ∃ pc ∈ (kernelRun4_A c i arg1 harg1 arg2 harg2 arg3 harg3 hc0 hc1 x0).2.1, y ∈ pc.1.set :=
  View.cover_of_tiledL (kernelRun4_A c i arg1 harg1 arg2 harg2 arg3 harg3 hc0 hc1 x0).2.1 S1x128.size (by sl_kernel_rfl) y

/-- What case A leaves in the accumulator: its pieces read back. -/
def sout4_A_0 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : cond4_0 i) (hc1 : ¬cond4_1 i)
    (x0 : Vec F S2000x128 .f32) : Vec F S1x128 .f32 :=
  VS4_0.read (Elt F) (VS4_0.writes (Elt F) VS4_0.junk (kernelRun4_A c i arg1 harg1 arg2 harg2 arg3 harg3 hc0 hc1 x0).2.1)

/-- Case B stores nothing into the output window either: a placeholder, as in case A. -/
def out4_B_1 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : ¬cond4_1 i)
    (x0 : Vec F S2000x128 .f32) (xs0 : Vec F S1x128 .f32) : Vec F S1x128 .f32 :=
  VO4_1.read (Elt F) (VO4_1.writes (Elt F) VO4_1.junk (kernelRun4_B c i arg1 harg1 arg2 harg2 arg3 harg3 hc0 hc1 x0 xs0).1)

/-- Case B's one piece for the accumulator covers all of its cells. -/
theorem scover4_B_0 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : ¬cond4_1 i)
    (x0 : Vec F S2000x128 .f32) (xs0 : Vec F S1x128 .f32) (y : S1x128.Idx) :
    ∃ pc ∈ (kernelRun4_B c i arg1 harg1 arg2 harg2 arg3 harg3 hc0 hc1 x0 xs0).2.1, y ∈ pc.1.set :=
  View.cover_of_tiledL (kernelRun4_B c i arg1 harg1 arg2 harg2 arg3 harg3 hc0 hc1 x0 xs0).2.1 S1x128.size (by sl_kernel_rfl) y

/-- What case B leaves in the accumulator: its piece read back. -/
def sout4_B_0 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : ¬cond4_1 i)
    (x0 : Vec F S2000x128 .f32) (xs0 : Vec F S1x128 .f32) : Vec F S1x128 .f32 :=
  VS4_0.read (Elt F) (VS4_0.writes (Elt F) VS4_0.junk (kernelRun4_B c i arg1 harg1 arg2 harg2 arg3 harg3 hc0 hc1 x0 xs0).2.1)

/-- Case C's one piece for the output window covers all of its 1×128 cells. -/
theorem cover4_C_1 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : cond4_1 i)
    (x0 : Vec F S2000x128 .f32) (xs0 : Vec F S1x128 .f32) (y : S1x128.Idx) :
    ∃ pc ∈ (kernelRun4_C c i arg1 harg1 arg2 harg2 arg3 harg3 hc0 hc1 x0 xs0).1, y ∈ pc.1.set :=
  View.cover_of_tiledL (kernelRun4_C c i arg1 harg1 arg2 harg2 arg3 harg3 hc0 hc1 x0 xs0).1 S1x128.size (by sl_kernel_rfl) y

/-- What case C leaves in the output window's staging buffer: its piece read back. -/
def out4_C_1 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : cond4_1 i)
    (x0 : Vec F S2000x128 .f32) (xs0 : Vec F S1x128 .f32) : Vec F S1x128 .f32 :=
  VO4_1.read (Elt F) (VO4_1.writes (Elt F) VO4_1.junk (kernelRun4_C c i arg1 harg1 arg2 harg2 arg3 harg3 hc0 hc1 x0 xs0).1)

/-- Case C's one piece for the accumulator covers all of its cells. -/
theorem scover4_C_0 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : cond4_1 i)
    (x0 : Vec F S2000x128 .f32) (xs0 : Vec F S1x128 .f32) (y : S1x128.Idx) :
    ∃ pc ∈ (kernelRun4_C c i arg1 harg1 arg2 harg2 arg3 harg3 hc0 hc1 x0 xs0).2.1, y ∈ pc.1.set :=
  View.cover_of_tiledL (kernelRun4_C c i arg1 harg1 arg2 harg2 arg3 harg3 hc0 hc1 x0 xs0).2.1 S1x128.size (by sl_kernel_rfl) y

/-- What case C leaves in the accumulator: its piece read back. -/
def sout4_C_0 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : cond4_1 i)
    (x0 : Vec F S2000x128 .f32) (xs0 : Vec F S1x128 .f32) : Vec F S1x128 .f32 :=
  VS4_0.read (Elt F) (VS4_0.writes (Elt F) VS4_0.junk (kernelRun4_C c i arg1 harg1 arg2 harg2 arg3 harg3 hc0 hc1 x0 xs0).2.1)

/-! ## What the output window and the accumulator hold after each point -/

/-- THE ACCUMULATION. After the body at position `n`: (the output window's staging buffer, the accumulator). Position
    0 is case A on the first block; a later position is the case its residue selects — 49 is case C, anything else
    case B — run on that point's block and on the accumulator as position `n - 1` left it. (The branch for a later
    position of residue 0 is type-correct but met by no point; residues 0 and 49 at once is no case.) -/
def outsAt4 (c : Dev nD) : (n : ℕ) → n < cfg4.N → Vec F S1x128 .f32 × Vec F S1x128 .f32
  | 0, hn => (out4_A_1 c (grid4.coords ⟨0, hn⟩) (ms4_0 ⟨0, hn⟩) (hs4_0 ⟨0, hn⟩) (ms4_1 ⟨0, hn⟩) (hs4_1 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩), sout4_A_0 c (grid4.coords ⟨0, hn⟩) (ms4_0 ⟨0, hn⟩) (hs4_0 ⟨0, hn⟩) (ms4_1 ⟨0, hn⟩) (hs4_1 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩))
  | n + 1, hn =>
    if h0 : (n + 1) % 50 = 0 then
      if h1 : (n + 1) % 50 = 49 then
        False.elim (by omega)
      else
        (out4_A_1 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩))
    else
      if h1 : (n + 1) % 50 = 49 then
        (out4_C_1 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (outsAt4 c n (Nat.lt_of_succ_lt hn)).2)
      else
        (out4_B_1 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (outsAt4 c n (Nat.lt_of_succ_lt hn)).2)

/-- `outsAt4` at a point of case A. -/
theorem outsAt4_A (c : Dev nD) (t : Fin cfg4.N) (h0 : t.val % 50 = 0) (h1 : ¬t.val % 50 = 49) :
    outsAt4 V c t.val t.isLt = (out4_A_1 c (grid4.coords t) (ms4_0 t) (hs4_0 t) (ms4_1 t) (hs4_1 t) scM4_0 (Memref.isWhole_whole _) ((hcond4_0 t).mpr h0) (fun h => h1 ((hcond4_1 t).mp h)) (iblk4 V c 0 t), sout4_A_0 c (grid4.coords t) (ms4_0 t) (hs4_0 t) (ms4_1 t) (hs4_1 t) scM4_0 (Memref.isWhole_whole _) ((hcond4_0 t).mpr h0) (fun h => h1 ((hcond4_1 t).mp h)) (iblk4 V c 0 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 50 = 0) (h1 : ¬t.val % 50 = 49) :
    outsAt4 V c t.val t.isLt = (out4_B_1 c (grid4.coords t) (ms4_0 t) (hs4_0 t) (ms4_1 t) (hs4_1 t) scM4_0 (Memref.isWhole_whole _) (fun h => h0 ((hcond4_0 t).mp h)) (fun h => h1 ((hcond4_1 t).mp h)) (iblk4 V c 0 t) (outsAt4 V c (t.val - 1) (Nat.lt_of_le_of_lt (Nat.sub_le _ _) t.isLt)).2, sout4_B_0 c (grid4.coords t) (ms4_0 t) (hs4_0 t) (ms4_1 t) (hs4_1 t) scM4_0 (Memref.isWhole_whole _) (fun h => h0 ((hcond4_0 t).mp h)) (fun h => h1 ((hcond4_1 t).mp h)) (iblk4 V c 0 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 50 = 0) (h1 : t.val % 50 = 49) :
    outsAt4 V c t.val t.isLt = (out4_C_1 c (grid4.coords t) (ms4_0 t) (hs4_0 t) (ms4_1 t) (hs4_1 t) scM4_0 (Memref.isWhole_whole _) (fun h => h0 ((hcond4_0 t).mp h)) ((hcond4_1 t).mpr h1) (iblk4 V c 0 t) (outsAt4 V c (t.val - 1) (Nat.lt_of_le_of_lt (Nat.sub_le _ _) t.isLt)).2, sout4_C_0 c (grid4.coords t) (ms4_0 t) (hs4_0 t) (ms4_1 t) (hs4_1 t) scM4_0 (Memref.isWhole_whole _) (fun h => h0 ((hcond4_0 t).mp h)) ((hcond4_1 t).mpr h1) (iblk4 V c 0 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`. Before the first point it is the class invariant (every scoped buffer that is
    no staging buffer at anything, the generator register at some state). Afterwards the accumulator is owned at
    exactly what position `n - 1` left in it, beside the other scoped buffers (unopened) and the generator register. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of region 4 on core `c`: the arrays as the region finds them (`V`); after the body at point `t`
    the input's buffer still at its block and the output's at `outsAt4`'s first component; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1 := by dsimp only [dat4]

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 4800000 in
/-- The body at any point. The input's memref holds its block; the residue of the position says which case the point
    is in, so that case's run applies. The invariant hands the body the accumulator — at anything at the first
    point, at what the point before left afterwards — and takes it back at this point's contents, which the case's
    pieces determine because they cover the buffer; the other scoped buffers and the generator register pass through
    untouched; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 50 := lt_of_lt_of_eq t.isLt (show cfg4.N = 50 from N_4)
  by_cases h0 : t.val % 50 = 0
  · by_cases h1 : t.val % 50 = 49
    · exfalso; omega
    · rw [show (dat4 V c).leavesExact 0 t = owns (c : Thread nD τ) (ms4_0 t) fullShare ((dat4 V c).after 0 t) from by
      unfold Dat.leavesExact; rw [liveAt4_0 t], after4_0]
      rw [Dat.leavesExact_idle (dat4 V c) 1 t (idleAt4_1_A t ((hcond4_0 t).mpr h0) (fun h => h1 ((hcond4_1 t).mp h))) (noFlush4_1_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩⟩
        iapply ((kernelRun4_A c (grid4.coords t) _ _ _ _ _ _ ((hcond4_0 t).mpr h0) (fun h => h1 ((hcond4_1 t).mp h)) (iblk4 V c 0 t)).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _)
            iexact HR
          iexact Hg
        isplitl [Ho]; · iexact Ho
        isplitl [H0]; · iexact H0
        iexists _; iexact H1
      · exfalso; omega
  · by_cases h1 : t.val % 50 = 49
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1_C t (fun h => h0 ((hcond4_0 t).mp h)) ((hcond4_1 t).mpr h1)], after4_1]
      rw [outsAt4_C V c t h0 h1]
      unfold out4_C_1 sout4_C_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩⟩
        iapply ((kernelRun4_C c (grid4.coords t) _ _ _ _ _ _ (fun h => h0 ((hcond4_0 t).mp h)) ((hcond4_1 t).mpr h1) (iblk4 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _)
            iexact HR
          iexact Hg
        isplitl [Ho]; · iexact Ho
        isplitl [H0]; · iexact H0
        unfold owns; iexists _; isplitr
        swap; · iexact H1
        ipureintro; exact View.read_writes_of_cover _ _ _ _ _ (cover4_C_1 c _ _ _ _ _ _ _ _ _ _ _)
    · rw [show (dat4 V c).leavesExact 0 t = owns (c : Thread nD τ) (ms4_0 t) fullShare ((dat4 V c).after 0 t) from by
      unfold Dat.leavesExact; rw [liveAt4_0 t], after4_0]
      rw [Dat.leavesExact_idle (dat4 V c) 1 t (idleAt4_1_B t (fun h => h0 ((hcond4_0 t).mp h)) (fun h => h1 ((hcond4_1 t).mp h))) (noFlush4_1_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩⟩
        iapply ((kernelRun4_B c (grid4.coords t) _ _ _ _ _ _ (fun h => h0 ((hcond4_0 t).mp h)) (fun h => h1 ((hcond4_1 t).mp h)) (iblk4 V c 0 t) _).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _)
            iexact HR
          iexact Hg
        isplitl [Ho]; · iexact Ho
        isplitl [H0]; · iexact H0
        iexists _; iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region (the class invariant) is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class invariant back: what the accumulator holds is
    forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 50 := N_4; omega)

end Cert.KernelIdeal.Hand

end
-- ==== Proof.KI.Halves.lean ====
/-
  The five regions' halves as proved region by region: the row-scale kernel, the three layer kernels (each point's
  body stores whole blocks computed from the input blocks, so the plain region invariant is the invariant throughout)
  and the mean kernel (its accumulator scratch is carried from point to point, entered from and given back as the plain
  region invariant).
-/
import proofs.«175313_j15590731285054_1_alg».proof.Proof.KI.Run
import proofs.«175313_j15590731285054_1_alg».proof.Proof.KI.Reg0
import proofs.«175313_j15590731285054_1_alg».proof.Proof.KI.Reg1
import proofs.«175313_j15590731285054_1_alg».proof.Proof.KI.Reg2
import proofs.«175313_j15590731285054_1_alg».proof.Proof.KI.Reg3
import proofs.«175313_j15590731285054_1_alg».proof.Proof.KI.Reg4

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F] [Named F]

/-- Region 0's half. -/
def half0 : Half0 (F := F) where
  D := fun V c => dat0 V c
  hq := fun _ _ _ => rfl
  howed := fun _ _ _ => rfl
  hrec := fun _ _ _ => rfl
  hA := fun V c w => A_eq0 V c w
  hbody := fun V c => body_obligation0 V c
  hin := fun _ _ => .rfl
  hout := fun _ _ => .rfl

/-- Region 1's half. -/
def half1 : Half1 (F := F) where
  D := fun V c => dat1 V c
  hq := fun _ _ _ => rfl
  howed := fun _ _ _ => rfl
  hrec := fun _ _ _ => rfl
  hA := fun V c w => A_eq1 V c w
  hbody := fun V c => body_obligation1 V c
  hin := fun _ _ => .rfl
  hout := fun _ _ => .rfl

/-- Region 2's half. -/
def half2 : Half2 (F := F) where
  D := fun V c => dat2 V c
  hq := fun _ _ _ => rfl
  howed := fun _ _ _ => rfl
  hrec := fun _ _ _ => rfl
  hA := fun V c w => A_eq2 V c w
  hbody := fun V c => body_obligation2 V c
  hin := fun _ _ => .rfl
  hout := fun _ _ => .rfl

/-- Region 3's half. -/
def half3 : Half3 (F := F) where
  D := fun V c => dat3 V c
  hq := fun _ _ _ => rfl
  howed := fun _ _ _ => rfl
  hrec := fun _ _ _ => rfl
  hA := fun V c w => A_eq3 V c w
  hbody := fun V c => body_obligation3 V c
  hin := fun _ _ => .rfl
  hout := fun _ _ => .rfl

/-- The mean region's half. -/
def half4 : Half4 (F := F) where
  D := fun V c => dat4 V c
  hq := fun _ _ _ => rfl
  howed := fun _ _ _ => rfl
  hrec := fun _ _ _ => rfl
  hA := fun V c w => A_eq4 V c w
  hbody := fun V c => body_obligation4 V c
  hin := fun V c => hin4 V c
  hout := fun V c => hout4 V c

end Cert.KernelIdeal.Hand

end
-- ==== Proof.KI.Frame.lean ====
/-
  The frame: every weakly fair execution of @main terminates, nothing faulting, and each of the nine argument arrays
  ends holding its launch contents — read off the run's last contents, through which every argument passes unchanged.
-/
import proofs.«175313_j15590731285054_1_alg».proof.Proof.KI.Keep
import proofs.«175313_j15590731285054_1_alg».proof.Proof.KI.Halves

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the halves proved region by region. -/
theorem run' (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W13 m half0 half1 half2 half3 half4 c b) :=
  run m half0 half1 half2 half3 half4 ρ

/-- THE FRAME, at any instance. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (W13_arg0 m half0 half1 half2 half3 half4 c),
    (h c _ (mem_uc main_arg1 (by decide))).trans (W13_arg1 m half0 half1 half2 half3 half4 c),
    (h c _ (mem_uc main_arg2 (by decide))).trans (W13_arg2 m half0 half1 half2 half3 half4 c),
    (h c _ (mem_uc main_arg3 (by decide))).trans (W13_arg3 m half0 half1 half2 half3 half4 c),
    (h c _ (mem_uc main_arg4 (by decide))).trans (W13_arg4 m half0 half1 half2 half3 half4 c),
    (h c _ (mem_uc main_arg5 (by decide))).trans (W13_arg5 m half0 half1 half2 half3 half4 c),
    (h c _ (mem_uc main_arg6 (by decide))).trans (W13_arg6 m half0 half1 half2 half3 half4 c),
    (h c _ (mem_uc main_arg7 (by decide))).trans (W13_arg7 m half0 half1 half2 half3 half4 c),
    (h c _ (mem_uc main_arg8 (by decide))).trans (W13_arg8 m half0 half1 half2 half3 half4 c)⟩)
    (run' m ρ)

end Cert.KernelIdeal.Hand

end
-- ==== Proof.KI.Glue.lean ====
/-
  The host side of the kernel program, read back. Before the first region the program counts the edges at each node
  (a scatter-add of ones into zeros, at the sources for the out-degree and at the destinations for the in-degree),
  clips the count below at 1 and raises it to the power -1/2: the two norms, kept as columns. Before each layer
  region it gathers the scaled rows at the sources (a negative index wrapped by adding the number of rows) and adds
  them up at the destinations, and recasts the layer's bias as a row. Nothing here opens a host operation: each
  buffer is its operations' composed term of the buffers it reads.
-/
import proofs.«175313_j15590731285054_1_alg».proof.Proof.KI.Keep

set_option maxRecDepth 16384
-- a buffer's type is read off the signature's table of 131 references: the later the reference, the longer the look-up
set_option maxHeartbeats 2000000

noncomputable section

namespace Cert.KernelIdeal.Hand

open Cert.KernelIdeal Cert.KernelIdeal.Gen
open Idealize.ShloMosaic Idealize.ShloMosaic.TcCoe
open Idealize.SL Idealize.SL.Sem Idealize.ShloMosaic.StableHlo

variable {F : FTy → Type} [FloatOps F] [Named F]

/-- clip(segment_sum(1, idx), 1)^(-1/2) as the program's host operations. -/
def normK (idx : (⟨S800000, .i32⟩ : BufTy).Contents (Elt F)) : (⟨S100000, .f32⟩ : BufTy).Contents (Elt F) :=
  Host.powf
    (maximumf
      (broadcastInDim S100000 ![] bcast_S_S100000 (id (constant (F := F) S_ .f32 0x3F800000#32)))
      (Host.scatterAdd scatter_S100000_S800000x1_S800000_n_0_0_1
        (broadcastInDim S100000 ![] bcast_S_S100000 (constant (F := F) S_ .f32 0x00000000#32))
        (broadcastInDim S800000x1 ![0] bcast_S800000_S800000x1_0 idx)
        (broadcastInDim S800000 ![] bcast_S_S800000 (constant (F := F) S_ .f32 0x3F800000#32))))
    (broadcastInDim S100000 ![] bcast_S_S100000 (constant (F := F) S_ .f32 0xBF000000#32))

/-- segment_sum(S[src], dst) as the program's host operations. -/
def aggK (S : (⟨S100000x128, .f32⟩ : BufTy).Contents (Elt F)) (src dst : (⟨S800000, .i32⟩ : BufTy).Contents (Elt F)) :
    (⟨S100000x128, .f32⟩ : BufTy).Contents (Elt F) :=
  Host.scatterAdd scatter_S100000x128_S800000x1_S800000x128_1_0_0_1
    (broadcastInDim S100000x128 ![] bcast_S_S100000x128 (constant (F := F) S_ .f32 0x00000000#32))
    (broadcastInDim S800000x1 ![0] bcast_S800000_S800000x1_0 dst)
    (Host.gather gather_S100000x128_S800000x1_S800000x128_1_0_n_n_0_1_1128 S
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32)))
          src)))

variable (m : (ℓ : Loc nD τ sig) → Buf (Elt F) ℓ)
variable (h0 : Half0 (F := F)) (h1 : Half1 (F := F)) (h2 : Half2 (F := F)) (h3 : Half3 (F := F)) (h4 : Half4 (F := F))

/-! ## The norms -/

theorem W1_v3 (c : Dev nD) : W1 m c (Proc.devRef .tc main_v3)
    = Host.scatterAdd scatter_S100000_S800000x1_S800000_n_0_0_1
        (broadcastInDim S100000 ![] bcast_S_S100000 (constant (F := F) S_ .f32 0x00000000#32))
        (broadcastInDim S800000x1 ![0] bcast_S800000_S800000x1_0 (m ((c : Thread nD τ).loc main_arg1)))
        (broadcastInDim S800000 ![] bcast_S_S800000 (constant (F := F) S_ .f32 0x3F800000#32)) := by
  unfold W1; after_results <;> rfl
theorem W1_v6 (c : Dev nD) : W1 m c (Proc.devRef .tc main_v6)
    = Host.scatterAdd scatter_S100000_S800000x1_S800000_n_0_0_1
        (broadcastInDim S100000 ![] bcast_S_S100000 (constant (F := F) S_ .f32 0x00000000#32))
        (broadcastInDim S800000x1 ![0] bcast_S800000_S800000x1_0 (m ((c : Thread nD τ).loc main_arg2)))
        (broadcastInDim S800000 ![] bcast_S_S800000 (constant (F := F) S_ .f32 0x3F800000#32)) := by
  unfold W1; after_results <;> rfl
theorem W1_cst2 (c : Dev nD) : W1 m c (Proc.devRef .tc main_cst_2) = constant (F := F) S_ .f32 0x3F800000#32 := by
  unfold W1; after_results <;> rfl
theorem W2_v7 (c : Dev nD) : W2 m c (Proc.devRef .tc main_v7)
    = maximumf (broadcastInDim S100000 ![] bcast_S_S100000 (id (W1 m c (Proc.devRef .tc main_cst_2)))) (W1 m c (Proc.devRef .tc main_v3)) := by
  unfold W2; after_results <;> rfl
theorem W3_v9 (c : Dev nD) : W3 m c (Proc.devRef .tc main_v9)
    = Host.powf (W2 m c (Proc.devRef .tc main_v7)) (broadcastInDim S100000 ![] bcast_S_S100000 (constant (F := F) S_ .f32 0xBF000000#32)) := by
  unfold W3; after_results <;> rfl
theorem W3_cst4 (c : Dev nD) : W3 m c (Proc.devRef .tc main_cst_4) = constant (F := F) S_ .f32 0x3F800000#32 := by
  unfold W3; after_results <;> rfl
theorem W4_v10 (c : Dev nD) : W4 m c (Proc.devRef .tc main_v10)
    = maximumf (broadcastInDim S100000 ![] bcast_S_S100000 (id (W3 m c (Proc.devRef .tc main_cst_4)))) (W3 m c (Proc.devRef .tc main_v6)) := by
  unfold W4; after_results <;> rfl
theorem W5_v13' (c : Dev nD) : W5 m c (Proc.devRef .tc main_v13)
    = shapeCast S100000x1 (W4 m c (Proc.devRef .tc main_v9)) shapeCasts_S100000_S100000x1 := by
  unfold W5; after_results <;> rfl
theorem W5_v14' (c : Dev nD) : W5 m c (Proc.devRef .tc main_v14)
    = shapeCast S100000x1 (Host.powf (W4 m c (Proc.devRef .tc main_v10)) (broadcastInDim S100000 ![] bcast_S_S100000 (constant (F := F) S_ .f32 0xBF000000#32))) shapeCasts_S100000_S100000x1 := by
  unfold W5; after_results <;> rfl

/-- The out-degree norm, as a column. -/
theorem W5_v13 (c : Dev nD) : W5 m c (Proc.devRef .tc main_v13)
    = shapeCast S100000x1 (normK (m ((c : Thread nD τ).loc main_arg1))) shapeCasts_S100000_S100000x1 := by
  rw [W5_v13', W4_of m c main_v9 (by decide), W3_v9, W2_v7, W1_cst2, W1_v3]; rfl
/-- The in-degree norm, as a column. -/
theorem W5_v14 (c : Dev nD) : W5 m c (Proc.devRef .tc main_v14)
    = shapeCast S100000x1 (normK (m ((c : Thread nD τ).loc main_arg2))) shapeCasts_S100000_S100000x1 := by
  rw [W5_v14', W4_v10, W3_cst4, W3_of m c main_v6 (by decide), W2_of m c main_v6 (by decide), W1_v6]; rfl

/-! ## The aggregate and the bias row before each layer region -/

theorem W7_agg (c : Dev nD) : W7 m h0 c (Proc.devRef .tc main_v25)
    = aggK (W6 m h0 c (Proc.devRef .tc main_v15)) (W6 m h0 c (Proc.devRef .tc main_arg1)) (W6 m h0 c (Proc.devRef .tc main_arg2)) := by
  unfold W7; generalize W6 m h0 c = V; after_results <;> rfl
theorem W7_bias (c : Dev nD) : W7 m h0 c (Proc.devRef .tc main_v26)
    = shapeCast S1x128 (W6 m h0 c (Proc.devRef .tc main_arg4)) shapeCasts_S128_S1x128 := by
  unfold W7; generalize W6 m h0 c = V; after_results <;> rfl

theorem W9_agg (c : Dev nD) : W9 m h0 h1 c (Proc.devRef .tc main_v37)
    = aggK (W8 m h0 h1 c (Proc.devRef .tc main_v27_1)) (W8 m h0 h1 c (Proc.devRef .tc main_arg1)) (W8 m h0 h1 c (Proc.devRef .tc main_arg2)) := by
  unfold W9; generalize W8 m h0 h1 c = V; after_results <;> rfl
theorem W9_bias (c : Dev nD) : W9 m h0 h1 c (Proc.devRef .tc main_v38)
    = shapeCast S1x128 (W8 m h0 h1 c (Proc.devRef .tc main_arg6)) shapeCasts_S128_S1x128 := by
  unfold W9; generalize W8 m h0 h1 c = V; after_results <;> rfl

theorem W11_agg (c : Dev nD) : W11 m h0 h1 h2 c (Proc.devRef .tc main_v49)
    = aggK (W10 m h0 h1 h2 c (Proc.devRef .tc main_v39_1)) (W10 m h0 h1 h2 c (Proc.devRef .tc main_arg1)) (W10 m h0 h1 h2 c (Proc.devRef .tc main_arg2)) := by
  unfold W11; generalize W10 m h0 h1 h2 c = V; after_results <;> rfl
theorem W11_bias (c : Dev nD) : W11 m h0 h1 h2 c (Proc.devRef .tc main_v50)
    = shapeCast S1x128 (W10 m h0 h1 h2 c (Proc.devRef .tc main_arg8)) shapeCasts_S128_S1x128 := by
  unfold W11; generalize W10 m h0 h1 h2 c = V; after_results <;> rfl

end Cert.KernelIdeal.Hand

end
-- ==== Proof.KI.KSpec.lean ====
import proofs.«175313_j15590731285054_1_alg».proof.KernelIdeal
import Idealize.ShloMosaic.PureOps.Ideal
import Idealize.ShloMosaic.Lib.ValueIdx

noncomputable section

namespace Cert.KernelIdeal.Hand

open Cert.KernelIdeal Idealize.ShloMosaic Idealize.ShloMosaic.ValueIdx

/-! # What the four row-blocked kernels compute, index by index, over the extended reals

Arrays are plain functions of their indices. `scale2` multiplies each row of a 100000×128 array by that row's entry
of a 100000×1 column. `layerH2` is one dense layer on rows: every row of `a` is first scaled by its entry of the
column `nin2`, then multiplied by the 128×128 matrix `W`, the bias row `b2` is added, and the result is clamped below
at zero. -/

/-- Row scaling: entry `(r, j)` of `x` times entry `(r, 0)` of the column `n2`. -/
def scale2 (x : S100000x128.Idx → EReal) (n2 : S100000x1.Idx → EReal) : S100000x128.Idx → EReal :=
  fun i => x i * n2 (ix2 (n0 := 100000) (n1 := 1) (i 0) 0)

/-- A dense layer on scaled rows: entry `(r, j)` is `max (∑ k, (a (r, k) · nin2 (r, 0)) · W (k, j) + b2 (0, j)) 0`. -/
def layerH2 (a : S100000x128.Idx → EReal) (nin2 : S100000x1.Idx → EReal) (W : S128x128.Idx → EReal) (b2 : S1x128.Idx → EReal) :
    S100000x128.Idx → EReal :=
  fun i => max ((∑ k : Fin 128, (a (ix2 (n0 := 100000) (n1 := 128) (i 0) k) * nin2 (ix2 (n0 := 100000) (n1 := 1) (i 0) 0))
      * W (ix2 (n0 := 128) (n1 := 128) k (i 1))) + b2 (ix2 (n0 := 1) (n1 := 128) 0 (i 1))) (Ideal.ofBits .f32 0x00000000#32)

/-- `scale2` read at explicit coordinates. -/
theorem scale2_at (x : S100000x128.Idx → EReal) (n2 : S100000x1.Idx → EReal) (r : Fin 100000) (j : Fin 128) :
    scale2 x n2 (ix2 r j) = x (ix2 r j) * n2 (ix2 r 0) := rfl

/-- `layerH2` read at explicit coordinates. -/
theorem layerH2_at (a : S100000x128.Idx → EReal) (nin2 : S100000x1.Idx → EReal) (W : S128x128.Idx → EReal) (b2 : S1x128.Idx → EReal)
    (r : Fin 100000) (j : Fin 128) :
    layerH2 a nin2 W b2 (ix2 r j)
      = max ((∑ k : Fin 128, (a (ix2 r k) * nin2 (ix2 r 0)) * W (ix2 k j)) + b2 (ix2 0 j)) (Ideal.ofBits .f32 0x00000000#32) := rfl

end Cert.KernelIdeal.Hand

end
-- ==== Proof.KI.PayAt.lean ====
import proofs.«175313_j15590731285054_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-! # The kernels' stored values at an index, over the extended reals

Each kernel stores one or two 2000×128 blocks per grid point. Here each stored block is read at an entry `(p, q)`
as an expression in the entries of the blocks the kernel loaded. -/

/-! ## Layout operations at an entry -/

/-- The zero offsets of a rectangle that is a whole rank-2 buffer. -/
theorem offs_zero : (![0, 0] : Fin 2 → Nat) = fun _ => 0 := funext fun a => by fin_cases a <;> rfl

/-- A 2000×1 column broadcast along the lanes to 2000×128 reads, at `(p, q)`, the column's entry `(p, 0)`. -/
theorem bcast_col_at {α : Type} (x : S2000x1.Idx → α) (h : S2000x1.Broadcasts S2000x128) (p : Fin 2000) (q : Fin 128) :
    broadcastTo S2000x128 x h (ix2 p q) = x (ix2 p 0) :=
  broadcastTo_apply x h (ix2 p q) (ix2 p 0) (fun a => match a with
    | ⟨0, _⟩ => by show p.val = if (2000 : Nat) = 1 then 0 else p.val; rw [if_neg (by decide)]
    | ⟨1, _⟩ => by show (0 : Nat) = if (1 : Nat) = 1 then 0 else q.val; rw [if_pos rfl])

/-- A 1×128 row broadcast along the rows to 2000×128 reads, at `(p, q)`, the row's entry `(0, q)`. -/
theorem bcast_row_at {α : Type} (x : S1x128.Idx → α) (h : S1x128.Broadcasts S2000x128) (p : Fin 2000) (q : Fin 128) :
    broadcastTo S2000x128 x h (ix2 p q) = x (ix2 0 q) :=
  broadcastTo_apply x h (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-! ## The 2000×128 by 128×128 product at an entry -/

/-- In the product's dimension record the left operand's row coordinate is the output's row, -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- its column coordinate is the contraction index, -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand's row coordinate is the contraction index, -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- and its column coordinate is the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- So the product into a zero accumulator, at entry `(p, q)`, is `∑ k, a (p, k) · b (k, q)`, at any element formats of
    the operands. -/
theorem matmul_at {φ₁ φ₂ : FTy} (a : FVec Ideal S2000x128 φ₁) (b : FVec Ideal S128x128 φ₂) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  refine (Ideal.matmul_constant_zero_apply dot_S2000x128_S128x128_S2000x128_1_0_0_1_n_n none a b (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The stored values -/

/-- The scaling kernel's payload at entry `(p, q)`: the loaded rows block there times the factor column's entry `(p, 0)`. -/
theorem pay0_at (v0 : Vec Ideal S2000x1 .f32) (v4 : Vec Ideal S2000x128 .f32) (p : Fin 2000) (q : Fin 128) :
    k0_pay1 v0 v4 (ix2 p q) = v4 (ix2 p q) * v0 (ix2 p 0) := by
  unfold k0_pay1
  simp only [shapeCast_self]
  refine (mulf_apply _ _ (ix2 p q)).trans ?_
  refine congrArg₂ (· * ·) rfl (bcast_col_at v0 _ p q)

/-- The first output's payload of layer kernel 1 at entry `(p, q)`: the row `p` of the loaded block `v4`, scaled by the factor
    `v0 (p, 0)`, times column `q` of the weights `v8`, plus the bias `v11 (0, q)`, clamped below at zero. Rounding to
    bfloat16 before the product is the identity on extended reals, and the product into a zero accumulator is the plain sum. -/
theorem pay1_1_at (v0 : Vec Ideal S2000x1 .f32) (v4 : Vec Ideal S2000x128 .f32) (v8 : Vec Ideal S128x128 .f32) (v11 : Vec Ideal S1x128 .f32)
    (p : Fin 2000) (q : Fin 128) :
    k1_pay1 v0 v4 v8 v11 (ix2 p q)
      = max ((∑ k : Fin 128, (v4 (ix2 p k) * v0 (ix2 p 0)) * v8 (ix2 k q)) + v11 (ix2 0 q)) (Ideal.ofBits .f32 0x00000000#32) := by
  unfold k1_pay1
  simp only [shapeCast_self]
  refine (maximumf_apply _ _ (ix2 p q)).trans ?_
  refine congrArg₂ max ?_ rfl
  refine (addf_apply _ _ (ix2 p q)).trans ?_
  refine congrArg₂ (· + ·) ?_ (bcast_row_at v11 _ p q)
  refine (matmul_at _ _ p q).trans ?_
  refine Finset.sum_congr rfl fun k _ => ?_
  refine congrArg₂ (· * ·) ?_ rfl
  show v4 (ix2 p k) * broadcastTo S2000x128 v0 _ (ix2 p k) = _
  rw [bcast_col_at v0 _ p k]

/-- The second output's payload of layer kernel 1 at entry `(p, q)`: the first output's payload there times the
    second factor column's entry `v19 (p, 0)`. -/
theorem pay1_2_at (v0 : Vec Ideal S2000x1 .f32) (v4 : Vec Ideal S2000x128 .f32) (v8 : Vec Ideal S128x128 .f32) (v11 : Vec Ideal S1x128 .f32)
    (v19 : Vec Ideal S2000x1 .f32) (p : Fin 2000) (q : Fin 128) :
    k1_pay2 v0 v4 v8 v11 v19 (ix2 p q) = k1_pay1 v0 v4 v8 v11 (ix2 p q) * v19 (ix2 p 0) := by
  unfold k1_pay2
  simp only [shapeCast_self]
  refine (mulf_apply _ _ (ix2 p q)).trans ?_
  refine congrArg₂ (· * ·) rfl (bcast_col_at v19 _ p q)

/-- The first output's payload of layer kernel 2 at entry `(p, q)`: the row `p` of the loaded block `v4`, scaled by the factor
    `v0 (p, 0)`, times column `q` of the weights `v8`, plus the bias `v11 (0, q)`, clamped below at zero. Rounding to
    bfloat16 before the product is the identity on extended reals, and the product into a zero accumulator is the plain sum. -/
theorem pay2_1_at (v0 : Vec Ideal S2000x1 .f32) (v4 : Vec Ideal S2000x128 .f32) (v8 : Vec Ideal S128x128 .f32) (v11 : Vec Ideal S1x128 .f32)
    (p : Fin 2000) (q : Fin 128) :
    k2_pay1 v0 v4 v8 v11 (ix2 p q)
      = max ((∑ k : Fin 128, (v4 (ix2 p k) * v0 (ix2 p 0)) * v8 (ix2 k q)) + v11 (ix2 0 q)) (Ideal.ofBits .f32 0x00000000#32) := by
  unfold k2_pay1
  simp only [shapeCast_self]
  refine (maximumf_apply _ _ (ix2 p q)).trans ?_
  refine congrArg₂ max ?_ rfl
  refine (addf_apply _ _ (ix2 p q)).trans ?_
  refine congrArg₂ (· + ·) ?_ (bcast_row_at v11 _ p q)
  refine (matmul_at _ _ p q).trans ?_
  refine Finset.sum_congr rfl fun k _ => ?_
  refine congrArg₂ (· * ·) ?_ rfl
  show v4 (ix2 p k) * broadcastTo S2000x128 v0 _ (ix2 p k) = _
  rw [bcast_col_at v0 _ p k]

/-- The second output's payload of layer kernel 2 at entry `(p, q)`: the first output's payload there times the
    second factor column's entry `v19 (p, 0)`. -/
theorem pay2_2_at (v0 : Vec Ideal S2000x1 .f32) (v4 : Vec Ideal S2000x128 .f32) (v8 : Vec Ideal S128x128 .f32) (v11 : Vec Ideal S1x128 .f32)
    (v19 : Vec Ideal S2000x1 .f32) (p : Fin 2000) (q : Fin 128) :
    k2_pay2 v0 v4 v8 v11 v19 (ix2 p q) = k2_pay1 v0 v4 v8 v11 (ix2 p q) * v19 (ix2 p 0) := by
  unfold k2_pay2
  simp only [shapeCast_self]
  refine (mulf_apply _ _ (ix2 p q)).trans ?_
  refine congrArg₂ (· * ·) rfl (bcast_col_at v19 _ p q)

/-- The first output's payload of layer kernel 3 at entry `(p, q)`: the row `p` of the loaded block `v4`, scaled by the factor
    `v0 (p, 0)`, times column `q` of the weights `v8`, plus the bias `v11 (0, q)`, clamped below at zero. Rounding to
    bfloat16 before the product is the identity on extended reals, and the product into a zero accumulator is the plain sum. -/
theorem pay3_1_at (v0 : Vec Ideal S2000x1 .f32) (v4 : Vec Ideal S2000x128 .f32) (v8 : Vec Ideal S128x128 .f32) (v11 : Vec Ideal S1x128 .f32)
    (p : Fin 2000) (q : Fin 128) :
    k3_pay1 v0 v4 v8 v11 (ix2 p q)
      = max ((∑ k : Fin 128, (v4 (ix2 p k) * v0 (ix2 p 0)) * v8 (ix2 k q)) + v11 (ix2 0 q)) (Ideal.ofBits .f32 0x00000000#32) := by
  unfold k3_pay1
  simp only [shapeCast_self]
  refine (maximumf_apply _ _ (ix2 p q)).trans ?_
  refine congrArg₂ max ?_ rfl
  refine (addf_apply _ _ (ix2 p q)).trans ?_
  refine congrArg₂ (· + ·) ?_ (bcast_row_at v11 _ p q)
  refine (matmul_at _ _ p q).trans ?_
  refine Finset.sum_congr rfl fun k _ => ?_
  refine congrArg₂ (· * ·) ?_ rfl
  show v4 (ix2 p k) * broadcastTo S2000x128 v0 _ (ix2 p k) = _
  rw [bcast_col_at v0 _ p k]

/-- The second output's payload of layer kernel 3 at entry `(p, q)`: the first output's payload there times the
    second factor column's entry `v19 (p, 0)`. -/
theorem pay3_2_at (v0 : Vec Ideal S2000x1 .f32) (v4 : Vec Ideal S2000x128 .f32) (v8 : Vec Ideal S128x128 .f32) (v11 : Vec Ideal S1x128 .f32)
    (v19 : Vec Ideal S2000x1 .f32) (p : Fin 2000) (q : Fin 128) :
    k3_pay2 v0 v4 v8 v11 v19 (ix2 p q) = k3_pay1 v0 v4 v8 v11 (ix2 p q) * v19 (ix2 p 0) := by
  unfold k3_pay2
  simp only [shapeCast_self]
  refine (mulf_apply _ _ (ix2 p q)).trans ?_
  refine congrArg₂ (· * ·) rfl (bcast_col_at v19 _ p q)

end Cert.KernelIdeal.Hand

end
-- ==== Proof.KI.Val0.lean ====
import proofs.«175313_j15590731285054_1_alg».proof.Proof.KI.Reg0
import proofs.«175313_j15590731285054_1_alg».proof.Proof.KI.KSpec
import proofs.«175313_j15590731285054_1_alg».proof.Proof.KI.PayAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- what the TensorCore's buffers hold when the region is entered, over the extended reals
variable (V : (c : Dev nD) → (b : Ref sig .tc) → Buf (Elt Ideal) ((c : Thread nD τ).loc b))

/-! # Region 0's output array over the extended reals: the rows of the input scaled by the factor column -/

/-- The windows' block indices, decided over the 50 grid points: each of the two input windows is at row block `t`,
    column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- And so is the output window. -/
theorem idx_out0 : ∀ t : Fin cfg0.N, win0_2.index t (0 : Fin 2) = t.val ∧ win0_2.index t (1 : Fin 2) = 0 :=
  (by decide +kernel : ∀ t : Fin grid0.N, _)

/-- Window 0's block at grid point `t` holds rows `2000·t … 2000·t + 1999` of its array: entry `(p, q)` of the block is
    entry `(2000·t + p, q)` of the array. -/
theorem iblk0_0_at (c : Dev nD) (t : Fin cfg0.N) (p : Fin 2000) (q : Fin 128) (r : Fin 100000) (hr : r.val = 2000 * t.val + p.val) :
    (iblk0 V c 0 t : Vec Ideal S2000x128 .f32) (ix2 p q) = (V c main_arg0 : S100000x128.Idx → EReal) (ix2 r q) := by
  have e0 : win0_0.index t (0 : Fin 2) = t.val := (idx_facts0 t).1
  have e1 : win0_0.index t (1 : Fin 2) = 0 := (idx_facts0 t).2.1
  unfold iblk0
  rw [View.read_apply]
  show (V c main_arg0 : S100000x128.Idx → EReal) _ = (V c main_arg0 : S100000x128.Idx → EReal) _
  refine congrArg (V c main_arg0 : S100000x128.Idx → EReal) (funext fun a => Fin.ext ?_)
  match a with
  | ⟨0, _⟩ => show win0_0.index t (0 : Fin 2) * 2000 + 1 * p.val = r.val; omega
  | ⟨1, _⟩ => show win0_0.index t (1 : Fin 2) * 128 + 1 * q.val = q.val; omega

/-- Window 1's block at grid point `t` holds rows `2000·t … 2000·t + 1999` of its array: entry `(p, 0)` of the block is
    entry `(2000·t + p, 0)` of the array. -/
theorem iblk0_1_at (c : Dev nD) (t : Fin cfg0.N) (p : Fin 2000) (r : Fin 100000) (hr : r.val = 2000 * t.val + p.val) :
    (iblk0 V c 1 t : Vec Ideal S2000x1 .f32) (ix2 p 0) = (V c main_v13 : S100000x1.Idx → EReal) (ix2 r 0) := by
  have e0 : win0_1.index t (0 : Fin 2) = t.val := (idx_facts0 t).2.2.1
  have e1 : win0_1.index t (1 : Fin 2) = 0 := (idx_facts0 t).2.2.2
  unfold iblk0
  rw [View.read_apply]
  show (V c main_v13 : S100000x1.Idx → EReal) _ = (V c main_v13 : S100000x1.Idx → EReal) _
  refine congrArg (V c main_v13 : S100000x1.Idx → EReal) (funext fun a => Fin.ext ?_)
  match a with
  | ⟨0, _⟩ => show win0_1.index t (0 : Fin 2) * 2000 + 1 * p.val = r.val; omega
  | ⟨1, _⟩ => show win0_1.index t (1 : Fin 2) * 1 + 1 * 0 = 0; omega

/-- Where output window 2's block at point `t` sits in its array: entry `(p, q)` of the block is entry `(2000·t + p, q)`. -/
theorem emb0_2 (t : Fin cfg0.N) (p : Fin 2000) (q : Fin 128) (r : Fin 100000) (hr : r.val = 2000 * t.val + p.val) :
    ((cfg0.win 2).blk t).view.emb (ix2 p q) = ix2 r q := by
  have e0 : win0_2.index t (0 : Fin 2) = t.val := (idx_out0 t).1
  have e1 : win0_2.index t (1 : Fin 2) = 0 := (idx_out0 t).2
  funext a; apply Fin.ext
  match a with
  | ⟨0, _⟩ => show win0_2.index t (0 : Fin 2) * 2000 + 1 * p.val = r.val; omega
  | ⟨1, _⟩ => show win0_2.index t (1 : Fin 2) * 128 + 1 * q.val = q.val; omega

/-- An index of the array lies in point `t`'s block of window 2 iff each coordinate lies in the block's range. -/
theorem mem_blk0_2 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v15).slice (win0_2.rect t)).set ↔ _
  rw [View.set_slice_whole, Rect.mem_set_unit]
  exact Iff.rfl

/-- Every index of window 2's array is written back by some grid point: row `r` by point `r / 2000`. -/
theorem covered0_2 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 50) N_0.symm⟩, rfl⟩
  have e0 : win0_2.index t (0 : Fin 2) = t.val := (idx_out0 t).1
  have e1 : win0_2.index t (1 : Fin 2) = 0 := (idx_out0 t).2
  refine ⟨t, flush0_2 t, ?_⟩
  rw [mem_blk0_2]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- What grid point `t` writes back to the output array is block `t` of the row-scaled input. -/
theorem flushed0_2_eq (c : Dev nD) (t : Fin cfg0.N) :
    (dat0 (F := Ideal) V c).flushed 2 t
      = ((cfg0.win 2).blk t).view.read (Elt Ideal) (scale2 (V c main_arg0) (V c main_v13)) := by
  show (cfg0.win 2).cut (grid0.coords t) ((dat0 V c).after 2 t) = _
  rw [after0_2]
  unfold out0_2
  rw [View.canon_unit_zero offs_zero]
  simp only [View.ld_unit_zero (S := S2000x128) offs_zero, View.ld_unit_zero (S := S2000x1) offs_zero]
  funext j
  obtain ⟨p, q, rfl⟩ : ∃ (p : Fin 2000) (q : Fin 128), j = ix2 p q := ⟨j 0, j 1, eq_ix2 j⟩
  have ht : t.val < 50 := lt_of_lt_of_eq t.isLt N_0
  have hr : 2000 * t.val + p.val < 100000 := by have := p.isLt; omega
  show k0_pay1 (iblk0 V c 1 t) (iblk0 V c 0 t) (ix2 p q)
    = scale2 (V c main_arg0) (V c main_v13) (((cfg0.win 2).blk t).view.emb (ix2 p q))
  rw [emb0_2 t p q ⟨_, hr⟩ rfl, scale2_at]
  refine (pay0_at (iblk0 V c 1 t) (iblk0 V c 0 t) p q).trans ?_
  exact congrArg₂ (· * ·) (iblk0_0_at V c t p q ⟨_, hr⟩ rfl) (iblk0_1_at V c t p ⟨_, hr⟩ rfl)

/-- The output array after the region: every row of the input scaled by its factor. -/
theorem arr0_2 (c : Dev nD) : (dat0 (F := Ideal) V c).arrAt 2 cfg0.N = scale2 (V c main_arg0) (V c main_v13) :=
  (dat0 V c).arrAt_eq_of_cover 2 (scale2 (V c main_arg0) (V c main_v13)) (fun t _ => flushed0_2_eq V c t) covered0_2

end Cert.KernelIdeal.Hand

end
-- ==== Proof.KI.Val1.lean ====
import proofs.«175313_j15590731285054_1_alg».proof.Proof.KI.Reg1
import proofs.«175313_j15590731285054_1_alg».proof.Proof.KI.KSpec
import proofs.«175313_j15590731285054_1_alg».proof.Proof.KI.PayAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- what the TensorCore's buffers hold when the region is entered, over the extended reals
variable (V : (c : Dev nD) → (b : Ref sig .tc) → Buf (Elt Ideal) ((c : Thread nD τ).loc b))

/-! # Region 1's two output arrays over the extended reals

The first is the dense layer of the scaled input rows; the second is the first scaled row by row by the other factor column. -/

/-- The input windows' block indices, decided over the 50 grid points: the three row-blocked windows are at row block
    `t`, column block 0; the weights and the bias row are at block (0, 0) throughout. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The two output windows are at row block `t`, column block 0. -/
theorem idx_out1 : ∀ t : Fin cfg1.N, win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Window 0's block at grid point `t` holds rows `2000·t … 2000·t + 1999` of its array: entry `(p, q)` of the block is
    entry `(2000·t + p, q)` of the array. -/
theorem iblk1_0_at (c : Dev nD) (t : Fin cfg1.N) (p : Fin 2000) (q : Fin 128) (r : Fin 100000) (hr : r.val = 2000 * t.val + p.val) :
    (iblk1 V c 0 t : Vec Ideal S2000x128 .f32) (ix2 p q) = (V c main_v25 : S100000x128.Idx → EReal) (ix2 r q) := by
  have e0 : win1_0.index t (0 : Fin 2) = t.val := (idx_facts1 t).1
  have e1 : win1_0.index t (1 : Fin 2) = 0 := (idx_facts1 t).2.1
  unfold iblk1
  rw [View.read_apply]
  show (V c main_v25 : S100000x128.Idx → EReal) _ = (V c main_v25 : S100000x128.Idx → EReal) _
  refine congrArg (V c main_v25 : S100000x128.Idx → EReal) (funext fun a => Fin.ext ?_)
  match a with
  | ⟨0, _⟩ => show win1_0.index t (0 : Fin 2) * 2000 + 1 * p.val = r.val; omega
  | ⟨1, _⟩ => show win1_0.index t (1 : Fin 2) * 128 + 1 * q.val = q.val; omega

/-- Window 1's block at grid point `t` holds rows `2000·t … 2000·t + 1999` of its array: entry `(p, 0)` of the block is
    entry `(2000·t + p, 0)` of the array. -/
theorem iblk1_1_at (c : Dev nD) (t : Fin cfg1.N) (p : Fin 2000) (r : Fin 100000) (hr : r.val = 2000 * t.val + p.val) :
    (iblk1 V c 1 t : Vec Ideal S2000x1 .f32) (ix2 p 0) = (V c main_v14 : S100000x1.Idx → EReal) (ix2 r 0) := by
  have e0 : win1_1.index t (0 : Fin 2) = t.val := (idx_facts1 t).2.2.1
  have e1 : win1_1.index t (1 : Fin 2) = 0 := (idx_facts1 t).2.2.2.1
  unfold iblk1
  rw [View.read_apply]
  show (V c main_v14 : S100000x1.Idx → EReal) _ = (V c main_v14 : S100000x1.Idx → EReal) _
  refine congrArg (V c main_v14 : S100000x1.Idx → EReal) (funext fun a => Fin.ext ?_)
  match a with
  | ⟨0, _⟩ => show win1_1.index t (0 : Fin 2) * 2000 + 1 * p.val = r.val; omega
  | ⟨1, _⟩ => show win1_1.index t (1 : Fin 2) * 1 + 1 * 0 = 0; omega

/-- Window 2's block at grid point `t` holds rows `2000·t … 2000·t + 1999` of its array: entry `(p, 0)` of the block is
    entry `(2000·t + p, 0)` of the array. -/
theorem iblk1_2_at (c : Dev nD) (t : Fin cfg1.N) (p : Fin 2000) (r : Fin 100000) (hr : r.val = 2000 * t.val + p.val) :
    (iblk1 V c 2 t : Vec Ideal S2000x1 .f32) (ix2 p 0) = (V c main_v13 : S100000x1.Idx → EReal) (ix2 r 0) := by
  have e0 : win1_2.index t (0 : Fin 2) = t.val := (idx_facts1 t).2.2.2.2.1
  have e1 : win1_2.index t (1 : Fin 2) = 0 := (idx_facts1 t).2.2.2.2.2.1
  unfold iblk1
  rw [View.read_apply]
  show (V c main_v13 : S100000x1.Idx → EReal) _ = (V c main_v13 : S100000x1.Idx → EReal) _
  refine congrArg (V c main_v13 : S100000x1.Idx → EReal) (funext fun a => Fin.ext ?_)
  match a with
  | ⟨0, _⟩ => show win1_2.index t (0 : Fin 2) * 2000 + 1 * p.val = r.val; omega
  | ⟨1, _⟩ => show win1_2.index t (1 : Fin 2) * 1 + 1 * 0 = 0; omega

/-- Window 3 is the whole weight matrix at every grid point: its block is the whole array. -/
theorem iblk1_3_at (c : Dev nD) (t : Fin cfg1.N) (k q : Fin 128) :
    (iblk1 V c 3 t : Vec Ideal S128x128 .f32) (ix2 k q) = (V c main_arg3 : S128x128.Idx → EReal) (ix2 k q) := by
  have e0 : win1_3.index t (0 : Fin 2) = 0 := (idx_facts1 t).2.2.2.2.2.2.1
  have e1 : win1_3.index t (1 : Fin 2) = 0 := (idx_facts1 t).2.2.2.2.2.2.2.1
  unfold iblk1
  rw [View.read_apply]
  show (V c main_arg3 : S128x128.Idx → EReal) _ = (V c main_arg3 : S128x128.Idx → EReal) _
  refine congrArg (V c main_arg3 : S128x128.Idx → EReal) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- Window 4 is the whole bias row at every grid point: its block is the whole array. -/
theorem iblk1_4_at (c : Dev nD) (t : Fin cfg1.N) (q : Fin 128) :
    (iblk1 V c 4 t : Vec Ideal S1x128 .f32) (ix2 0 q) = (V c main_v26 : S1x128.Idx → EReal) (ix2 0 q) := by
  have e0 : win1_4.index t (0 : Fin 2) = 0 := (idx_facts1 t).2.2.2.2.2.2.2.2.1
  have e1 : win1_4.index t (1 : Fin 2) = 0 := (idx_facts1 t).2.2.2.2.2.2.2.2.2
  unfold iblk1
  rw [View.read_apply]
  show (V c main_v26 : S1x128.Idx → EReal) _ = (V c main_v26 : S1x128.Idx → EReal) _
  refine congrArg (V c main_v26 : S1x128.Idx → EReal) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- Where output window 5's block at point `t` sits in its array: entry `(p, q)` of the block is entry `(2000·t + p, q)`. -/
theorem emb1_5 (t : Fin cfg1.N) (p : Fin 2000) (q : Fin 128) (r : Fin 100000) (hr : r.val = 2000 * t.val + p.val) :
    ((cfg1.win 5).blk t).view.emb (ix2 p q) = ix2 r q := by
  have e0 : win1_5.index t (0 : Fin 2) = t.val := (idx_out1 t).1
  have e1 : win1_5.index t (1 : Fin 2) = 0 := (idx_out1 t).2.1
  funext a; apply Fin.ext
  match a with
  | ⟨0, _⟩ => show win1_5.index t (0 : Fin 2) * 2000 + 1 * p.val = r.val; omega
  | ⟨1, _⟩ => show win1_5.index t (1 : Fin 2) * 128 + 1 * q.val = q.val; omega

/-- An index of the array lies in point `t`'s block of window 5 iff each coordinate lies in the block's range. -/
theorem mem_blk1_5 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v27_0).slice (win1_5.rect t)).set ↔ _
  rw [View.set_slice_whole, Rect.mem_set_unit]
  exact Iff.rfl

/-- Every index of window 5's array is written back by some grid point: row `r` by point `r / 2000`. -/
theorem covered1_5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 50) N_1.symm⟩, rfl⟩
  have e0 : win1_5.index t (0 : Fin 2) = t.val := (idx_out1 t).1
  have e1 : win1_5.index t (1 : Fin 2) = 0 := (idx_out1 t).2.1
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- Where output window 6's block at point `t` sits in its array: entry `(p, q)` of the block is entry `(2000·t + p, q)`. -/
theorem emb1_6 (t : Fin cfg1.N) (p : Fin 2000) (q : Fin 128) (r : Fin 100000) (hr : r.val = 2000 * t.val + p.val) :
    ((cfg1.win 6).blk t).view.emb (ix2 p q) = ix2 r q := by
  have e0 : win1_6.index t (0 : Fin 2) = t.val := (idx_out1 t).2.2.1
  have e1 : win1_6.index t (1 : Fin 2) = 0 := (idx_out1 t).2.2.2
  funext a; apply Fin.ext
  match a with
  | ⟨0, _⟩ => show win1_6.index t (0 : Fin 2) * 2000 + 1 * p.val = r.val; omega
  | ⟨1, _⟩ => show win1_6.index t (1 : Fin 2) * 128 + 1 * q.val = q.val; omega

/-- An index of the array lies in point `t`'s block of window 6 iff each coordinate lies in the block's range. -/
theorem mem_blk1_6 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v27_1).slice (win1_6.rect t)).set ↔ _
  rw [View.set_slice_whole, Rect.mem_set_unit]
  exact Iff.rfl

/-- Every index of window 6's array is written back by some grid point: row `r` by point `r / 2000`. -/
theorem covered1_6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 50) N_1.symm⟩, rfl⟩
  have e0 : win1_6.index t (0 : Fin 2) = t.val := (idx_out1 t).2.2.1
  have e1 : win1_6.index t (1 : Fin 2) = 0 := (idx_out1 t).2.2.2
  refine ⟨t, flush1_6 t, ?_⟩
  rw [mem_blk1_6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The first stored block at point `t`, entry `(p, q)`, is the dense layer of the arrays at entry `(2000·t + p, q)`. -/
theorem layer_block1 (c : Dev nD) (t : Fin cfg1.N) (p : Fin 2000) (q : Fin 128) (r : Fin 100000) (hr : r.val = 2000 * t.val + p.val) :
    k1_pay1 (iblk1 V c 1 t) (iblk1 V c 0 t) (iblk1 V c 3 t) (iblk1 V c 4 t) (ix2 p q)
      = layerH2 (V c main_v25) (V c main_v14) (V c main_arg3) (V c main_v26) (ix2 r q) := by
  rw [layerH2_at]
  refine (pay1_1_at (iblk1 V c 1 t) (iblk1 V c 0 t) (iblk1 V c 3 t) (iblk1 V c 4 t) p q).trans ?_
  refine congrArg₂ max (congrArg₂ (· + ·) (Finset.sum_congr rfl fun k _ => ?_) (iblk1_4_at V c t q)) rfl
  exact congrArg₂ (· * ·) (congrArg₂ (· * ·) (iblk1_0_at V c t p k r hr) (iblk1_1_at V c t p r hr)) (iblk1_3_at V c t k q)

/-- What grid point `t` writes back to the first output array is block `t` of the dense layer. -/
theorem flushed1_5_eq (c : Dev nD) (t : Fin cfg1.N) :
    (dat1 (F := Ideal) V c).flushed 5 t
      = ((cfg1.win 5).blk t).view.read (Elt Ideal) (layerH2 (V c main_v25) (V c main_v14) (V c main_arg3) (V c main_v26)) := by
  show (cfg1.win 5).cut (grid1.coords t) ((dat1 V c).after 5 t) = _
  rw [after1_5]
  unfold out1_5
  rw [View.canon_unit_zero offs_zero]
  simp only [View.ld_unit_zero (S := S2000x128) offs_zero, View.ld_unit_zero (S := S2000x1) offs_zero,
    View.ld_unit_zero (S := S128x128) offs_zero, View.ld_unit_zero (S := S1x128) offs_zero]
  funext j
  obtain ⟨p, q, rfl⟩ : ∃ (p : Fin 2000) (q : Fin 128), j = ix2 p q := ⟨j 0, j 1, eq_ix2 j⟩
  have ht : t.val < 50 := lt_of_lt_of_eq t.isLt N_1
  have hr : 2000 * t.val + p.val < 100000 := by have := p.isLt; omega
  show k1_pay1 (iblk1 V c 1 t) (iblk1 V c 0 t) (iblk1 V c 3 t) (iblk1 V c 4 t) (ix2 p q)
    = layerH2 (V c main_v25) (V c main_v14) (V c main_arg3) (V c main_v26) (((cfg1.win 5).blk t).view.emb (ix2 p q))
  rw [emb1_5 t p q ⟨_, hr⟩ rfl]
  exact layer_block1 V c t p q ⟨_, hr⟩ rfl

/-- What grid point `t` writes back to the second output array is block `t` of the dense layer scaled by the second
    factor column. -/
theorem flushed1_6_eq (c : Dev nD) (t : Fin cfg1.N) :
    (dat1 (F := Ideal) V c).flushed 6 t
      = ((cfg1.win 6).blk t).view.read (Elt Ideal) (scale2 (layerH2 (V c main_v25) (V c main_v14) (V c main_arg3) (V c main_v26)) (V c main_v13)) := by
  show (cfg1.win 6).cut (grid1.coords t) ((dat1 V c).after 6 t) = _
  rw [after1_6]
  unfold out1_6
  rw [View.canon_unit_zero offs_zero]
  simp only [View.ld_unit_zero (S := S2000x128) offs_zero, View.ld_unit_zero (S := S2000x1) offs_zero,
    View.ld_unit_zero (S := S128x128) offs_zero, View.ld_unit_zero (S := S1x128) offs_zero]
  funext j
  obtain ⟨p, q, rfl⟩ : ∃ (p : Fin 2000) (q : Fin 128), j = ix2 p q := ⟨j 0, j 1, eq_ix2 j⟩
  have ht : t.val < 50 := lt_of_lt_of_eq t.isLt N_1
  have hr : 2000 * t.val + p.val < 100000 := by have := p.isLt; omega
  show k1_pay2 (iblk1 V c 1 t) (iblk1 V c 0 t) (iblk1 V c 3 t) (iblk1 V c 4 t) (iblk1 V c 2 t) (ix2 p q)
    = scale2 (layerH2 (V c main_v25) (V c main_v14) (V c main_arg3) (V c main_v26)) (V c main_v13) (((cfg1.win 6).blk t).view.emb (ix2 p q))
  rw [emb1_6 t p q ⟨_, hr⟩ rfl, scale2_at]
  refine (pay1_2_at (iblk1 V c 1 t) (iblk1 V c 0 t) (iblk1 V c 3 t) (iblk1 V c 4 t) (iblk1 V c 2 t) p q).trans ?_
  exact congrArg₂ (· * ·) (layer_block1 V c t p q ⟨_, hr⟩ rfl) (iblk1_2_at V c t p ⟨_, hr⟩ rfl)

/-- The first output array after the region: the dense layer of the scaled input rows. -/
theorem arr1_5 (c : Dev nD) : (dat1 (F := Ideal) V c).arrAt 5 cfg1.N = layerH2 (V c main_v25) (V c main_v14) (V c main_arg3) (V c main_v26) :=
  (dat1 V c).arrAt_eq_of_cover 5 (layerH2 (V c main_v25) (V c main_v14) (V c main_arg3) (V c main_v26)) (fun t _ => flushed1_5_eq V c t) covered1_5

/-- The second output array after the region: the first, scaled row by row by the second factor column. -/
theorem arr1_6 (c : Dev nD) : (dat1 (F := Ideal) V c).arrAt 6 cfg1.N = scale2 (layerH2 (V c main_v25) (V c main_v14) (V c main_arg3) (V c main_v26)) (V c main_v13) :=
  (dat1 V c).arrAt_eq_of_cover 6 (scale2 (layerH2 (V c main_v25) (V c main_v14) (V c main_arg3) (V c main_v26)) (V c main_v13)) (fun t _ => flushed1_6_eq V c t) covered1_6

end Cert.KernelIdeal.Hand

end
-- ==== Proof.KI.Val2.lean ====
import proofs.«175313_j15590731285054_1_alg».proof.Proof.KI.Reg2
import proofs.«175313_j15590731285054_1_alg».proof.Proof.KI.KSpec
import proofs.«175313_j15590731285054_1_alg».proof.Proof.KI.PayAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- what the TensorCore's buffers hold when the region is entered, over the extended reals
variable (V : (c : Dev nD) → (b : Ref sig .tc) → Buf (Elt Ideal) ((c : Thread nD τ).loc b))

/-! # Region 2's two output arrays over the extended reals

The first is the dense layer of the scaled input rows; the second is the first scaled row by row by the other factor column. -/

/-- The input windows' block indices, decided over the 50 grid points: the three row-blocked windows are at row block
    `t`, column block 0; the weights and the bias row are at block (0, 0) throughout. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The two output windows are at row block `t`, column block 0. -/
theorem idx_out2 : ∀ t : Fin cfg2.N, win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Window 0's block at grid point `t` holds rows `2000·t … 2000·t + 1999` of its array: entry `(p, q)` of the block is
    entry `(2000·t + p, q)` of the array. -/
theorem iblk2_0_at (c : Dev nD) (t : Fin cfg2.N) (p : Fin 2000) (q : Fin 128) (r : Fin 100000) (hr : r.val = 2000 * t.val + p.val) :
    (iblk2 V c 0 t : Vec Ideal S2000x128 .f32) (ix2 p q) = (V c main_v37 : S100000x128.Idx → EReal) (ix2 r q) := by
  have e0 : win2_0.index t (0 : Fin 2) = t.val := (idx_facts2 t).1
  have e1 : win2_0.index t (1 : Fin 2) = 0 := (idx_facts2 t).2.1
  unfold iblk2
  rw [View.read_apply]
  show (V c main_v37 : S100000x128.Idx → EReal) _ = (V c main_v37 : S100000x128.Idx → EReal) _
  refine congrArg (V c main_v37 : S100000x128.Idx → EReal) (funext fun a => Fin.ext ?_)
  match a with
  | ⟨0, _⟩ => show win2_0.index t (0 : Fin 2) * 2000 + 1 * p.val = r.val; omega
  | ⟨1, _⟩ => show win2_0.index t (1 : Fin 2) * 128 + 1 * q.val = q.val; omega

/-- Window 1's block at grid point `t` holds rows `2000·t … 2000·t + 1999` of its array: entry `(p, 0)` of the block is
    entry `(2000·t + p, 0)` of the array. -/
theorem iblk2_1_at (c : Dev nD) (t : Fin cfg2.N) (p : Fin 2000) (r : Fin 100000) (hr : r.val = 2000 * t.val + p.val) :
    (iblk2 V c 1 t : Vec Ideal S2000x1 .f32) (ix2 p 0) = (V c main_v14 : S100000x1.Idx → EReal) (ix2 r 0) := by
  have e0 : win2_1.index t (0 : Fin 2) = t.val := (idx_facts2 t).2.2.1
  have e1 : win2_1.index t (1 : Fin 2) = 0 := (idx_facts2 t).2.2.2.1
  unfold iblk2
  rw [View.read_apply]
  show (V c main_v14 : S100000x1.Idx → EReal) _ = (V c main_v14 : S100000x1.Idx → EReal) _
  refine congrArg (V c main_v14 : S100000x1.Idx → EReal) (funext fun a => Fin.ext ?_)
  match a with
  | ⟨0, _⟩ => show win2_1.index t (0 : Fin 2) * 2000 + 1 * p.val = r.val; omega
  | ⟨1, _⟩ => show win2_1.index t (1 : Fin 2) * 1 + 1 * 0 = 0; omega

/-- Window 2's block at grid point `t` holds rows `2000·t … 2000·t + 1999` of its array: entry `(p, 0)` of the block is
    entry `(2000·t + p, 0)` of the array. -/
theorem iblk2_2_at (c : Dev nD) (t : Fin cfg2.N) (p : Fin 2000) (r : Fin 100000) (hr : r.val = 2000 * t.val + p.val) :
    (iblk2 V c 2 t : Vec Ideal S2000x1 .f32) (ix2 p 0) = (V c main_v13 : S100000x1.Idx → EReal) (ix2 r 0) := by
  have e0 : win2_2.index t (0 : Fin 2) = t.val := (idx_facts2 t).2.2.2.2.1
  have e1 : win2_2.index t (1 : Fin 2) = 0 := (idx_facts2 t).2.2.2.2.2.1
  unfold iblk2
  rw [View.read_apply]
  show (V c main_v13 : S100000x1.Idx → EReal) _ = (V c main_v13 : S100000x1.Idx → EReal) _
  refine congrArg (V c main_v13 : S100000x1.Idx → EReal) (funext fun a => Fin.ext ?_)
  match a with
  | ⟨0, _⟩ => show win2_2.index t (0 : Fin 2) * 2000 + 1 * p.val = r.val; omega
  | ⟨1, _⟩ => show win2_2.index t (1 : Fin 2) * 1 + 1 * 0 = 0; omega

/-- Window 3 is the whole weight matrix at every grid point: its block is the whole array. -/
theorem iblk2_3_at (c : Dev nD) (t : Fin cfg2.N) (k q : Fin 128) :
    (iblk2 V c 3 t : Vec Ideal S128x128 .f32) (ix2 k q) = (V c main_arg5 : S128x128.Idx → EReal) (ix2 k q) := by
  have e0 : win2_3.index t (0 : Fin 2) = 0 := (idx_facts2 t).2.2.2.2.2.2.1
  have e1 : win2_3.index t (1 : Fin 2) = 0 := (idx_facts2 t).2.2.2.2.2.2.2.1
  unfold iblk2
  rw [View.read_apply]
  show (V c main_arg5 : S128x128.Idx → EReal) _ = (V c main_arg5 : S128x128.Idx → EReal) _
  refine congrArg (V c main_arg5 : S128x128.Idx → EReal) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- Window 4 is the whole bias row at every grid point: its block is the whole array. -/
theorem iblk2_4_at (c : Dev nD) (t : Fin cfg2.N) (q : Fin 128) :
    (iblk2 V c 4 t : Vec Ideal S1x128 .f32) (ix2 0 q) = (V c main_v38 : S1x128.Idx → EReal) (ix2 0 q) := by
  have e0 : win2_4.index t (0 : Fin 2) = 0 := (idx_facts2 t).2.2.2.2.2.2.2.2.1
  have e1 : win2_4.index t (1 : Fin 2) = 0 := (idx_facts2 t).2.2.2.2.2.2.2.2.2
  unfold iblk2
  rw [View.read_apply]
  show (V c main_v38 : S1x128.Idx → EReal) _ = (V c main_v38 : S1x128.Idx → EReal) _
  refine congrArg (V c main_v38 : S1x128.Idx → EReal) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- Where output window 5's block at point `t` sits in its array: entry `(p, q)` of the block is entry `(2000·t + p, q)`. -/
theorem emb2_5 (t : Fin cfg2.N) (p : Fin 2000) (q : Fin 128) (r : Fin 100000) (hr : r.val = 2000 * t.val + p.val) :
    ((cfg2.win 5).blk t).view.emb (ix2 p q) = ix2 r q := by
  have e0 : win2_5.index t (0 : Fin 2) = t.val := (idx_out2 t).1
  have e1 : win2_5.index t (1 : Fin 2) = 0 := (idx_out2 t).2.1
  funext a; apply Fin.ext
  match a with
  | ⟨0, _⟩ => show win2_5.index t (0 : Fin 2) * 2000 + 1 * p.val = r.val; omega
  | ⟨1, _⟩ => show win2_5.index t (1 : Fin 2) * 128 + 1 * q.val = q.val; omega

/-- An index of the array lies in point `t`'s block of window 5 iff each coordinate lies in the block's range. -/
theorem mem_blk2_5 (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v39_0).slice (win2_5.rect t)).set ↔ _
  rw [View.set_slice_whole, Rect.mem_set_unit]
  exact Iff.rfl

/-- Every index of window 5's array is written back by some grid point: row `r` by point `r / 2000`. -/
theorem covered2_5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, lt_of_lt_of_eq (by omega : (i 0).val / 2000 < 50) N_2.symm⟩, rfl⟩
  have e0 : win2_5.index t (0 : Fin 2) = t.val := (idx_out2 t).1
  have e1 : win2_5.index t (1 : Fin 2) = 0 := (idx_out2 t).2.1
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- Where output window 6's block at point `t` sits in its array: entry `(p, q)` of the block is entry `(2000·t + p, q)`. -/
theorem emb2_6 (t : Fin cfg2.N) (p : Fin 2000) (q : Fin 128) (r : Fin 100000) (hr : r.val = 2000 * t.val + p.val) :
    ((cfg2.win 6).blk t).view.emb (ix2 p q) = ix2 r q := by
  have e0 : win2_6.index t (0 : Fin 2) = t.val := (idx_out2 t).2.2.1
  have e1 : win2_6.index t (1 : Fin 2) = 0 := (idx_out2 t).2.2.2
  funext a; apply Fin.ext
  match a with
  | ⟨0, _⟩ => show win2_6.index t (0 : Fin 2) * 2000 + 1 * p.val = r.val; omega
  | ⟨1, _⟩ => show win2_6.index t (1 : Fin 2) * 128 + 1 * q.val = q.val; omega

/-- An index of the array lies in point `t`'s block of window 6 iff each coordinate lies in the block's range. -/
theorem mem_blk2_6 (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v39_1).slice (win2_6.rect t)).set ↔ _
  rw [View.set_slice_whole, Rect.mem_set_unit]
  exact Iff.rfl

/-- Every index of window 6's array is written back by some grid point: row `r` by point `r / 2000`. -/
theorem covered2_6 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, lt_of_lt_of_eq (by omega : (i 0).val / 2000 < 50) N_2.symm⟩, rfl⟩
  have e0 : win2_6.index t (0 : Fin 2) = t.val := (idx_out2 t).2.2.1
  have e1 : win2_6.index t (1 : Fin 2) = 0 := (idx_out2 t).2.2.2
  refine ⟨t, flush2_6 t, ?_⟩
  rw [mem_blk2_6]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- The first stored block at point `t`, entry `(p, q)`, is the dense layer of the arrays at entry `(2000·t + p, q)`. -/
theorem layer_block2 (c : Dev nD) (t : Fin cfg2.N) (p : Fin 2000) (q : Fin 128) (r : Fin 100000) (hr : r.val = 2000 * t.val + p.val) :
    k2_pay1 (iblk2 V c 1 t) (iblk2 V c 0 t) (iblk2 V c 3 t) (iblk2 V c 4 t) (ix2 p q)
      = layerH2 (V c main_v37) (V c main_v14) (V c main_arg5) (V c main_v38) (ix2 r q) := by
  rw [layerH2_at]
  refine (pay2_1_at (iblk2 V c 1 t) (iblk2 V c 0 t) (iblk2 V c 3 t) (iblk2 V c 4 t) p q).trans ?_
  refine congrArg₂ max (congrArg₂ (· + ·) (Finset.sum_congr rfl fun k _ => ?_) (iblk2_4_at V c t q)) rfl
  exact congrArg₂ (· * ·) (congrArg₂ (· * ·) (iblk2_0_at V c t p k r hr) (iblk2_1_at V c t p r hr)) (iblk2_3_at V c t k q)

/-- What grid point `t` writes back to the first output array is block `t` of the dense layer. -/
theorem flushed2_5_eq (c : Dev nD) (t : Fin cfg2.N) :
    (dat2 (F := Ideal) V c).flushed 5 t
      = ((cfg2.win 5).blk t).view.read (Elt Ideal) (layerH2 (V c main_v37) (V c main_v14) (V c main_arg5) (V c main_v38)) := by
  show (cfg2.win 5).cut (grid2.coords t) ((dat2 V c).after 5 t) = _
  rw [after2_5]
  unfold out2_5
  rw [View.canon_unit_zero offs_zero]
  simp only [View.ld_unit_zero (S := S2000x128) offs_zero, View.ld_unit_zero (S := S2000x1) offs_zero,
    View.ld_unit_zero (S := S128x128) offs_zero, View.ld_unit_zero (S := S1x128) offs_zero]
  funext j
  obtain ⟨p, q, rfl⟩ : ∃ (p : Fin 2000) (q : Fin 128), j = ix2 p q := ⟨j 0, j 1, eq_ix2 j⟩
  have ht : t.val < 50 := lt_of_lt_of_eq t.isLt N_2
  have hr : 2000 * t.val + p.val < 100000 := by have := p.isLt; omega
  show k2_pay1 (iblk2 V c 1 t) (iblk2 V c 0 t) (iblk2 V c 3 t) (iblk2 V c 4 t) (ix2 p q)
    = layerH2 (V c main_v37) (V c main_v14) (V c main_arg5) (V c main_v38) (((cfg2.win 5).blk t).view.emb (ix2 p q))
  rw [emb2_5 t p q ⟨_, hr⟩ rfl]
  exact layer_block2 V c t p q ⟨_, hr⟩ rfl

/-- What grid point `t` writes back to the second output array is block `t` of the dense layer scaled by the second
    factor column. -/
theorem flushed2_6_eq (c : Dev nD) (t : Fin cfg2.N) :
    (dat2 (F := Ideal) V c).flushed 6 t
      = ((cfg2.win 6).blk t).view.read (Elt Ideal) (scale2 (layerH2 (V c main_v37) (V c main_v14) (V c main_arg5) (V c main_v38)) (V c main_v13)) := by
  show (cfg2.win 6).cut (grid2.coords t) ((dat2 V c).after 6 t) = _
  rw [after2_6]
  unfold out2_6
  rw [View.canon_unit_zero offs_zero]
  simp only [View.ld_unit_zero (S := S2000x128) offs_zero, View.ld_unit_zero (S := S2000x1) offs_zero,
    View.ld_unit_zero (S := S128x128) offs_zero, View.ld_unit_zero (S := S1x128) offs_zero]
  funext j
  obtain ⟨p, q, rfl⟩ : ∃ (p : Fin 2000) (q : Fin 128), j = ix2 p q := ⟨j 0, j 1, eq_ix2 j⟩
  have ht : t.val < 50 := lt_of_lt_of_eq t.isLt N_2
  have hr : 2000 * t.val + p.val < 100000 := by have := p.isLt; omega
  show k2_pay2 (iblk2 V c 1 t) (iblk2 V c 0 t) (iblk2 V c 3 t) (iblk2 V c 4 t) (iblk2 V c 2 t) (ix2 p q)
    = scale2 (layerH2 (V c main_v37) (V c main_v14) (V c main_arg5) (V c main_v38)) (V c main_v13) (((cfg2.win 6).blk t).view.emb (ix2 p q))
  rw [emb2_6 t p q ⟨_, hr⟩ rfl, scale2_at]
  refine (pay2_2_at (iblk2 V c 1 t) (iblk2 V c 0 t) (iblk2 V c 3 t) (iblk2 V c 4 t) (iblk2 V c 2 t) p q).trans ?_
  exact congrArg₂ (· * ·) (layer_block2 V c t p q ⟨_, hr⟩ rfl) (iblk2_2_at V c t p ⟨_, hr⟩ rfl)

/-- The first output array after the region: the dense layer of the scaled input rows. -/
theorem arr2_5 (c : Dev nD) : (dat2 (F := Ideal) V c).arrAt 5 cfg2.N = layerH2 (V c main_v37) (V c main_v14) (V c main_arg5) (V c main_v38) :=
  (dat2 V c).arrAt_eq_of_cover 5 (layerH2 (V c main_v37) (V c main_v14) (V c main_arg5) (V c main_v38)) (fun t _ => flushed2_5_eq V c t) covered2_5

/-- The second output array after the region: the first, scaled row by row by the second factor column. -/
theorem arr2_6 (c : Dev nD) : (dat2 (F := Ideal) V c).arrAt 6 cfg2.N = scale2 (layerH2 (V c main_v37) (V c main_v14) (V c main_arg5) (V c main_v38)) (V c main_v13) :=
  (dat2 V c).arrAt_eq_of_cover 6 (scale2 (layerH2 (V c main_v37) (V c main_v14) (V c main_arg5) (V c main_v38)) (V c main_v13)) (fun t _ => flushed2_6_eq V c t) covered2_6

end Cert.KernelIdeal.Hand

end
-- ==== Proof.KI.Val3.lean ====
import proofs.«175313_j15590731285054_1_alg».proof.Proof.KI.Reg3
import proofs.«175313_j15590731285054_1_alg».proof.Proof.KI.KSpec
import proofs.«175313_j15590731285054_1_alg».proof.Proof.KI.PayAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- what the TensorCore's buffers hold when the region is entered, over the extended reals
variable (V : (c : Dev nD) → (b : Ref sig .tc) → Buf (Elt Ideal) ((c : Thread nD τ).loc b))

/-! # Region 3's two output arrays over the extended reals

The first is the dense layer of the scaled input rows; the second is the first scaled row by row by the other factor column. -/

/-- The input windows' block indices, decided over the 50 grid points: the three row-blocked windows are at row block
    `t`, column block 0; the weights and the bias row are at block (0, 0) throughout. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The two output windows are at row block `t`, column block 0. -/
theorem idx_out3 : ∀ t : Fin cfg3.N, win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Window 0's block at grid point `t` holds rows `2000·t … 2000·t + 1999` of its array: entry `(p, q)` of the block is
    entry `(2000·t + p, q)` of the array. -/
theorem iblk3_0_at (c : Dev nD) (t : Fin cfg3.N) (p : Fin 2000) (q : Fin 128) (r : Fin 100000) (hr : r.val = 2000 * t.val + p.val) :
    (iblk3 V c 0 t : Vec Ideal S2000x128 .f32) (ix2 p q) = (V c main_v49 : S100000x128.Idx → EReal) (ix2 r q) := by
  have e0 : win3_0.index t (0 : Fin 2) = t.val := (idx_facts3 t).1
  have e1 : win3_0.index t (1 : Fin 2) = 0 := (idx_facts3 t).2.1
  unfold iblk3
  rw [View.read_apply]
  show (V c main_v49 : S100000x128.Idx → EReal) _ = (V c main_v49 : S100000x128.Idx → EReal) _
  refine congrArg (V c main_v49 : S100000x128.Idx → EReal) (funext fun a => Fin.ext ?_)
  match a with
  | ⟨0, _⟩ => show win3_0.index t (0 : Fin 2) * 2000 + 1 * p.val = r.val; omega
  | ⟨1, _⟩ => show win3_0.index t (1 : Fin 2) * 128 + 1 * q.val = q.val; omega

/-- Window 1's block at grid point `t` holds rows `2000·t … 2000·t + 1999` of its array: entry `(p, 0)` of the block is
    entry `(2000·t + p, 0)` of the array. -/
theorem iblk3_1_at (c : Dev nD) (t : Fin cfg3.N) (p : Fin 2000) (r : Fin 100000) (hr : r.val = 2000 * t.val + p.val) :
    (iblk3 V c 1 t : Vec Ideal S2000x1 .f32) (ix2 p 0) = (V c main_v14 : S100000x1.Idx → EReal) (ix2 r 0) := by
  have e0 : win3_1.index t (0 : Fin 2) = t.val := (idx_facts3 t).2.2.1
  have e1 : win3_1.index t (1 : Fin 2) = 0 := (idx_facts3 t).2.2.2.1
  unfold iblk3
  rw [View.read_apply]
  show (V c main_v14 : S100000x1.Idx → EReal) _ = (V c main_v14 : S100000x1.Idx → EReal) _
  refine congrArg (V c main_v14 : S100000x1.Idx → EReal) (funext fun a => Fin.ext ?_)
  match a with
  | ⟨0, _⟩ => show win3_1.index t (0 : Fin 2) * 2000 + 1 * p.val = r.val; omega
  | ⟨1, _⟩ => show win3_1.index t (1 : Fin 2) * 1 + 1 * 0 = 0; omega

/-- Window 2's block at grid point `t` holds rows `2000·t … 2000·t + 1999` of its array: entry `(p, 0)` of the block is
    entry `(2000·t + p, 0)` of the array. -/
theorem iblk3_2_at (c : Dev nD) (t : Fin cfg3.N) (p : Fin 2000) (r : Fin 100000) (hr : r.val = 2000 * t.val + p.val) :
    (iblk3 V c 2 t : Vec Ideal S2000x1 .f32) (ix2 p 0) = (V c main_v13 : S100000x1.Idx → EReal) (ix2 r 0) := by
  have e0 : win3_2.index t (0 : Fin 2) = t.val := (idx_facts3 t).2.2.2.2.1
  have e1 : win3_2.index t (1 : Fin 2) = 0 := (idx_facts3 t).2.2.2.2.2.1
  unfold iblk3
  rw [View.read_apply]
  show (V c main_v13 : S100000x1.Idx → EReal) _ = (V c main_v13 : S100000x1.Idx → EReal) _
  refine congrArg (V c main_v13 : S100000x1.Idx → EReal) (funext fun a => Fin.ext ?_)
  match a with
  | ⟨0, _⟩ => show win3_2.index t (0 : Fin 2) * 2000 + 1 * p.val = r.val; omega
  | ⟨1, _⟩ => show win3_2.index t (1 : Fin 2) * 1 + 1 * 0 = 0; omega

/-- Window 3 is the whole weight matrix at every grid point: its block is the whole array. -/
theorem iblk3_3_at (c : Dev nD) (t : Fin cfg3.N) (k q : Fin 128) :
    (iblk3 V c 3 t : Vec Ideal S128x128 .f32) (ix2 k q) = (V c main_arg7 : S128x128.Idx → EReal) (ix2 k q) := by
  have e0 : win3_3.index t (0 : Fin 2) = 0 := (idx_facts3 t).2.2.2.2.2.2.1
  have e1 : win3_3.index t (1 : Fin 2) = 0 := (idx_facts3 t).2.2.2.2.2.2.2.1
  unfold iblk3
  rw [View.read_apply]
  show (V c main_arg7 : S128x128.Idx → EReal) _ = (V c main_arg7 : S128x128.Idx → EReal) _
  refine congrArg (V c main_arg7 : S128x128.Idx → EReal) (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- Window 4 is the whole bias row at every grid point: its block is the whole array. -/
theorem iblk3_4_at (c : Dev nD) (t : Fin cfg3.N) (q : Fin 128) :
    (iblk3 V c 4 t : Vec Ideal S1x128 .f32) (ix2 0 q) = (V c main_v50 : S1x128.Idx → EReal) (ix2 0 q) := by
  have e0 : win3_4.index t (0 : Fin 2) = 0 := (idx_facts3 t).2.2.2.2.2.2.2.2.1
  have e1 : win3_4.index t (1 : Fin 2) = 0 := (idx_facts3 t).2.2.2.2.2.2.2.2.2
  unfold iblk3
  rw [View.read_apply]
  show (V c main_v50 : S1x128.Idx → EReal) _ = (V c main_v50 : S1x128.Idx → EReal) _
  refine congrArg (V c main_v50 : S1x128.Idx → EReal) (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- Where output window 5's block at point `t` sits in its array: entry `(p, q)` of the block is entry `(2000·t + p, q)`. -/
theorem emb3_5 (t : Fin cfg3.N) (p : Fin 2000) (q : Fin 128) (r : Fin 100000) (hr : r.val = 2000 * t.val + p.val) :
    ((cfg3.win 5).blk t).view.emb (ix2 p q) = ix2 r q := by
  have e0 : win3_5.index t (0 : Fin 2) = t.val := (idx_out3 t).1
  have e1 : win3_5.index t (1 : Fin 2) = 0 := (idx_out3 t).2.1
  funext a; apply Fin.ext
  match a with
  | ⟨0, _⟩ => show win3_5.index t (0 : Fin 2) * 2000 + 1 * p.val = r.val; omega
  | ⟨1, _⟩ => show win3_5.index t (1 : Fin 2) * 128 + 1 * q.val = q.val; omega

/-- An index of the array lies in point `t`'s block of window 5 iff each coordinate lies in the block's range. -/
theorem mem_blk3_5 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v51_0).slice (win3_5.rect t)).set ↔ _
  rw [View.set_slice_whole, Rect.mem_set_unit]
  exact Iff.rfl

/-- Every index of window 5's array is written back by some grid point: row `r` by point `r / 2000`. -/
theorem covered3_5 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ : ∃ t : Fin cfg3.N, t.val = (i 0).val / 2000 :=
    ⟨⟨(i 0).val / 2000, lt_of_lt_of_eq (by omega : (i 0).val / 2000 < 50) N_3.symm⟩, rfl⟩
  have e0 : win3_5.index t (0 : Fin 2) = t.val := (idx_out3 t).1
  have e1 : win3_5.index t (1 : Fin 2) = 0 := (idx_out3 t).2.1
  refine ⟨t, flush3_5 t, ?_⟩
  rw [mem_blk3_5]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- Where output window 6's block at point `t` sits in its array: entry `(p, q)` of the block is entry `(2000·t + p, q)`. -/
theorem emb3_6 (t : Fin cfg3.N) (p : Fin 2000) (q : Fin 128) (r : Fin 100000) (hr : r.val = 2000 * t.val + p.val) :
    ((cfg3.win 6).blk t).view.emb (ix2 p q) = ix2 r q := by
  have e0 : win3_6.index t (0 : Fin 2) = t.val := (idx_out3 t).2.2.1
  have e1 : win3_6.index t (1 : Fin 2) = 0 := (idx_out3 t).2.2.2
  funext a; apply Fin.ext
  match a with
  | ⟨0, _⟩ => show win3_6.index t (0 : Fin 2) * 2000 + 1 * p.val = r.val; omega
  | ⟨1, _⟩ => show win3_6.index t (1 : Fin 2) * 128 + 1 * q.val = q.val; omega

/-- An index of the array lies in point `t`'s block of window 6 iff each coordinate lies in the block's range. -/
theorem mem_blk3_6 (t : Fin cfg3.N) (i : S100000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v51_1).slice (win3_6.rect t)).set ↔ _
  rw [View.set_slice_whole, Rect.mem_set_unit]
  exact Iff.rfl

/-- Every index of window 6's array is written back by some grid point: row `r` by point `r / 2000`. -/
theorem covered3_6 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, ht⟩ : ∃ t : Fin cfg3.N, t.val = (i 0).val / 2000 :=
    ⟨⟨(i 0).val / 2000, lt_of_lt_of_eq (by omega : (i 0).val / 2000 < 50) N_3.symm⟩, rfl⟩
  have e0 : win3_6.index t (0 : Fin 2) = t.val := (idx_out3 t).2.2.1
  have e1 : win3_6.index t (1 : Fin 2) = 0 := (idx_out3 t).2.2.2
  refine ⟨t, flush3_6 t, ?_⟩
  rw [mem_blk3_6]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-- The first stored block at point `t`, entry `(p, q)`, is the dense layer of the arrays at entry `(2000·t + p, q)`. -/
theorem layer_block3 (c : Dev nD) (t : Fin cfg3.N) (p : Fin 2000) (q : Fin 128) (r : Fin 100000) (hr : r.val = 2000 * t.val + p.val) :
    k3_pay1 (iblk3 V c 1 t) (iblk3 V c 0 t) (iblk3 V c 3 t) (iblk3 V c 4 t) (ix2 p q)
      = layerH2 (V c main_v49) (V c main_v14) (V c main_arg7) (V c main_v50) (ix2 r q) := by
  rw [layerH2_at]
  refine (pay3_1_at (iblk3 V c 1 t) (iblk3 V c 0 t) (iblk3 V c 3 t) (iblk3 V c 4 t) p q).trans ?_
  refine congrArg₂ max (congrArg₂ (· + ·) (Finset.sum_congr rfl fun k _ => ?_) (iblk3_4_at V c t q)) rfl
  exact congrArg₂ (· * ·) (congrArg₂ (· * ·) (iblk3_0_at V c t p k r hr) (iblk3_1_at V c t p r hr)) (iblk3_3_at V c t k q)

/-- What grid point `t` writes back to the first output array is block `t` of the dense layer. -/
theorem flushed3_5_eq (c : Dev nD) (t : Fin cfg3.N) :
    (dat3 (F := Ideal) V c).flushed 5 t
      = ((cfg3.win 5).blk t).view.read (Elt Ideal) (layerH2 (V c main_v49) (V c main_v14) (V c main_arg7) (V c main_v50)) := by
  show (cfg3.win 5).cut (grid3.coords t) ((dat3 V c).after 5 t) = _
  rw [after3_5]
  unfold out3_5
  rw [View.canon_unit_zero offs_zero]
  simp only [View.ld_unit_zero (S := S2000x128) offs_zero, View.ld_unit_zero (S := S2000x1) offs_zero,
    View.ld_unit_zero (S := S128x128) offs_zero, View.ld_unit_zero (S := S1x128) offs_zero]
  funext j
  obtain ⟨p, q, rfl⟩ : ∃ (p : Fin 2000) (q : Fin 128), j = ix2 p q := ⟨j 0, j 1, eq_ix2 j⟩
  have ht : t.val < 50 := lt_of_lt_of_eq t.isLt N_3
  have hr : 2000 * t.val + p.val < 100000 := by have := p.isLt; omega
  show k3_pay1 (iblk3 V c 1 t) (iblk3 V c 0 t) (iblk3 V c 3 t) (iblk3 V c 4 t) (ix2 p q)
    = layerH2 (V c main_v49) (V c main_v14) (V c main_arg7) (V c main_v50) (((cfg3.win 5).blk t).view.emb (ix2 p q))
  rw [emb3_5 t p q ⟨_, hr⟩ rfl]
  exact layer_block3 V c t p q ⟨_, hr⟩ rfl

/-- What grid point `t` writes back to the second output array is block `t` of the dense layer scaled by the second
    factor column. -/
theorem flushed3_6_eq (c : Dev nD) (t : Fin cfg3.N) :
    (dat3 (F := Ideal) V c).flushed 6 t
      = ((cfg3.win 6).blk t).view.read (Elt Ideal) (scale2 (layerH2 (V c main_v49) (V c main_v14) (V c main_arg7) (V c main_v50)) (V c main_v13)) := by
  show (cfg3.win 6).cut (grid3.coords t) ((dat3 V c).after 6 t) = _
  rw [after3_6]
  unfold out3_6
  rw [View.canon_unit_zero offs_zero]
  simp only [View.ld_unit_zero (S := S2000x128) offs_zero, View.ld_unit_zero (S := S2000x1) offs_zero,
    View.ld_unit_zero (S := S128x128) offs_zero, View.ld_unit_zero (S := S1x128) offs_zero]
  funext j
  obtain ⟨p, q, rfl⟩ : ∃ (p : Fin 2000) (q : Fin 128), j = ix2 p q := ⟨j 0, j 1, eq_ix2 j⟩
  have ht : t.val < 50 := lt_of_lt_of_eq t.isLt N_3
  have hr : 2000 * t.val + p.val < 100000 := by have := p.isLt; omega
  show k3_pay2 (iblk3 V c 1 t) (iblk3 V c 0 t) (iblk3 V c 3 t) (iblk3 V c 4 t) (iblk3 V c 2 t) (ix2 p q)
    = scale2 (layerH2 (V c main_v49) (V c main_v14) (V c main_arg7) (V c main_v50)) (V c main_v13) (((cfg3.win 6).blk t).view.emb (ix2 p q))
  rw [emb3_6 t p q ⟨_, hr⟩ rfl, scale2_at]
  refine (pay3_2_at (iblk3 V c 1 t) (iblk3 V c 0 t) (iblk3 V c 3 t) (iblk3 V c 4 t) (iblk3 V c 2 t) p q).trans ?_
  exact congrArg₂ (· * ·) (layer_block3 V c t p q ⟨_, hr⟩ rfl) (iblk3_2_at V c t p ⟨_, hr⟩ rfl)

/-- The first output array after the region: the dense layer of the scaled input rows. -/
theorem arr3_5 (c : Dev nD) : (dat3 (F := Ideal) V c).arrAt 5 cfg3.N = layerH2 (V c main_v49) (V c main_v14) (V c main_arg7) (V c main_v50) :=
  (dat3 V c).arrAt_eq_of_cover 5 (layerH2 (V c main_v49) (V c main_v14) (V c main_arg7) (V c main_v50)) (fun t _ => flushed3_5_eq V c t) covered3_5

/-- The second output array after the region: the first, scaled row by row by the second factor column. -/
theorem arr3_6 (c : Dev nD) : (dat3 (F := Ideal) V c).arrAt 6 cfg3.N = scale2 (layerH2 (V c main_v49) (V c main_v14) (V c main_arg7) (V c main_v50)) (V c main_v13) :=
  (dat3 V c).arrAt_eq_of_cover 6 (scale2 (layerH2 (V c main_v49) (V c main_v14) (V c main_arg7) (V c main_v50)) (V c main_v13)) (fun t _ => flushed3_6_eq V c t) covered3_6

end Cert.KernelIdeal.Hand

end
-- ==== Proof.KI.Reg4Value.lean ====
/- Region 4 (the mean kernel), the values: what each case's stores leave, in terms of the kernel's own arithmetic
   (zeros; accumulator plus column sums of a block; accumulator times the constant), and from these the closed form
   of the accumulator after every grid point — the ordered running sum of the 50 blocks' column sums — and of the
   output window after the last point. Generic in the float type. -/
import proofs.«175313_j15590731285054_1_alg».proof.Proof.KI.Reg4
import Idealize.ShloMosaic.Lib.Pipeline.Value

-- membership of an index in a store's rectangle is decided structurally, one step per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The origin of a rank-2 shape, as the constant-zero offset. -/
theorem hz4 : (![0, 0] : Fin 2 → Nat) = fun _ => 0 := funext fun a => by fin_cases a <;> rfl

/-! ## What each case's stores leave, in terms of the kernel's arithmetic -/

/-- CASE B: the accumulator holding `xs` is left at `xs` plus the column sums of the block `x` — the payload of
    the one store, whose two loads read the whole accumulator and the whole block. -/
theorem sout4_B_eq (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : ¬cond4_1 i) (x : Vec F S2000x128 .f32) (xs : Vec F S1x128 .f32) :
    sout4_B_0 c i arg1 harg1 arg2 harg2 arg3 harg3 hc0 hc1 x xs = k4_pay2 xs x := by
  unfold sout4_B_0
  rw [View.read_writes_eq_canon _ _ _ (scover4_B_0 c i arg1 harg1 arg2 harg2 arg3 harg3 hc0 hc1 x xs)]
  unfold kernelRun4_B
  dsimp only
  rw [View.canon_unit_zero hz4]
  simp only [View.readAt_eq_ld, harg1.read_unread, harg3.read_unread, View.ld_unit_zero (S := S1x128) hz4, View.ld_unit_zero (S := S2000x128) hz4]

/-- CASE C leaves the accumulator as case B does: the scaled copy into the output window does not touch it. -/
theorem sout4_C_eq (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : cond4_1 i) (x : Vec F S2000x128 .f32) (xs : Vec F S1x128 .f32) :
    sout4_C_0 c i arg1 harg1 arg2 harg2 arg3 harg3 hc0 hc1 x xs = k4_pay2 xs x := by
  unfold sout4_C_0
  rw [View.read_writes_eq_canon _ _ _ (scover4_C_0 c i arg1 harg1 arg2 harg2 arg3 harg3 hc0 hc1 x xs)]
  unfold kernelRun4_C
  dsimp only
  sl_unfold_words
  rw [View.canon_unit_zero hz4]
  simp only [View.readAt_eq_ld, harg1.read_unread, harg3.read_unread, View.ld_unit_zero (S := S1x128) hz4, View.ld_unit_zero (S := S2000x128) hz4]

/-- CASE A: the accumulator is first set to zeros, read back, and left at zeros plus the column sums of the block. -/
theorem sout4_A_eq (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : cond4_0 i) (hc1 : ¬cond4_1 i) (x : Vec F S2000x128 .f32) :
    sout4_A_0 c i arg1 harg1 arg2 harg2 arg3 harg3 hc0 hc1 x = k4_pay2 k4_pay1 x := by
  unfold sout4_A_0
  rw [View.read_writes_eq_canon _ _ _ (scover4_A_0 c i arg1 harg1 arg2 harg2 arg3 harg3 hc0 hc1 x)]
  unfold kernelRun4_A
  dsimp only
  sl_unfold_words
  rw [View.canon_cons_unit_zero (S := S1x128) hz4, View.readCov_unit_zero (S := S1x128) _ hz4]
  simp only [View.readAt_eq_ld, harg1.read_unread, View.ld_unit_zero (S := S2000x128) hz4]

/-- CASE C's output: the accumulator as just updated, times the constant. -/
theorem out4_C_eq (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond4_0 i) (hc1 : cond4_1 i) (x : Vec F S2000x128 .f32) (xs : Vec F S1x128 .f32) :
    out4_C_1 c i arg1 harg1 arg2 harg2 arg3 harg3 hc0 hc1 x xs = k4_pay3 (k4_pay2 xs x) := by
  unfold out4_C_1
  rw [View.read_writes_eq_canon _ _ _ (cover4_C_1 c i arg1 harg1 arg2 harg2 arg3 harg3 hc0 hc1 x xs)]
  unfold kernelRun4_C
  dsimp only
  sl_unfold_words
  rw [View.canon_unit_zero hz4, View.readCov_unit_zero (S := S1x128) _ hz4]
  simp only [View.readAt_eq_ld, harg1.read_unread, harg3.read_unread, View.ld_unit_zero (S := S1x128) hz4, View.ld_unit_zero (S := S2000x128) hz4]

/-! ## The running column sums -/

/-- The ORDERED running sum after point `n`: zeros plus block 0's column sums, then plus block `n`'s — each step the
    kernel's own addition, in the kernel's order. -/
def acc4 (c : Dev nD) : (n : ℕ) → n < cfg4.N → Vec F S1x128 .f32
  | 0, h => k4_pay2 k4_pay1 (iblk4 V c 0 ⟨0, h⟩)
  | n + 1, h => k4_pay2 (acc4 c n (Nat.lt_of_succ_lt h)) (iblk4 V c 0 ⟨n + 1, h⟩)

/-- What the accumulator holds after point `n` IS the running sum — by induction on the point. -/
theorem scratch_eq (c : Dev nD) : ∀ (n : ℕ) (hn : n < cfg4.N), (outsAt4 V c n hn).2 = acc4 V c n hn
  | 0, h => by
    rw [outsAt4_A V c ⟨0, h⟩ rfl (by show ¬(0 % 50 = 49); decide)]; dsimp only
    exact (sout4_A_eq (F := F) c _ _ _ _ _ _ _ _ _ _).trans rfl
  | n + 1, h => by
    have hN : cfg4.N = 50 := N_4
    have h0 : ¬(⟨n + 1, h⟩ : Fin cfg4.N).val % 50 = 0 := by dsimp only; omega
    by_cases h1 : (⟨n + 1, h⟩ : Fin cfg4.N).val % 50 = 49
    · rw [outsAt4_C V c ⟨n + 1, h⟩ h0 h1]; dsimp only; rw [sout4_C_eq (F := F)]
      show k4_pay2 (outsAt4 V c n _).2 _ = k4_pay2 (acc4 V c n _) _
      rw [scratch_eq c n]
    · rw [outsAt4_B V c ⟨n + 1, h⟩ h0 h1]; dsimp only; rw [sout4_B_eq (F := F)]
      show k4_pay2 (outsAt4 V c n _).2 _ = k4_pay2 (acc4 V c n _) _
      rw [scratch_eq c n]

/-- The grid has a 50th point. -/
theorem lt49_4 : 49 < cfg4.N := by rw [show cfg4.N = 50 from N_4]; decide

/-- What the output window holds after the last point: the full running sum times the constant. -/
theorem out_last (c : Dev nD) (h49 : 49 < cfg4.N) : (outsAt4 V c 49 h49).1 = k4_pay3 (acc4 V c 49 h49) := by
  have h0 : ¬(⟨49, h49⟩ : Fin cfg4.N).val % 50 = 0 := by show ¬(49 % 50 = 0); decide
  have h1 : (⟨49, h49⟩ : Fin cfg4.N).val % 50 = 49 := rfl
  rw [outsAt4_C V c ⟨49, h49⟩ h0 h1]; dsimp only; rw [out4_C_eq (F := F)]
  show k4_pay3 (k4_pay2 (outsAt4 V c 48 _).2 _) = k4_pay3 (k4_pay2 (acc4 V c 48 _) _)
  rw [scratch_eq V c 48]

end Cert.KernelIdeal.Hand

end
-- ==== Proof.KI.Val4Acc.lean ====
/- Region 4 (the mean kernel) over the extended reals: the kernel's three stored values at an entry, the input
   window's block at an entry, and the accumulator after each grid point as the zero word plus the sum of the tiles'
   column sums. -/
import proofs.«175313_j15590731285054_1_alg».proof.Proof.KI.Reg4Value
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- what the TensorCore's buffers hold when the region is entered, over the extended reals
variable (V : (c : Dev nD) → (b : Ref sig .tc) → Buf (Elt Ideal) ((c : Thread nD τ).loc b))

/-! # The mean kernel's arithmetic over the extended reals, entry by entry

The kernel keeps a 1×128 accumulator. At each of the 50 grid points it adds to it the column sums of that point's
2000×128 block; at the last point it multiplies the accumulator by 1/100000. Here each of these values is read at an
entry `(z, q)` (`z` the one row, `q` the column), and the accumulator after point `n` is the zero word plus the sum
of the column-`q` sums of tiles `0 … n`. -/

/-! ## The payloads at an entry -/

/-- Summing a 2000×128 block over its rows: the reduced index `q` with row `k` put back is `(k, q)`. -/
theorem lift4 (h : S2000x128.Reduces [0] S128) (q : Fin 128) (k : Fin (S2000x128.size 0)) :
    h.lift (ix1 q) k = ix2 (⟨k.val, k.isLt⟩ : Fin 2000) q := by
  funext a; apply Fin.ext
  fin_cases a <;> rfl

/-- The sum over the rows, at column `q`: the sum of the 2000 entries of that column. -/
theorem colsum4_at (v : FVec Ideal S2000x128 .f32) (h : S2000x128.Reduces [0] S128) (hφ : FKind.Formats .f32)
    (hacc : (0x00000000#32 : BitVec 32) = FKind.add.neutral .f32 hφ) (q : Fin 128) :
    multiReduction .add [0] S128 v 0x00000000#32 h hφ hacc (ix1 q) = ∑ p : Fin 2000, v (ix2 p q) := by
  refine (Ideal.multiReduction_add_single v _ h hφ hacc (ix1 q)).trans ?_
  show ∑ k : Fin 2000, v (h.lift (ix1 q) k) = ∑ p : Fin 2000, v (ix2 p q)
  exact Finset.sum_congr rfl fun k _ => congrArg v (lift4 h q k)

/-- The reset value: the zero word at every entry. -/
theorem pay4_1_at (z : Fin 1) (q : Fin 128) :
    (k4_pay1 (F := Ideal)) (ix2 z q) = Ideal.ofBits .f32 0x00000000#32 := by
  unfold k4_pay1
  simp only [shapeCast_self]
  rfl

/-- The update: the accumulator's entry plus the block's column sum. -/
theorem pay4_2_at (v3 : Vec Ideal S1x128 .f32) (v4 : Vec Ideal S2000x128 .f32) (z : Fin 1) (q : Fin 128) :
    k4_pay2 v3 v4 (ix2 z q) = v3 (ix2 z q) + ∑ p : Fin 2000, v4 (ix2 p q) := by
  unfold k4_pay2
  simp only [shapeCast_self]
  refine (addf_apply _ _ (ix2 z q)).trans ?_
  refine congrArg (v3 (ix2 z q) + ·) ?_
  refine (shapeCast_a_1a_apply _ _ z q).trans ?_
  exact colsum4_at v4 _ _ _ q

/-- The kernel's named constant denotes the rational 1/100000 over the extended reals. -/
theorem named_inv4 :
    Named.named (F := Ideal) Cert.KernelIdeal.κ "inv_100000" (φ := .f32) 0x3727C5AC#32 = ((1 / 100000 : ℝ) : EReal) :=
  IdealRules.named_const.ideal_named_scalar _ _ _ _ rfl

/-- The result: the accumulator's entry times 1/100000. -/
theorem pay4_3_at (v15 : Vec Ideal S1x128 .f32) (z : Fin 1) (q : Fin 128) :
    k4_pay3 v15 (ix2 z q) = v15 (ix2 z q) * ((1 / 100000 : ℝ) : EReal) := by
  unfold k4_pay3
  refine (mulf_apply _ _ (ix2 z q)).trans ?_
  exact congrArg (v15 (ix2 z q) * ·) named_inv4

/-! ## The input block at an entry -/

/-- The input window's block index, decided over the 50 grid points: row block `t`, column block 0. -/
theorem idx_facts4 : ∀ t : Fin cfg4.N, win4_0.index t (0 : Fin 2) = t.val ∧ win4_0.index t (1 : Fin 2) = 0 :=
  (by decide +kernel : ∀ t : Fin grid4.N, _)

/-- The input window's block at grid point `t` holds rows `2000·t … 2000·t + 1999` of its array: entry `(p, q)` of the
    block is entry `(2000·t + p, q)` of the array. -/
theorem iblk4_0_at (c : Dev nD) (t : Fin cfg4.N) (p : Fin 2000) (q : Fin 128) (r : Fin 100000) (hr : r.val = t.val * 2000 + p.val) :
    (iblk4 V c 0 t : Vec Ideal S2000x128 .f32) (ix2 p q) = (V c main_v51_0 : S100000x128.Idx → EReal) (ix2 r q) := by
  have e0 : win4_0.index t (0 : Fin 2) = t.val := (idx_facts4 t).1
  have e1 : win4_0.index t (1 : Fin 2) = 0 := (idx_facts4 t).2
  unfold iblk4
  rw [View.read_apply]
  show (V c main_v51_0 : S100000x128.Idx → EReal) _ = (V c main_v51_0 : S100000x128.Idx → EReal) _
  refine congrArg (V c main_v51_0 : S100000x128.Idx → EReal) (funext fun a => Fin.ext ?_)
  match a with
  | ⟨0, _⟩ => show win4_0.index t (0 : Fin 2) * 2000 + 1 * p.val = r.val; omega
  | ⟨1, _⟩ => show win4_0.index t (1 : Fin 2) * 128 + 1 * q.val = q.val; omega

/-! ## The accumulator after each point -/

/-- The input array as the region finds it, at its literal type: a 100000×128 matrix of extended reals. -/
abbrev inArr4 (c : Dev nD) : S100000x128.Idx → EReal := V c main_v51_0

/-- Point `t`'s input block at its literal type: a 2000×128 matrix of extended reals. -/
abbrev blk4 (c : Dev nD) (t : Fin cfg4.N) : Vec Ideal S2000x128 .f32 := iblk4 V c 0 t

/-- Column `q` of tile `t` (rows `2000·t … 2000·t + 1999` of the input array) summed over the tile's rows; zero for a
    `t` that is no tile. -/
def tileSum4 (c : Dev nD) (q : Fin 128) (t : ℕ) : EReal :=
  if h : t < 50 then ∑ j : Fin 2000, inArr4 V c (ix2 (⟨t * 2000 + j.val, by omega⟩ : Fin 100000) q) else 0

/-- The column sum of point `t`'s block is the tile sum. -/
theorem blockSum4 (c : Dev nD) (q : Fin 128) (t : Fin cfg4.N) :
    ∑ p : Fin 2000, blk4 V c t (ix2 p q) = tileSum4 V c q t.val := by
  have ht : t.val < 50 := lt_of_lt_of_eq t.isLt N_4
  unfold tileSum4
  rw [dif_pos ht]
  exact Finset.sum_congr rfl fun p _ => iblk4_0_at V c t p q ⟨t.val * 2000 + p.val, by have := p.isLt; omega⟩ rfl

/-- After point `n` the accumulator's entry in column `q` is the zero word plus the tile sums of tiles `0 … n`, in
    the kernel's order of addition — by induction on the point. -/
theorem acc4_at (c : Dev nD) (z : Fin 1) (q : Fin 128) : ∀ (n : ℕ) (hn : n < cfg4.N),
    acc4 V c n hn (ix2 z q) = Ideal.ofBits .f32 0x00000000#32 + ∑ t ∈ Finset.range (n + 1), tileSum4 V c q t
  | 0, h => by
    show k4_pay2 (k4_pay1 (F := Ideal)) (blk4 V c ⟨0, h⟩) (ix2 z q) = _
    refine (pay4_2_at (k4_pay1 (F := Ideal)) (blk4 V c ⟨0, h⟩) z q).trans ?_
    rw [pay4_1_at z q, blockSum4 V c q ⟨0, h⟩, Finset.sum_range_one]
  | n + 1, h => by
    show k4_pay2 (acc4 V c n (Nat.lt_of_succ_lt h)) (blk4 V c ⟨n + 1, h⟩) (ix2 z q) = _
    refine (pay4_2_at (acc4 V c n (Nat.lt_of_succ_lt h)) (blk4 V c ⟨n + 1, h⟩) z q).trans ?_
    rw [acc4_at c z q n (Nat.lt_of_succ_lt h), blockSum4 V c q ⟨n + 1, h⟩, Finset.sum_range_succ _ (n + 1), add_assoc]

end Cert.KernelIdeal.Hand

end
-- ==== Proof.Spec.lean ====
/-
  The function both programs compute, stated once over the extended reals (every float an extended real, every
  operation exact): a three-layer graph convolution with symmetric degree normalisation, followed by the mean of
  the last layer's rows.

  With n_out = clip(deg_out, 1)^(-1/2) and n_in = clip(deg_in, 1)^(-1/2) (deg_out, deg_in the numbers of edges
  leaving and entering a node), S₀ = x ⊙ n_out (each row r scaled by n_out r) and, for ℓ = 1, 2, 3,
      A_ℓ = Σ_{edges e : dst e = r} S_{ℓ-1}[src e]          (gather the rows at src, add them up at dst)
      H_ℓ = max((A_ℓ ⊙ n_in) · W_ℓ + b_ℓ, 0)
      S_ℓ = H_ℓ ⊙ n_out,
  the results are H₃ and the mean over the 100000 rows of H₃.

  The two irregular steps (the degree count with its clip and power: norm; the gather followed by the
  scatter-add: agg) are kept as the host operations they are, applied to whatever array they are given: nothing
  below ever looks inside them. Everything else is written index by index: a row index r : Fin 100000, a column
  index q : Fin 128, a contraction index k : Fin 128.
-/
import proofs.«175313_j15590731285054_1_alg».proof.ReferenceIdeal
import proofs.«175313_j15590731285054_1_alg».proof.Proof.Gen.ReferenceIdeal
import Idealize.ShloMosaic.PureOps.Ideal
import Idealize.ShloMosaic.Lib.ValueIdx
import Idealize.ShloMosaic.PureOps.Ideal.Laws

noncomputable section

open scoped BigOperators

namespace Cert.Spec

open Idealize.ShloMosaic Idealize.SL.Sem Idealize.ShloMosaic.ValueIdx
open Cert.ReferenceIdeal Cert.ReferenceIdeal.Gen

/-! ## The two irregular steps, as host operations -/

/-- clip(segment_sum(1, idx), 1)^(-1/2): the number of edges at each node (a scatter-add of ones into zeros at
    idx), clipped below at 1, to the power -1/2. -/
def norm (idx : (⟨S800000, .i32⟩ : BufTy).Contents (Elt Ideal)) : (⟨S100000, .f32⟩ : BufTy).Contents (Elt Ideal) :=
  Host.powf (F := Ideal) (φ := .f32)
    (maximumf (F := Ideal) (φ := .f32)
      (broadcastInDim S100000 ![] bcast_S_S100000
        (id (constant (F := Ideal) S_ .f32 0x3F800000#32 : (⟨S_, .f32⟩ : BufTy).Contents (Elt Ideal))) :
        (⟨S100000, .f32⟩ : BufTy).Contents (Elt Ideal))
      (Host.scatterAdd (F := Ideal) (φ := .f32) scatter_S100000_S800000x1_S800000_n_0_0_1
        (broadcastInDim S100000 ![] bcast_S_S100000
          (constant (F := Ideal) S_ .f32 0x00000000#32 : (⟨S_, .f32⟩ : BufTy).Contents (Elt Ideal)) :
          (⟨S100000, .f32⟩ : BufTy).Contents (Elt Ideal))
        (broadcastInDim S800000x1 ![0] bcast_S800000_S800000x1_0 idx :
          (⟨S800000x1, .i32⟩ : BufTy).Contents (Elt Ideal))
        (broadcastInDim S800000 ![] bcast_S_S800000
          (constant (F := Ideal) S_ .f32 0x3F800000#32 : (⟨S_, .f32⟩ : BufTy).Contents (Elt Ideal)) :
          (⟨S800000, .f32⟩ : BufTy).Contents (Elt Ideal)) :
        (⟨S100000, .f32⟩ : BufTy).Contents (Elt Ideal)) :
      (⟨S100000, .f32⟩ : BufTy).Contents (Elt Ideal))
    (broadcastInDim S100000 ![] bcast_S_S100000
      (constant (F := Ideal) S_ .f32 0xBF000000#32 : (⟨S_, .f32⟩ : BufTy).Contents (Elt Ideal)) :
      (⟨S100000, .f32⟩ : BufTy).Contents (Elt Ideal))

/-- segment_sum(S[src], dst): the rows of S at src (a negative index first wrapped by adding 100000), added up at
    dst into zeros. -/
def agg (S : (⟨S100000x128, .f32⟩ : BufTy).Contents (Elt Ideal))
    (src dst : (⟨S800000, .i32⟩ : BufTy).Contents (Elt Ideal)) : (⟨S100000x128, .f32⟩ : BufTy).Contents (Elt Ideal) :=
  Host.scatterAdd (F := Ideal) (φ := .f32) scatter_S100000x128_S800000x1_S800000x128_1_0_0_1
    (broadcastInDim S100000x128 ![] bcast_S_S100000x128
      (constant (F := Ideal) S_ .f32 0x00000000#32 : (⟨S_, .f32⟩ : BufTy).Contents (Elt Ideal)) :
      (⟨S100000x128, .f32⟩ : BufTy).Contents (Elt Ideal))
    (broadcastInDim S800000x1 ![0] bcast_S800000_S800000x1_0 dst :
      (⟨S800000x1, .i32⟩ : BufTy).Contents (Elt Ideal))
    (Host.gather gather_S100000x128_S800000x1_S800000x128_1_0_n_n_0_1_1128 S
      (broadcastInDim S800000x1 ![0] bcast_S800000_S800000x1_0
        (select
          (cmpi .slt src
            (broadcastInDim S800000 ![] bcast_S_S800000
              (constantI S_ 32 0#32 : (⟨S_, .i32⟩ : BufTy).Contents (Elt Ideal)) :
              (⟨S800000, .i32⟩ : BufTy).Contents (Elt Ideal)) :
            (⟨S800000, .i1⟩ : BufTy).Contents (Elt Ideal))
          (addi src
            (broadcastInDim S800000 ![] bcast_S_S800000
              (constantI S_ 32 100000#32 : (⟨S_, .i32⟩ : BufTy).Contents (Elt Ideal)) :
              (⟨S800000, .i32⟩ : BufTy).Contents (Elt Ideal)) :
            (⟨S800000, .i32⟩ : BufTy).Contents (Elt Ideal))
          src :
          (⟨S800000, .i32⟩ : BufTy).Contents (Elt Ideal)) :
        (⟨S800000x1, .i32⟩ : BufTy).Contents (Elt Ideal)) :
      (⟨S800000x128, .f32⟩ : BufTy).Contents (Elt Ideal))

/-! ## The regular steps, index by index -/

/-- x ⊙ n: row r of x times n r. -/
def scale (x : (⟨S100000x128, .f32⟩ : BufTy).Contents (Elt Ideal))
    (n : (⟨S100000, .f32⟩ : BufTy).Contents (Elt Ideal)) : (⟨S100000x128, .f32⟩ : BufTy).Contents (Elt Ideal) :=
  fun i => x i * n (ix1 (n := 100000) (i 0))

/-- max((A ⊙ n_in) · W + b, 0) at row r, column q: the sum over k of (A r k · n_in r) · W k q, plus b q, and the
    larger of that and the zero word. -/
def layerH (a : (⟨S100000x128, .f32⟩ : BufTy).Contents (Elt Ideal))
    (nin : (⟨S100000, .f32⟩ : BufTy).Contents (Elt Ideal))
    (W : (⟨S128x128, .f32⟩ : BufTy).Contents (Elt Ideal))
    (b : (⟨S128, .f32⟩ : BufTy).Contents (Elt Ideal)) : (⟨S100000x128, .f32⟩ : BufTy).Contents (Elt Ideal) :=
  fun i =>
    max ((∑ k : Fin 128,
            (a (ix2 (n0 := 100000) (n1 := 128) (i 0) k) * nin (ix1 (n := 100000) (i 0)))
              * W (ix2 (n0 := 128) (n1 := 128) k (i 1)))
          + b (ix1 (n := 128) (i 1)))
      (Ideal.ofBits .f32 0x00000000#32)

/-- The mean over the rows, at column q: the zero word plus the sum over the 100000 rows, divided by the word of
    100000. -/
def mean (H : (⟨S100000x128, .f32⟩ : BufTy).Contents (Elt Ideal)) : (⟨S1x128, .f32⟩ : BufTy).Contents (Elt Ideal) :=
  fun i =>
    Ideal.div
      (Ideal.ofBits .f32 0x00000000#32 + ∑ r : Fin 100000, H (ix2 (n0 := 100000) (n1 := 128) r (i 1)))
      (Ideal.ofBits .f32 0x47C35000#32)

/-! ### The same, read at an index given by its coordinates -/

theorem scale_apply (x : (⟨S100000x128, .f32⟩ : BufTy).Contents (Elt Ideal))
    (n : (⟨S100000, .f32⟩ : BufTy).Contents (Elt Ideal)) (r : Fin 100000) (q : Fin 128) :
    scale x n (ix2 r q) = x (ix2 r q) * n (ix1 r) := rfl

theorem layerH_apply (a : (⟨S100000x128, .f32⟩ : BufTy).Contents (Elt Ideal))
    (nin : (⟨S100000, .f32⟩ : BufTy).Contents (Elt Ideal))
    (W : (⟨S128x128, .f32⟩ : BufTy).Contents (Elt Ideal))
    (b : (⟨S128, .f32⟩ : BufTy).Contents (Elt Ideal)) (r : Fin 100000) (q : Fin 128) :
    layerH a nin W b (ix2 r q)
      = max ((∑ k : Fin 128, (a (ix2 r k) * nin (ix1 r)) * W (ix2 k q)) + b (ix1 q))
          (Ideal.ofBits .f32 0x00000000#32) := rfl

theorem mean_apply (H : (⟨S100000x128, .f32⟩ : BufTy).Contents (Elt Ideal)) (z : Fin 1) (q : Fin 128) :
    mean H (ix2 z q)
      = Ideal.div (Ideal.ofBits .f32 0x00000000#32 + ∑ r : Fin 100000, H (ix2 r q))
          (Ideal.ofBits .f32 0x47C35000#32) := rfl

/-! ## The three layers and the results -/

section
variable (x0 : (⟨S100000x128, .f32⟩ : BufTy).Contents (Elt Ideal))
  (x1 x2 : (⟨S800000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))

/-- H₁ = max((agg(x ⊙ n_out) ⊙ n_in) · W₁ + b₁, 0). -/
def H1 : (⟨S100000x128, .f32⟩ : BufTy).Contents (Elt Ideal) :=
  layerH (agg (scale x0 (norm x1)) x1 x2) (norm x2) x3 x4
/-- S₁ = H₁ ⊙ n_out. -/
def S1 : (⟨S100000x128, .f32⟩ : BufTy).Contents (Elt Ideal) := scale (H1 x0 x1 x2 x3 x4) (norm x1)
/-- H₂ = max((agg(S₁) ⊙ n_in) · W₂ + b₂, 0). -/
def H2 : (⟨S100000x128, .f32⟩ : BufTy).Contents (Elt Ideal) :=
  layerH (agg (S1 x0 x1 x2 x3 x4) x1 x2) (norm x2) x5 x6
/-- S₂ = H₂ ⊙ n_out. -/
def S2 : (⟨S100000x128, .f32⟩ : BufTy).Contents (Elt Ideal) := scale (H2 x0 x1 x2 x3 x4 x5 x6) (norm x1)
/-- H₃ = max((agg(S₂) ⊙ n_in) · W₃ + b₃, 0). -/
def H3 : (⟨S100000x128, .f32⟩ : BufTy).Contents (Elt Ideal) :=
  layerH (agg (S2 x0 x1 x2 x3 x4 x5 x6) x1 x2) (norm x2) x7 x8

/-- The first result: H₃. -/
def out0 : (⟨S100000x128, .f32⟩ : BufTy).Contents (Elt Ideal) := H3 x0 x1 x2 x3 x4 x5 x6 x7 x8
/-- The second result: the mean of H₃'s rows. -/
def out1 : (⟨S1x128, .f32⟩ : BufTy).Contents (Elt Ideal) := mean (H3 x0 x1 x2 x3 x4 x5 x6 x7 x8)

end

/-! ## Two laws of the extended reals -/

/-- A sum over 100000 rows is the sum over 50 tiles of the sums over each tile's 2000 rows: addition of extended
    reals is commutative and associative, so the regrouping needs no finiteness. -/
theorem sum_tiles (f : Fin 100000 → EReal) :
    ∑ t : Fin 50, ∑ j : Fin 2000, f ⟨t.val * 2000 + j.val, by omega⟩ = ∑ r : Fin 100000, f r := by
  rw [← Fintype.sum_prod_type (f := fun p : Fin 50 × Fin 2000 => f ⟨p.1.val * 2000 + p.2.val, by omega⟩)]
  rw [← Equiv.sum_comp (finProdFinEquiv (m := 50) (n := 2000)) f]
  refine Finset.sum_congr rfl fun p _ => congrArg f (Fin.ext ?_)
  simp only [finProdFinEquiv_apply_val]
  omega

/-- The word 0x47C35000 denotes the real 100000. -/
theorem ofBits_100000 : Ideal.ofBits .f32 0x47C35000#32 = ((100000 : ℝ) : EReal) := by
  simp [Ideal.ofBits, Ideal.ieee, -EReal.coe_mul]; norm_num

/-- Division by the word of 100000 is the product with the real 1/100000, on every extended real. -/
theorem div_100000 (x : EReal) :
    Ideal.div x (Ideal.ofBits .f32 0x47C35000#32) = x * ((1 / 100000 : ℝ) : EReal) := by
  rw [ofBits_100000, Ideal.div_coe (by norm_num : (100000 : ℝ) ≠ 0)]

end Cert.Spec

end
-- ==== Proof.KI.Val4.lean ====
/- Region 4 (the mean kernel) over the extended reals: its output array after the region is the mean of the input
   array's rows — the one block of the output window is the whole 1×128 array, written back at the last grid point
   only, where it holds the sum of all 50 tiles' column sums times 1/100000. -/
import proofs.«175313_j15590731285054_1_alg».proof.Proof.KI.Val4Acc
import proofs.«175313_j15590731285054_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- what the TensorCore's buffers hold when the region is entered, over the extended reals
variable (V : (c : Dev nD) → (b : Ref sig .tc) → Buf (Elt Ideal) ((c : Thread nD τ).loc b))

/-! # The mean region's output array over the extended reals: the mean of the input array's rows -/

/-- After the last point the accumulator's entry in column `q` is the zero word plus the sum of that column over all
    100000 rows: the 50 tile sums regrouped into one sum (addition of extended reals is commutative and associative). -/
theorem acc4_last_at (c : Dev nD) (z : Fin 1) (q : Fin 128) (h49 : 49 < cfg4.N) :
    acc4 V c 49 h49 (ix2 z q)
      = Ideal.ofBits .f32 0x00000000#32 + ∑ r : Fin 100000, inArr4 V c (ix2 r q) := by
  rw [acc4_at V c z q 49 h49]
  show Ideal.ofBits .f32 0x00000000#32 + ∑ t ∈ Finset.range 50, tileSum4 V c q t = _
  refine congrArg (Ideal.ofBits .f32 0x00000000#32 + ·) ?_
  rw [← Fin.sum_univ_eq_sum_range (fun t => tileSum4 V c q t) 50]
  refine Eq.trans ?_ (Cert.Spec.sum_tiles fun r => inArr4 V c (ix2 r q))
  refine Finset.sum_congr rfl fun t _ => ?_
  unfold tileSum4
  exact (dif_pos t.isLt).trans rfl

/-- The output window's block index, decided over the 50 grid points: block (0, 0) at every point — its one block is
    the whole 1×128 array. -/
theorem idx_out4 : ∀ t : Fin cfg4.N, win4_1.index t (0 : Fin 2) = 0 ∧ win4_1.index t (1 : Fin 2) = 0 :=
  (by decide +kernel : ∀ t : Fin grid4.N, _)

/-- Where the output window's block sits in its array: entry `(z, q)` of the block is entry `(z, q)` of the array. -/
theorem emb4_1 (t : Fin cfg4.N) (z : Fin 1) (q : Fin 128) : ((cfg4.win 1).blk t).view.emb (ix2 z q) = ix2 z q := by
  have e0 : win4_1.index t (0 : Fin 2) = 0 := (idx_out4 t).1
  have e1 : win4_1.index t (1 : Fin 2) = 0 := (idx_out4 t).2
  funext a; apply Fin.ext
  match a with
  | ⟨0, _⟩ => show win4_1.index t (0 : Fin 2) * 1 + 1 * z.val = z.val; omega
  | ⟨1, _⟩ => show win4_1.index t (1 : Fin 2) * 128 + 1 * q.val = q.val; omega

/-- An index of the array lies in point `t`'s block of the output window iff each coordinate lies in the block's range. -/
theorem mem_blk4_1 (t : Fin cfg4.N) (i : S1x128.Idx) :
    i ∈ ((cfg4.win 1).blk t).view.set ↔ ∀ a : Fin 2, win4_1.index t a * S1x128.size a ≤ (i a).val ∧ (i a).val < win4_1.index t a * S1x128.size a + S1x128.size a := by
  show i ∈ ((View.whole main_v52).slice (win4_1.rect t)).set ↔ _
  rw [View.set_slice_whole, Rect.mem_set_unit]
  exact Iff.rfl

/-- Every index of the output array is written back at the last grid point, whose block is the whole array. -/
theorem covered4_1 (i : S1x128.Idx) :
    ∃ t : Fin cfg4.N, (cfg4.win 1).flush t = true ∧ i ∈ ((cfg4.win 1).blk t).view.set := by
  have hi0 : (i 0).val < 1 := (i 0).isLt
  have hi1 : (i 1).val < 128 := (i 1).isLt
  obtain ⟨t, ht⟩ : ∃ t : Fin cfg4.N, t.val = 49 := ⟨⟨49, lt49_4⟩, rfl⟩
  have e0 : win4_1.index t (0 : Fin 2) = 0 := (idx_out4 t).1
  have e1 : win4_1.index t (1 : Fin 2) = 0 := (idx_out4 t).2
  refine ⟨t, (flush4_1 t).mpr (by omega), ?_⟩
  rw [mem_blk4_1]
  intro a
  match a with
  | ⟨0, _⟩ => show win4_1.index t (0 : Fin 2) * 1 ≤ (i 0).val ∧ (i 0).val < win4_1.index t (0 : Fin 2) * 1 + 1; omega
  | ⟨1, _⟩ => show win4_1.index t (1 : Fin 2) * 128 ≤ (i 1).val ∧ (i 1).val < win4_1.index t (1 : Fin 2) * 128 + 128; omega

/-- What the one writing point — the last — writes back to the output array is the mean of the input array's rows:
    the accumulated column sums times 1/100000 are the sums divided by the word of 100000. -/
theorem flushed4_1_eq (c : Dev nD) (t : Fin cfg4.N) (hf : (cfg4.win 1).flush t = true) :
    (dat4 (F := Ideal) V c).flushed 1 t
      = ((cfg4.win 1).blk t).view.read (Elt Ideal) (Cert.Spec.mean (V c main_v51_0)) := by
  have ht : t.val < 50 := lt_of_lt_of_eq t.isLt N_4
  have h49 : t.val = 49 := by have := (flush4_1 t).mp hf; omega
  obtain ⟨n, hn⟩ := t
  dsimp only at h49; subst h49
  show (cfg4.win 1).cut (grid4.coords ⟨49, hn⟩) ((dat4 V c).after 1 ⟨49, hn⟩) = _
  rw [after4_1]
  show (cfg4.win 1).cut (grid4.coords ⟨49, hn⟩) (outsAt4 V c 49 hn).1 = _
  rw [out_last V c hn]
  funext j
  obtain ⟨z, q, rfl⟩ : ∃ (z : Fin 1) (q : Fin 128), j = ix2 z q := ⟨j 0, j 1, eq_ix2 j⟩
  show k4_pay3 (acc4 V c 49 hn) (ix2 z q)
    = Cert.Spec.mean (V c main_v51_0) (((cfg4.win 1).blk ⟨49, hn⟩).view.emb (ix2 z q))
  rw [emb4_1 ⟨49, hn⟩ z q]
  refine (pay4_3_at (acc4 V c 49 hn) z q).trans ?_
  rw [acc4_last_at V c z q hn]
  refine (Cert.Spec.div_100000 _).symm.trans ?_
  exact (Cert.Spec.mean_apply (inArr4 V c) z q).symm

/-- The output array after the region: the mean of the input array's rows. -/
theorem arr4_1 (c : Dev nD) : (dat4 (F := Ideal) V c).arrAt 1 cfg4.N = Cert.Spec.mean (V c main_v51_0) :=
  (dat4 V c).arrAt_eq_of_cover 1 (Cert.Spec.mean (V c main_v51_0)) (fun t hf => flushed4_1_eq V c t hf) covered4_1

end Cert.KernelIdeal.Hand

end
-- ==== Proof.KI.Bridge.lean ====
/-
  The row-blocked kernels' index-by-index forms (KSpec) are the specification's (Spec) once the two reshaped operands
  are read through the reshape: a length-a vector reshaped to an a×1 column holds at (r, 0) the vector's entry r, and
  reshaped to a 1×a row holds at (0, q) its entry q (a reshape keeps the row-major position). So scaling the rows by the
  column of n is scaling them by n, and a dense layer fed the column of n_in and the row of b is the layer of n_in and b.
-/
import proofs.«175313_j15590731285054_1_alg».proof.Proof.KI.KSpec
import proofs.«175313_j15590731285054_1_alg».proof.Proof.Spec
import Idealize.ShloMosaic.Lib.Pipeline.Value
import Idealize.ShloMosaic.Lib.ValueLayout

noncomputable section

open scoped BigOperators

namespace Cert.KernelIdeal.Hand

open Cert.KernelIdeal Idealize.ShloMosaic Idealize.SL.Sem Idealize.ShloMosaic.ValueIdx

/-- An [a] array reshaped to [a, 1] reads, at (i, u), the operand at i, whatever the unit coordinate u: the row-major
    position of (i, u) is i · 1 + u = i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Scaling the rows by the column reshaped from n is scaling them by n. -/
theorem scale2_cast (x : (⟨S100000x128, .f32⟩ : BufTy).Contents (Elt Ideal))
    (n : (⟨S100000, .f32⟩ : BufTy).Contents (Elt Ideal)) (h : S100000.ShapeCasts S100000x1) :
    scale2 x (shapeCast S100000x1 n h) = Cert.Spec.scale x n := by
  funext i
  obtain ⟨r, q, rfl⟩ : ∃ (r : Fin 100000) (q : Fin 128), i = ix2 r q := ⟨i 0, i 1, eq_ix2 i⟩
  rw [scale2_at, Cert.Spec.scale_apply, shapeCast_a_a1_apply]

/-- The dense layer fed the column reshaped from n_in and the row reshaped from b is the layer of n_in and b. -/
theorem layerH2_cast (a : (⟨S100000x128, .f32⟩ : BufTy).Contents (Elt Ideal))
    (nin : (⟨S100000, .f32⟩ : BufTy).Contents (Elt Ideal))
    (W : (⟨S128x128, .f32⟩ : BufTy).Contents (Elt Ideal))
    (b : (⟨S128, .f32⟩ : BufTy).Contents (Elt Ideal))
    (h1 : S100000.ShapeCasts S100000x1) (h2 : S128.ShapeCasts S1x128) :
    layerH2 a (shapeCast S100000x1 nin h1) W (shapeCast S1x128 b h2) = Cert.Spec.layerH a nin W b := by
  funext i
  obtain ⟨r, q, rfl⟩ : ∃ (r : Fin 100000) (q : Fin 128), i = ix2 r q := ⟨i 0, i 1, eq_ix2 i⟩
  rw [layerH2_at, Cert.Spec.layerH_apply, shapeCast_a_a1_apply, shapeCast_a_1a_apply]

end Cert.KernelIdeal.Hand

end
-- ==== Proof.KI.Chain.lean ====
/-
  The chain's contents at the ideal instance, buffer by buffer, as the specification's terms of the argument arrays:
  the scaled features, then for each layer the aggregate (the specification's gather / scatter-add of the previous
  scaled rows), the layer's two outputs (the region's whole-array functions of its input arrays, which are the
  specification's layer and row-scale once the norm columns and the bias row are read as the vectors they recast),
  and at the end the mean of the last layer's rows.
-/
import proofs.«175313_j15590731285054_1_alg».proof.Proof.KI.Glue
import proofs.«175313_j15590731285054_1_alg».proof.Proof.KI.Halves
import proofs.«175313_j15590731285054_1_alg».proof.Proof.KI.Val0
import proofs.«175313_j15590731285054_1_alg».proof.Proof.KI.Val1
import proofs.«175313_j15590731285054_1_alg».proof.Proof.KI.Val2
import proofs.«175313_j15590731285054_1_alg».proof.Proof.KI.Val3
import proofs.«175313_j15590731285054_1_alg».proof.Proof.KI.Val4
import proofs.«175313_j15590731285054_1_alg».proof.Proof.KI.Bridge
import proofs.«175313_j15590731285054_1_alg».proof.Proof.Spec

set_option maxRecDepth 16384
-- a buffer's type is read off the signature's table of 131 references: the later the reference, the longer the look-up
set_option maxHeartbeats 2000000

noncomputable section

namespace Cert.KernelIdeal.Hand

open Cert.KernelIdeal Cert.KernelIdeal.Gen
open Idealize.ShloMosaic Idealize.ShloMosaic.TcCoe
open Idealize.SL Idealize.SL.Sem Idealize.ShloMosaic.StableHlo

/-- The program's host term for the norm is the specification's. -/
theorem normK_eq (idx : (⟨S800000, .i32⟩ : BufTy).Contents (Elt Ideal)) : normK (F := Ideal) idx = Cert.Spec.norm idx := rfl
/-- The program's host term for the gather / scatter-add is the specification's. -/
theorem aggK_eq (S : (⟨S100000x128, .f32⟩ : BufTy).Contents (Elt Ideal)) (src dst : (⟨S800000, .i32⟩ : BufTy).Contents (Elt Ideal)) :
    aggK (F := Ideal) S src dst = Cert.Spec.agg S src dst := rfl

variable (m : (ℓ : Loc nD τ sig) → Buf (Elt Ideal) ℓ)

/-- The scaled features: each row of the features times its out-degree norm. -/
theorem W6_S0 (c : Dev nD) : W6 m half0 c (Proc.devRef .tc main_v15) = Cert.Spec.scale (m ((c : Thread nD τ).loc main_arg0)) (Cert.Spec.norm (m ((c : Thread nD τ).loc main_arg1))) := by
  refine (W6_arr m half0 c 2).trans ?_
  refine (arr0_2 (Vr5 m) c).trans ?_
  show scale2 (W5 m c (Proc.devRef .tc main_arg0)) (W5 m c (Proc.devRef .tc main_v13)) = _
  rw [W5_arg0, W5_v13, normK_eq, scale2_cast]

/-- The aggregate entering layer 1: the gather / scatter-add of the previous scaled rows. -/
theorem W7_agg1 (c : Dev nD) : W7 m half0 c (Proc.devRef .tc main_v25) = Cert.Spec.agg (Cert.Spec.scale (m ((c : Thread nD τ).loc main_arg0)) (Cert.Spec.norm (m ((c : Thread nD τ).loc main_arg1)))) (m ((c : Thread nD τ).loc main_arg1)) (m ((c : Thread nD τ).loc main_arg2)) := by
  rw [W7_agg, W6_S0, W6_arg1, W6_arg2, aggK_eq]

/-- Layer 1's first output: H1. -/
theorem W8_H1 (c : Dev nD) : W8 m half0 half1 c (Proc.devRef .tc main_v27_0) = Cert.Spec.H1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m half0 half1 c 5).trans ?_
  refine (arr1_5 (Vr7 m half0) c).trans ?_
  show layerH2 (W7 m half0 c (Proc.devRef .tc main_v25)) (W7 m half0 c (Proc.devRef .tc main_v14)) (W7 m half0 c (Proc.devRef .tc main_arg3)) (W7 m half0 c (Proc.devRef .tc main_v26)) = _
  rw [W7_agg1, W7_v14, W5_v14, W7_arg3, W7_bias, W6_arg4, normK_eq, layerH2_cast]
  rfl

/-- Layer 1's second output: S1 = H1 scaled by the out-degree norm. -/
theorem W8_S1 (c : Dev nD) : W8 m half0 half1 c (Proc.devRef .tc main_v27_1) = Cert.Spec.S1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m half0 half1 c 6).trans ?_
  refine (arr1_6 (Vr7 m half0) c).trans ?_
  show scale2 (layerH2 (W7 m half0 c (Proc.devRef .tc main_v25)) (W7 m half0 c (Proc.devRef .tc main_v14)) (W7 m half0 c (Proc.devRef .tc main_arg3)) (W7 m half0 c (Proc.devRef .tc main_v26))) (W7 m half0 c (Proc.devRef .tc main_v13)) = _
  rw [W7_agg1, W7_v14, W5_v14, W7_arg3, W7_bias, W6_arg4, W7_v13, W5_v13]
  simp only [normK_eq]
  rw [layerH2_cast, scale2_cast]
  rfl

/-- The aggregate entering layer 2: the gather / scatter-add of the previous scaled rows. -/
theorem W9_agg2 (c : Dev nD) : W9 m half0 half1 c (Proc.devRef .tc main_v37) = Cert.Spec.agg (Cert.Spec.S1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) := by
  rw [W9_agg, W8_S1, W8_arg1, W8_arg2, aggK_eq]

/-- Layer 2's first output: H2. -/
theorem W10_H2 (c : Dev nD) : W10 m half0 half1 half2 c (Proc.devRef .tc main_v39_0) = Cert.Spec.H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m half0 half1 half2 c 5).trans ?_
  refine (arr2_5 (Vr9 m half0 half1) c).trans ?_
  show layerH2 (W9 m half0 half1 c (Proc.devRef .tc main_v37)) (W9 m half0 half1 c (Proc.devRef .tc main_v14)) (W9 m half0 half1 c (Proc.devRef .tc main_arg5)) (W9 m half0 half1 c (Proc.devRef .tc main_v38)) = _
  rw [W9_agg2, W9_v14, W5_v14, W9_arg5, W9_bias, W8_arg6, normK_eq, layerH2_cast]
  rfl

/-- Layer 2's second output: S2 = H2 scaled by the out-degree norm. -/
theorem W10_S2 (c : Dev nD) : W10 m half0 half1 half2 c (Proc.devRef .tc main_v39_1) = Cert.Spec.S2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m half0 half1 half2 c 6).trans ?_
  refine (arr2_6 (Vr9 m half0 half1) c).trans ?_
  show scale2 (layerH2 (W9 m half0 half1 c (Proc.devRef .tc main_v37)) (W9 m half0 half1 c (Proc.devRef .tc main_v14)) (W9 m half0 half1 c (Proc.devRef .tc main_arg5)) (W9 m half0 half1 c (Proc.devRef .tc main_v38))) (W9 m half0 half1 c (Proc.devRef .tc main_v13)) = _
  rw [W9_agg2, W9_v14, W5_v14, W9_arg5, W9_bias, W8_arg6, W9_v13, W5_v13]
  simp only [normK_eq]
  rw [layerH2_cast, scale2_cast]
  rfl

/-- The aggregate entering layer 3: the gather / scatter-add of the previous scaled rows. -/
theorem W11_agg3 (c : Dev nD) : W11 m half0 half1 half2 c (Proc.devRef .tc main_v49) = Cert.Spec.agg (Cert.Spec.S2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) := by
  rw [W11_agg, W10_S2, W10_arg1, W10_arg2, aggK_eq]

/-- Layer 3's first output: H3. -/
theorem W12_H3 (c : Dev nD) : W12 m half0 half1 half2 half3 c (Proc.devRef .tc main_v51_0) = Cert.Spec.H3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m half0 half1 half2 half3 c 5).trans ?_
  refine (arr3_5 (Vr11 m half0 half1 half2) c).trans ?_
  show layerH2 (W11 m half0 half1 half2 c (Proc.devRef .tc main_v49)) (W11 m half0 half1 half2 c (Proc.devRef .tc main_v14)) (W11 m half0 half1 half2 c (Proc.devRef .tc main_arg7)) (W11 m half0 half1 half2 c (Proc.devRef .tc main_v50)) = _
  rw [W11_agg3, W11_v14, W5_v14, W11_arg7, W11_bias, W10_arg8, normK_eq, layerH2_cast]
  rfl

/-- The first result: the last layer's output, which the mean region reads and leaves as it was. -/
theorem W13_out0 (c : Dev nD) : W13 m half0 half1 half2 half3 half4 c (Proc.devRef .tc main_v51_0) = Cert.Spec.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
by
  refine (W13_in m half0 half1 half2 half3 half4 c 0 rfl).trans ?_
  exact W12_H3 m c

/-- The second result: the mean of the last layer's rows. -/
theorem W13_out1 (c : Dev nD) : W13 m half0 half1 half2 half3 half4 c (Proc.devRef .tc main_v52) = Cert.Spec.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W13_arr m half0 half1 half2 half3 half4 c 1).trans ?_
  refine (arr4_1 (Vr12 m half0 half1 half2 half3) c).trans ?_
  show Cert.Spec.mean (W12 m half0 half1 half2 half3 c (Proc.devRef .tc main_v51_0)) = _
  rw [W12_H3]
  rfl

end Cert.KernelIdeal.Hand

end
-- ==== Proof.RefSpec.lean ====
/-
  The reference program computes the specification (Proof/Spec.lean), at the extended reals.

  The reference is a straight line of host operations; the generated module read here names each stage val_main_vN as
  a function of the argument arrays and says what it holds at an index. Stage by stage:
    * the two degree normalisations (v9 from src, v12 from dst) are the specification's norm, and the three
      gather-then-scatter-add stages (v25, v46, v67) are its agg of the array they are given: equalities of composed
      host terms, nothing opened;
    * a product with n_out broadcast along the columns (v15, v36, v57) is scale: at row r, column q the broadcast reads
      n_out at r;
    * a layer (v33, v54, v75) is layerH: at row r, column q the contraction reads its left operand at (r, k) and the
      weights at (k, q), the left operand is the aggregate times n_in at r, the bias is read at q, and the maximum is
      taken against the zero word;
    * the mean (v79) is mean: at column q the sum over the rows reads H₃ at (r, q).
  Chaining the stages gives the two results.
-/
import proofs.«175313_j15590731285054_1_alg».proof.Proof.Spec
import proofs.«175313_j15590731285054_1_alg».proof.Proof.Gen.ReferenceIdeal.Read

noncomputable section

open scoped BigOperators

namespace Cert.ReferenceIdeal.RefSpec

open Idealize.ShloMosaic Idealize.SL.Sem Idealize.ShloMosaic.ValueIdx
open Cert.ReferenceIdeal Cert.ReferenceIdeal.Gen Cert.ReferenceIdeal.Read

section
variable (x0 : (⟨S100000x128, .f32⟩ : BufTy).Contents (Elt Ideal))
  (x1 x2 : (⟨S800000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))

/-! ## The irregular steps: the same host terms -/

/-- The reference's n_out is the specification's norm of src: the two are one composition of host operations. -/
theorem norm_out : val_main_v9 (F := Ideal) x1 = Cert.Spec.norm x1 := rfl
/-- The reference's n_in is the specification's norm of dst. -/
theorem norm_in : val_main_v12 (F := Ideal) x2 = Cert.Spec.norm x2 := rfl

/-- The first aggregation is agg of the scaled features. -/
theorem agg1 : val_main_v25 (F := Ideal) x0 x1 x2 = Cert.Spec.agg (val_main_v15 (F := Ideal) x0 x1) x1 x2 := rfl
/-- The second aggregation is agg of S₁. -/
theorem agg2 : val_main_v46 (F := Ideal) x0 x1 x2 x3 x4 = Cert.Spec.agg (val_main_v36 (F := Ideal) x0 x1 x2 x3 x4) x1 x2 := rfl
/-- The third aggregation is agg of S₂. -/
theorem agg3 : val_main_v67 (F := Ideal) x0 x1 x2 x3 x4 x5 x6 = Cert.Spec.agg (val_main_v57 (F := Ideal) x0 x1 x2 x3 x4 x5 x6) x1 x2 := rfl

/-! ## The regular steps, index by index -/

/-- S₀ = x ⊙ n_out: the product with n_out broadcast along the columns reads n_out at the row. -/
theorem scale0 : val_main_v15 (F := Ideal) x0 x1 = Cert.Spec.scale (x0) (val_main_v9 (F := Ideal) x1) := by
  funext i
  obtain ⟨r, q, rfl⟩ : ∃ (r : Fin 100000) (q : Fin 128), i = ix2 r q := ⟨i 0, i 1, eq_ix2 i⟩
  have e : idx_main_v13 (idx_main_v14 (ix2 r q)) = ix1 r :=
    funext fun a => Fin.ext (by match a with | ⟨0, _⟩ => rfl)
  rw [val_main_v15_apply, val_main_v14_apply, val_main_v13_apply, e, Cert.Spec.scale_apply]
  simp only [Ideal.mulf_def]

/-- H₁ at row r, column q: the contraction over k of (A₁ r k · n_in r) · W₁ k q, plus b₁ q, against the zero word. -/
theorem layer1 : val_main_v33 (F := Ideal) x0 x1 x2 x3 x4
    = Cert.Spec.layerH (val_main_v25 (F := Ideal) x0 x1 x2) (val_main_v12 (F := Ideal) x2) x3 x4 := by
  funext i
  obtain ⟨r, q, rfl⟩ : ∃ (r : Fin 100000) (q : Fin 128), i = ix2 r q := ⟨i 0, i 1, eq_ix2 i⟩
  have el : ∀ k : Fin 128, lidx_main_v29 (ix2 r q) k = ix2 r k := fun k =>
    funext fun a => Fin.ext (by match a with | ⟨0, _⟩ => rfl | ⟨1, _⟩ => rfl)
  have er : ∀ k : Fin 128, ridx_main_v29 (ix2 r q) k = ix2 k q := fun k =>
    funext fun a => Fin.ext (by match a with | ⟨0, _⟩ => rfl | ⟨1, _⟩ => rfl)
  have en : ∀ k : Fin 128, idx_main_v26 (idx_main_v27 (ix2 r k)) = ix1 r := fun k =>
    funext fun a => Fin.ext (by match a with | ⟨0, _⟩ => rfl)
  have eb : idx_main_v30 (idx_main_v31 (ix2 r q)) = ix1 q :=
    funext fun a => Fin.ext (by match a with | ⟨0, _⟩ => rfl)
  have hs : (∑ k : Fin 128, val_main_v28 (F := Ideal) x0 x1 x2 (lidx_main_v29 (ix2 r q) k) * x3 (ridx_main_v29 (ix2 r q) k))
      = ∑ k : Fin 128, (val_main_v25 (F := Ideal) x0 x1 x2 (ix2 r k) * val_main_v12 (F := Ideal) x2 (ix1 r)) * x3 (ix2 k q) :=
    Finset.sum_congr rfl fun k _ => by
      rw [el k, er k, val_main_v28_apply, val_main_v27_apply, val_main_v26_apply, en k, Ideal.mulf_def]
  rw [val_main_v33_apply, val_main_v32_apply, val_main_v29_apply, val_main_v31_apply,
    val_main_v30_apply, val_main_call2_v0_apply, val_main_call2_cst_apply, eb, Cert.Spec.layerH_apply]
  simp only [hs, Ideal.maximumf_def, Ideal.addf_def, Ideal.ofBits_def]

/-- S₁ = H₁ ⊙ n_out. -/
theorem scale1 : val_main_v36 (F := Ideal) x0 x1 x2 x3 x4 = Cert.Spec.scale (val_main_v33 (F := Ideal) x0 x1 x2 x3 x4) (val_main_v9 (F := Ideal) x1) := by
  funext i
  obtain ⟨r, q, rfl⟩ : ∃ (r : Fin 100000) (q : Fin 128), i = ix2 r q := ⟨i 0, i 1, eq_ix2 i⟩
  have e : idx_main_v34 (idx_main_v35 (ix2 r q)) = ix1 r :=
    funext fun a => Fin.ext (by match a with | ⟨0, _⟩ => rfl)
  rw [val_main_v36_apply, val_main_v35_apply, val_main_v34_apply, e, Cert.Spec.scale_apply]
  simp only [Ideal.mulf_def]

/-- H₂ at row r, column q, as H₁ with A₂, W₂, b₂. -/
theorem layer2 : val_main_v54 (F := Ideal) x0 x1 x2 x3 x4 x5 x6
    = Cert.Spec.layerH (val_main_v46 (F := Ideal) x0 x1 x2 x3 x4) (val_main_v12 (F := Ideal) x2) x5 x6 := by
  funext i
  obtain ⟨r, q, rfl⟩ : ∃ (r : Fin 100000) (q : Fin 128), i = ix2 r q := ⟨i 0, i 1, eq_ix2 i⟩
  have el : ∀ k : Fin 128, lidx_main_v50 (ix2 r q) k = ix2 r k := fun k =>
    funext fun a => Fin.ext (by match a with | ⟨0, _⟩ => rfl | ⟨1, _⟩ => rfl)
  have er : ∀ k : Fin 128, ridx_main_v50 (ix2 r q) k = ix2 k q := fun k =>
    funext fun a => Fin.ext (by match a with | ⟨0, _⟩ => rfl | ⟨1, _⟩ => rfl)
  have en : ∀ k : Fin 128, idx_main_v47 (idx_main_v48 (ix2 r k)) = ix1 r := fun k =>
    funext fun a => Fin.ext (by match a with | ⟨0, _⟩ => rfl)
  have eb : idx_main_v51 (idx_main_v52 (ix2 r q)) = ix1 q :=
    funext fun a => Fin.ext (by match a with | ⟨0, _⟩ => rfl)
  have hs : (∑ k : Fin 128, val_main_v49 (F := Ideal) x0 x1 x2 x3 x4 (lidx_main_v50 (ix2 r q) k) * x5 (ridx_main_v50 (ix2 r q) k))
      = ∑ k : Fin 128, (val_main_v46 (F := Ideal) x0 x1 x2 x3 x4 (ix2 r k) * val_main_v12 (F := Ideal) x2 (ix1 r)) * x5 (ix2 k q) :=
    Finset.sum_congr rfl fun k _ => by
      rw [el k, er k, val_main_v49_apply, val_main_v48_apply, val_main_v47_apply, en k, Ideal.mulf_def]
  rw [val_main_v54_apply, val_main_v53_apply, val_main_v50_apply, val_main_v52_apply,
    val_main_v51_apply, val_main_call3_v0_apply, val_main_call3_cst_apply, eb, Cert.Spec.layerH_apply]
  simp only [hs, Ideal.maximumf_def, Ideal.addf_def, Ideal.ofBits_def]

/-- S₂ = H₂ ⊙ n_out. -/
theorem scale2 : val_main_v57 (F := Ideal) x0 x1 x2 x3 x4 x5 x6 = Cert.Spec.scale (val_main_v54 (F := Ideal) x0 x1 x2 x3 x4 x5 x6) (val_main_v9 (F := Ideal) x1) := by
  funext i
  obtain ⟨r, q, rfl⟩ : ∃ (r : Fin 100000) (q : Fin 128), i = ix2 r q := ⟨i 0, i 1, eq_ix2 i⟩
  have e : idx_main_v55 (idx_main_v56 (ix2 r q)) = ix1 r :=
    funext fun a => Fin.ext (by match a with | ⟨0, _⟩ => rfl)
  rw [val_main_v57_apply, val_main_v56_apply, val_main_v55_apply, e, Cert.Spec.scale_apply]
  simp only [Ideal.mulf_def]

/-- H₃ at row r, column q, as H₁ with A₃, W₃, b₃. -/
theorem layer3 : val_main_v75 (F := Ideal) x0 x1 x2 x3 x4 x5 x6 x7 x8
    = Cert.Spec.layerH (val_main_v67 (F := Ideal) x0 x1 x2 x3 x4 x5 x6) (val_main_v12 (F := Ideal) x2) x7 x8 := by
  funext i
  obtain ⟨r, q, rfl⟩ : ∃ (r : Fin 100000) (q : Fin 128), i = ix2 r q := ⟨i 0, i 1, eq_ix2 i⟩
  have el : ∀ k : Fin 128, lidx_main_v71 (ix2 r q) k = ix2 r k := fun k =>
    funext fun a => Fin.ext (by match a with | ⟨0, _⟩ => rfl | ⟨1, _⟩ => rfl)
  have er : ∀ k : Fin 128, ridx_main_v71 (ix2 r q) k = ix2 k q := fun k =>
    funext fun a => Fin.ext (by match a with | ⟨0, _⟩ => rfl | ⟨1, _⟩ => rfl)
  have en : ∀ k : Fin 128, idx_main_v68 (idx_main_v69 (ix2 r k)) = ix1 r := fun k =>
    funext fun a => Fin.ext (by match a with | ⟨0, _⟩ => rfl)
  have eb : idx_main_v72 (idx_main_v73 (ix2 r q)) = ix1 q :=
    funext fun a => Fin.ext (by match a with | ⟨0, _⟩ => rfl)
  have hs : (∑ k : Fin 128, val_main_v70 (F := Ideal) x0 x1 x2 x3 x4 x5 x6 (lidx_main_v71 (ix2 r q) k) * x7 (ridx_main_v71 (ix2 r q) k))
      = ∑ k : Fin 128, (val_main_v67 (F := Ideal) x0 x1 x2 x3 x4 x5 x6 (ix2 r k) * val_main_v12 (F := Ideal) x2 (ix1 r)) * x7 (ix2 k q) :=
    Finset.sum_congr rfl fun k _ => by
      rw [el k, er k, val_main_v70_apply, val_main_v69_apply, val_main_v68_apply, en k, Ideal.mulf_def]
  rw [val_main_v75_apply, val_main_v74_apply, val_main_v71_apply, val_main_v73_apply,
    val_main_v72_apply, val_main_call4_v0_apply, val_main_call4_cst_apply, eb, Cert.Spec.layerH_apply]
  simp only [hs, Ideal.maximumf_def, Ideal.addf_def, Ideal.ofBits_def]

/-- The mean at column q: the zero word plus the sum of H₃'s column q over the 100000 rows, divided by the word of
    100000. -/
theorem mean_eq : val_main_v79 (F := Ideal) x0 x1 x2 x3 x4 x5 x6 x7 x8 = Cert.Spec.mean (val_main_v75 (F := Ideal) x0 x1 x2 x3 x4 x5 x6 x7 x8) := by
  funext i
  obtain ⟨z, q, rfl⟩ : ∃ (z : Fin 1) (q : Fin 128), i = ix2 z q := ⟨i 0, i 1, eq_ix2 i⟩
  have e : ∀ k : Fin 100000, idx_main_v76 (idx_main_v77 (ix2 z q)) k = ix2 k q := fun k =>
    funext fun a => Fin.ext (by match a with | ⟨0, _⟩ => rfl | ⟨1, _⟩ => rfl)
  have hs : (∑ k : Fin 100000, val_main_v75 (F := Ideal) x0 x1 x2 x3 x4 x5 x6 x7 x8 (idx_main_v76 (idx_main_v77 (ix2 z q)) k))
      = ∑ k : Fin 100000, val_main_v75 (F := Ideal) x0 x1 x2 x3 x4 x5 x6 x7 x8 (ix2 k q) :=
    Finset.sum_congr rfl fun k _ => by rw [e k]
  rw [val_main_v79_apply, val_main_v77_apply, val_main_v76_apply, val_main_v78_apply, val_main_cst_15_apply,
    val_main_cst_14_apply, Cert.Spec.mean_apply]
  simp only [hs, Ideal.hostDivf_def, Ideal.ofBits_def]

/-! ## The layers chained -/

theorem H1_eq : val_main_v33 (F := Ideal) x0 x1 x2 x3 x4 = Cert.Spec.H1 x0 x1 x2 x3 x4 := by
  unfold Cert.Spec.H1; rw [layer1, agg1, scale0, norm_out, norm_in]
theorem S1_eq : val_main_v36 (F := Ideal) x0 x1 x2 x3 x4 = Cert.Spec.S1 x0 x1 x2 x3 x4 := by
  unfold Cert.Spec.S1; rw [scale1, H1_eq, norm_out]
theorem H2_eq : val_main_v54 (F := Ideal) x0 x1 x2 x3 x4 x5 x6 = Cert.Spec.H2 x0 x1 x2 x3 x4 x5 x6 := by
  unfold Cert.Spec.H2; rw [layer2, agg2, S1_eq, norm_in]
theorem S2_eq : val_main_v57 (F := Ideal) x0 x1 x2 x3 x4 x5 x6 = Cert.Spec.S2 x0 x1 x2 x3 x4 x5 x6 := by
  unfold Cert.Spec.S2; rw [scale2, H2_eq, norm_out]
theorem H3_eq : val_main_v75 (F := Ideal) x0 x1 x2 x3 x4 x5 x6 x7 x8 = Cert.Spec.H3 x0 x1 x2 x3 x4 x5 x6 x7 x8 := by
  unfold Cert.Spec.H3; rw [layer3, agg3, S2_eq, norm_in]

/-- The reference's first result is the specification's. -/
theorem ref_out0 : val_main_v75 (F := Ideal) x0 x1 x2 x3 x4 x5 x6 x7 x8 = Cert.Spec.out0 x0 x1 x2 x3 x4 x5 x6 x7 x8 := H3_eq x0 x1 x2 x3 x4 x5 x6 x7 x8
/-- The reference's second result is the specification's. -/
theorem ref_out1 : val_main_v79 (F := Ideal) x0 x1 x2 x3 x4 x5 x6 x7 x8 = Cert.Spec.out1 x0 x1 x2 x3 x4 x5 x6 x7 x8 := by
  unfold Cert.Spec.out1; rw [mean_eq, H3_eq]

end

end Cert.ReferenceIdeal.RefSpec

end
-- ==== Proof.lean ====
/-
  A three-layer graph convolution with symmetric degree normalisation and a mean read-out: the kernel program (a
  row-scale region, three times a host gather / scatter-add followed by a fused layer region, and a mean region that
  accumulates column sums over fifty row tiles) against its reference of host operations.

  At the ideal instance both compute, with n_out = clip(deg_out, 1)^(-1/2), n_in = clip(deg_in, 1)^(-1/2),
  S₀ = x ⊙ n_out and, for ℓ = 1, 2, 3,  A_ℓ = scatter-add at dst of S_{ℓ-1}[src],  H_ℓ = max((A_ℓ ⊙ n_in)·W_ℓ + b_ℓ, 0),
  S_ℓ = H_ℓ ⊙ n_out:  the results H₃ and the mean of H₃'s rows. The two programs apply the same host operations
  for the degree norms and for the gather / scatter-add, which are carried unopened; a region's output array is one
  whole-array function of its input arrays (each row tile computed from the same rows of the inputs), equal index by
  index to the reference's broadcasts, matrix product, sum and maximum; a change of float format is the identity; the
  kernel's mean adds fifty tile sums of two thousand rows where the reference adds a hundred thousand rows — the same
  sum of extended reals, addition being commutative and associative — and multiplies by the named 1/100000 where the
  reference divides by 100000, the same on every extended real. No law used needs the inputs finite.

  The frames: each program's run ends with every unscoped buffer at the last contents of a chain through @main (the
  launch memory, each host stretch applied, each region's outputs replaced); no step writes an argument.
-/
import proofs.«175313_j15590731285054_1_alg».proof.Defs
import proofs.«175313_j15590731285054_1_alg».proof.Proof.Gen.Kernel
import proofs.«175313_j15590731285054_1_alg».proof.Proof.Gen.KernelIdeal
import proofs.«175313_j15590731285054_1_alg».proof.Proof.Gen.ReferenceIdeal
import proofs.«175313_j15590731285054_1_alg».proof.Proof.Gen.Pre_finite_inputs
import proofs.«175313_j15590731285054_1_alg».proof.Proof.Gen.ReferenceIdeal.Run
import proofs.«175313_j15590731285054_1_alg».proof.Proof.Gen.ReferenceIdeal.Read
import proofs.«175313_j15590731285054_1_alg».proof.Proof.K.Frame
import proofs.«175313_j15590731285054_1_alg».proof.Proof.KI.Frame
import proofs.«175313_j15590731285054_1_alg».proof.Proof.KI.Chain
import proofs.«175313_j15590731285054_1_alg».proof.Proof.RefSpec
import Idealize.ShloMosaic.Adequacy
import Idealize.ShloMosaic.Init

set_option maxHeartbeats 2000000

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the mean kernel's literal f32(1/100000) is named, and the name denotes the
    rational 1/100000 at the ideal instance. -/
theorem preserves : Cert.preserves_Kernel_KernelIdeal :=
  IdealRules.named_const.statement Cert.KernelIdeal.κ "inv_100000" .f32 0x3727C5AC#32 ((1 / 100000 : ℝ) : EReal) rfl

open Cert.KernelIdeal Cert.KernelIdeal.Hand in
/-- Both programs end at the specification's two results of the argument arrays. -/
theorem algebraic : Cert.algebraic_KernelIdeal_ReferenceIdeal := by
  intro m ρ m' ρ' _ hagree
  refine ⟨fun c => Cert.Spec.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨
      (h c _ (mem_uc main_v51_0 (by decide))).trans (W13_out0 m c),
      (h c _ (mem_uc main_v52 (by decide))).trans (W13_out1 m c),
      (h c _ (mem_uc main_arg0 (by decide))).trans (W13_arg0 m half0 half1 half2 half3 half4 c),
      (h c _ (mem_uc main_arg1 (by decide))).trans (W13_arg1 m half0 half1 half2 half3 half4 c),
      (h c _ (mem_uc main_arg2 (by decide))).trans (W13_arg2 m half0 half1 half2 half3 half4 c),
      (h c _ (mem_uc main_arg3 (by decide))).trans (W13_arg3 m half0 half1 half2 half3 half4 c),
      (h c _ (mem_uc main_arg4 (by decide))).trans (W13_arg4 m half0 half1 half2 half3 half4 c),
      (h c _ (mem_uc main_arg5 (by decide))).trans (W13_arg5 m half0 half1 half2 half3 half4 c),
      (h c _ (mem_uc main_arg6 (by decide))).trans (W13_arg6 m half0 half1 half2 half3 half4 c),
      (h c _ (mem_uc main_arg7 (by decide))).trans (W13_arg7 m half0 half1 half2 half3 half4 c),
      (h c _ (mem_uc main_arg8 (by decide))).trans (W13_arg8 m half0 half1 half2 half3 half4 c)⟩)
      (run' (F := Ideal) m ρ)
  · refine (θ_run Cert.ReferenceIdeal.defs _ _).mono (fun r h c => ⟨?_, ?_, (h c).2.2⟩)
      (Cert.ReferenceIdeal.Value.run (F := Ideal) m' ρ')
    · refine (h c).1.trans ((Cert.ReferenceIdeal.Read.val_main_v75_eq m' c).trans ((Cert.ReferenceIdeal.RefSpec.ref_out0 _ _ _ _ _ _ _ _ _).trans ?_))
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    · refine (h c).2.1.trans ((Cert.ReferenceIdeal.Read.val_main_v79_eq m' c).trans ((Cert.ReferenceIdeal.RefSpec.ref_out1 _ _ _ _ _ _ _ _ _).trans ?_))
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
